-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v678)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v678) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v673) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2097152x3 : Shape := ⟨3, ![1, 2097152, 3]⟩
abbrev S1x16x320x320 : Shape := ⟨4, ![1, 16, 320, 320]⟩
abbrev S1x16x320 : Shape := ⟨3, ![1, 16, 320]⟩
abbrev S1x48x27 : Shape := ⟨3, ![1, 48, 27]⟩
abbrev S_ : Shape := ⟨0, ![]⟩

class Facts : Prop where
  bcast_S_S1x2097152x3 : S_.BroadcastsInDim S1x2097152x3 (![] : Fin 0 → Fin S1x2097152x3.rank)
  reducesTo_S1x2097152x3_S_d0_1_2 : S1x2097152x3.ReducesTo [0, 1, 2] S_
  h_S_ : 0 < S_.numel
  bcast_S_S1x16x320x320 : S_.BroadcastsInDim S1x16x320x320 (![] : Fin 0 → Fin S1x16x320x320.rank)
  reducesTo_S1x16x320x320_S_d0_1_2_3 : S1x16x320x320.ReducesTo [0, 1, 2, 3] S_
  bcast_S_S1x16x320 : S_.BroadcastsInDim S1x16x320 (![] : Fin 0 → Fin S1x16x320.rank)
  reducesTo_S1x16x320_S_d0_1_2 : S1x16x320.ReducesTo [0, 1, 2] S_
  bcast_S_S1x48x27 : S_.BroadcastsInDim S1x48x27 (![] : Fin 0 → Fin S1x48x27.rank)
  reducesTo_S1x48x27_S_d0_1_2 : S1x48x27.ReducesTo [0, 1, 2] S_

variable [Facts]

def fn_part2 {F : FTy → Type} [FloatOps F] (main_arg7 : FVec F S1x48x27 .f32) (main_v33 : IVec S_ 1) : IVec S_ 1 :=
  let main_v34 : FVec F S1x48x27 .f32 := Host.absf main_arg7
  let main_cst_12 : FVec F S_ .f32 := constant S_ .f32 0x7F800000#32
  let main_v35 : FVec F S1x48x27 .f32 := broadcastInDim S1x48x27 ![] bcast_S_S1x48x27 main_cst_12
  let main_v36 : IVec S1x48x27 1 := cmpf .olt main_v34 main_v35
  let main_c_13 : IVec S_ 1 := constantI S_ 1 1#1
  let main_v37 : IVec S_ 1 := (fun x v => Host.reduce IntOp.andi x v reducesTo_S1x48x27_S_d0_1_2 h_S_) main_v36 main_c_13
  let main_v38 : IVec S_ 1 := andi main_v33 main_v37
  main_v38

def fn_part1 {F : FTy → Type} [FloatOps F] (main_arg4 : FVec F S1x16x320 .f32) (main_arg5 : FVec F S1x16x320 .f32) (main_arg6 : FVec F S1x16x320 .f32) (main_arg7 : FVec F S1x48x27 .f32) (main_v13 : IVec S_ 1) (main_v16 : IVec S1x16x320x320 1) : IVec S_ 1 :=
  let main_c_5 : IVec S_ 1 := constantI S_ 1 1#1
  let main_v17 : IVec S_ 1 := (fun x v => Host.reduce IntOp.andi x v reducesTo_S1x16x320x320_S_d0_1_2_3 h_S_) main_v16 main_c_5
  let main_v18 : IVec S_ 1 := andi main_v13 main_v17
  let main_v19 : FVec F S1x16x320 .f32 := Host.absf main_arg4
  let main_cst_6 : FVec F S_ .f32 := constant S_ .f32 0x7F800000#32
  let main_v20 : FVec F S1x16x320 .f32 := broadcastInDim S1x16x320 ![] bcast_S_S1x16x320 main_cst_6
  let main_v21 : IVec S1x16x320 1 := cmpf .olt main_v19 main_v20
  let main_c_7 : IVec S_ 1 := constantI S_ 1 1#1
  let main_v22 : IVec S_ 1 := (fun x v => Host.reduce IntOp.andi x v reducesTo_S1x16x320_S_d0_1_2 h_S_) main_v21 main_c_7
  let main_v23 : IVec S_ 1 := andi main_v18 main_v22
  let main_v24 : FVec F S1x16x320 .f32 := Host.absf main_arg5
  let main_cst_8 : FVec F S_ .f32 := constant S_ .f32 0x7F800000#32
  let main_v25 : FVec F S1x16x320 .f32 := broadcastInDim S1x16x320 ![] bcast_S_S1x16x320 main_cst_8
  let main_v26 : IVec S1x16x320 1 := cmpf .olt main_v24 main_v25
  let main_c_9 : IVec S_ 1 := constantI S_ 1 1#1
  let main_v27 : IVec S_ 1 := (fun x v => Host.reduce IntOp.andi x v reducesTo_S1x16x320_S_d0_1_2 h_S_) main_v26 main_c_9
  let main_v28 : IVec S_ 1 := andi main_v23 main_v27
  let main_v29 : FVec F S1x16x320 .f32 := Host.absf main_arg6
  let main_cst_10 : FVec F S_ .f32 := constant S_ .f32 0x7F800000#32
  let main_v30 : FVec F S1x16x320 .f32 := broadcastInDim S1x16x320 ![] bcast_S_S1x16x320 main_cst_10
  let main_v31 : IVec S1x16x320 1 := cmpf .olt main_v29 main_v30
  let main_c_11 : IVec S_ 1 := constantI S_ 1 1#1
  let main_v32 : IVec S_ 1 := (fun x v => Host.reduce IntOp.andi x v reducesTo_S1x16x320_S_d0_1_2 h_S_) main_v31 main_c_11
  let main_v33 : IVec S_ 1 := andi main_v28 main_v32
  fn_part2 (F := F) main_arg7 main_v33

def fn {F : FTy → Type} [FloatOps F] (main_arg0 : FVec F S1x2097152x3 .f32) (main_arg1 : FVec F S1x16x320x320 .f32) (main_arg2 : FVec F S1x16x320x320 .f32) (main_arg3 : FVec F S1x16x320x320 .f32) (main_arg4 : FVec F S1x16x320 .f32) (main_arg5 : FVec F S1x16x320 .f32) (main_arg6 : FVec F S1x16x320 .f32) (main_arg7 : FVec F S1x48x27 .f32) : IVec S_ 1 :=
  let main_v0 : FVec F S1x2097152x3 .f32 := Host.absf main_arg0
  let main_cst : FVec F S_ .f32 := constant S_ .f32 0x7F800000#32
  let main_v1 : FVec F S1x2097152x3 .f32 := broadcastInDim S1x2097152x3 ![] bcast_S_S1x2097152x3 main_cst
  let main_v2 : IVec S1x2097152x3 1 := cmpf .olt main_v0 main_v1
  let main_c : IVec S_ 1 := constantI S_ 1 1#1
  let main_v3 : IVec S_ 1 := (fun x v => Host.reduce IntOp.andi x v reducesTo_S1x2097152x3_S_d0_1_2 h_S_) main_v2 main_c
  let main_v4 : FVec F S1x16x320x320 .f32 := Host.absf main_arg1
  let main_cst_0 : FVec F S_ .f32 := constant S_ .f32 0x7F800000#32
  let main_v5 : FVec F S1x16x320x320 .f32 := broadcastInDim S1x16x320x320 ![] bcast_S_S1x16x320x320 main_cst_0
  let main_v6 : IVec S1x16x320x320 1 := cmpf .olt main_v4 main_v5
  let main_c_1 : IVec S_ 1 := constantI S_ 1 1#1
  let main_v7 : IVec S_ 1 := (fun x v => Host.reduce IntOp.andi x v reducesTo_S1x16x320x320_S_d0_1_2_3 h_S_) main_v6 main_c_1
  let main_v8 : IVec S_ 1 := andi main_v3 main_v7
  let main_v9 : FVec F S1x16x320x320 .f32 := Host.absf main_arg2
  let main_cst_2 : FVec F S_ .f32 := constant S_ .f32 0x7F800000#32
  let main_v10 : FVec F S1x16x320x320 .f32 := broadcastInDim S1x16x320x320 ![] bcast_S_S1x16x320x320 main_cst_2
  let main_v11 : IVec S1x16x320x320 1 := cmpf .olt main_v9 main_v10
  let main_c_3 : IVec S_ 1 := constantI S_ 1 1#1
  let main_v12 : IVec S_ 1 := (fun x v => Host.reduce IntOp.andi x v reducesTo_S1x16x320x320_S_d0_1_2_3 h_S_) main_v11 main_c_3
  let main_v13 : IVec S_ 1 := andi main_v8 main_v12
  let main_v14 : FVec F S1x16x320x320 .f32 := Host.absf main_arg3
  let main_cst_4 : FVec F S_ .f32 := constant S_ .f32 0x7F800000#32
  let main_v15 : FVec F S1x16x320x320 .f32 := broadcastInDim S1x16x320x320 ![] bcast_S_S1x16x320x320 main_cst_4
  let main_v16 : IVec S1x16x320x320 1 := cmpf .olt main_v14 main_v15
  fn_part1 (F := F) main_arg4 main_arg5 main_arg6 main_arg7 main_v13 main_v16
-- ==== Kernel.lean ====
abbrev S1x2097152x3 : Shape := ⟨3, ![1, 2097152, 3]⟩
abbrev S1x16x320x320 : Shape := ⟨4, ![1, 16, 320, 320]⟩
abbrev S1x16x320 : Shape := ⟨3, ![1, 16, 320]⟩
abbrev S1x48x27 : Shape := ⟨3, ![1, 48, 27]⟩
abbrev S1x2097152x1 : Shape := ⟨3, ![1, 2097152, 1]⟩
abbrev S1x2097152 : Shape := ⟨2, ![1, 2097152]⟩
abbrev S_ : Shape := ⟨0, ![]⟩
abbrev S1x2097152x2 : Shape := ⟨3, ![1, 2097152, 2]⟩
abbrev S1x16x2097152 : Shape := ⟨3, ![1, 16, 2097152]⟩
abbrev S1x1x2097152 : Shape := ⟨3, ![1, 1, 2097152]⟩
abbrev S16x2097152 : Shape := ⟨2, ![16, 2097152]⟩
abbrev S48x27 : Shape := ⟨2, ![48, 27]⟩
abbrev S16x27 : Shape := ⟨2, ![16, 27]⟩
abbrev S2097152x27 : Shape := ⟨2, ![2097152, 27]⟩
abbrev S16x32768 : Shape := ⟨2, ![16, 32768]⟩
abbrev S32768x27 : Shape := ⟨2, ![32768, 27]⟩
abbrev S1x2097152x27 : Shape := ⟨3, ![1, 2097152, 27]⟩

abbrev nBuf : Space → Nat
  | .hbm => 1074
  | .vmem => 11
  | .smem => 0
  | _ => 0

abbrev hbmTy0_0 (i : Nat) : BufTy := match i % 128 with
  | 0 => ⟨S1x2097152x3, .f32⟩
  | 1 => ⟨S1x16x320x320, .f32⟩
  | 2 => ⟨S1x16x320x320, .f32⟩
  | 3 => ⟨S1x16x320x320, .f32⟩
  | 4 => ⟨S1x16x320, .f32⟩
  | 5 => ⟨S1x16x320, .f32⟩
  | 6 => ⟨S1x16x320, .f32⟩
  | 7 => ⟨S1x48x27, .f32⟩
  | 8 => ⟨S1x2097152x1, .f32⟩
  | 9 => ⟨S1x2097152, .f32⟩
  | 10 => ⟨S1x2097152x1, .f32⟩
  | 11 => ⟨S1x2097152, .f32⟩
  | 12 => ⟨S1x2097152x1, .f32⟩
  | 13 => ⟨S1x2097152, .f32⟩
  | 14 => ⟨S_, .f32⟩
  | 15 => ⟨S1x2097152, .f32⟩
  | 16 => ⟨S1x2097152, .f32⟩
  | 17 => ⟨S_, .f32⟩
  | 18 => ⟨S1x2097152, .f32⟩
  | 19 => ⟨S1x2097152, .f32⟩
  | 20 => ⟨S_, .f32⟩
  | 21 => ⟨S1x2097152, .f32⟩
  | 22 => ⟨S1x2097152, .f32⟩
  | 23 => ⟨S_, .f32⟩
  | 24 => ⟨S1x2097152, .f32⟩
  | 25 => ⟨S1x2097152, .f32⟩
  | 26 => ⟨S_, .f32⟩
  | 27 => ⟨S1x2097152, .f32⟩
  | 28 => ⟨S1x2097152, .f32⟩
  | 29 => ⟨S_, .f32⟩
  | 30 => ⟨S1x2097152, .f32⟩
  | 31 => ⟨S1x2097152, .f32⟩
  | 32 => ⟨S1x2097152, .f32⟩
  | 33 => ⟨S1x2097152, .f32⟩
  | 34 => ⟨S1x2097152, .f32⟩
  | 35 => ⟨S1x2097152, .f32⟩
  | 36 => ⟨S1x2097152, .i32⟩
  | 37 => ⟨S1x2097152, .i32⟩
  | 38 => ⟨S_, .f32⟩
  | 39 => ⟨S1x2097152, .f32⟩
  | 40 => ⟨S1x2097152, .f32⟩
  | 41 => ⟨S_, .f32⟩
  | 42 => ⟨S1x2097152, .f32⟩
  | 43 => ⟨S1x2097152, .f32⟩
  | 44 => ⟨S1x2097152, .f32⟩
  | 45 => ⟨S_, .i32⟩
  | 46 => ⟨S1x2097152, .i32⟩
  | 47 => ⟨S1x2097152, .i1⟩
  | 48 => ⟨S_, .i32⟩
  | 49 => ⟨S1x2097152, .i32⟩
  | 50 => ⟨S1x2097152, .i1⟩
  | 51 => ⟨S1x2097152, .i1⟩
  | 52 => ⟨S_, .i32⟩
  | 53 => ⟨S1x2097152, .i32⟩
  | 54 => ⟨S1x2097152, .i1⟩
  | 55 => ⟨S1x2097152, .i1⟩
  | 56 => ⟨S_, .i32⟩
  | 57 => ⟨S1x2097152, .i32⟩
  | 58 => ⟨S1x2097152, .i1⟩
  | 59 => ⟨S1x2097152, .i1⟩
  | 60 => ⟨S1x2097152, .f32⟩
  | 61 => ⟨S_, .i32⟩
  | 62 => ⟨S_, .i32⟩
  | 63 => ⟨S_, .i32⟩
  | 64 => ⟨S1x2097152, .i32⟩
  | 65 => ⟨S1x2097152, .i32⟩
  | 66 => ⟨S_, .i32⟩
  | 67 => ⟨S1x2097152, .i32⟩
  | 68 => ⟨S1x2097152, .i32⟩
  | 69 => ⟨S_, .i32⟩
  | 70 => ⟨S_, .i32⟩
  | 71 => ⟨S_, .i32⟩
  | 72 => ⟨S1x2097152, .i32⟩
  | 73 => ⟨S1x2097152, .i32⟩
  | 74 => ⟨S_, .i32⟩
  | 75 => ⟨S1x2097152, .i32⟩
  | 76 => ⟨S1x2097152, .i32⟩
  | 77 => ⟨S_, .i32⟩
  | 78 => ⟨S1x2097152, .i32⟩
  | 79 => ⟨S1x2097152, .i1⟩
  | 80 => ⟨S_, .i32⟩
  | 81 => ⟨S1x2097152, .i32⟩
  | 82 => ⟨S1x2097152, .i32⟩
  | 83 => ⟨S1x2097152, .i32⟩
  | 84 => ⟨S_, .i32⟩
  | 85 => ⟨S1x2097152, .i32⟩
  | 86 => ⟨S1x2097152, .i1⟩
  | 87 => ⟨S_, .i32⟩
  | 88 => ⟨S1x2097152, .i32⟩
  | 89 => ⟨S1x2097152, .i32⟩
  | 90 => ⟨S1x2097152, .i32⟩
  | 91 => ⟨S1x2097152x1, .i32⟩
  | 92 => ⟨S1x2097152x1, .i32⟩
  | 93 => ⟨S1x2097152x2, .i32⟩
  | 94 => ⟨S1x16x2097152, .f32⟩
  | 95 => ⟨S1x2097152, .f32⟩
  | 96 => ⟨S1x1x2097152, .f32⟩
  | 97 => ⟨S1x16x2097152, .f32⟩
  | 98 => ⟨S1x16x2097152, .f32⟩
  | 99 => ⟨S_, .i32⟩
  | 100 => ⟨S1x2097152, .i32⟩
  | 101 => ⟨S1x2097152, .i32⟩
  | 102 => ⟨S_, .f32⟩
  | 103 => ⟨S1x2097152, .f32⟩
  | 104 => ⟨S1x2097152, .f32⟩
  | 105 => ⟨S1x2097152, .f32⟩
  | 106 => ⟨S_, .i32⟩
  | 107 => ⟨S1x2097152, .i32⟩
  | 108 => ⟨S1x2097152, .i1⟩
  | 109 => ⟨S_, .i32⟩
  | 110 => ⟨S1x2097152, .i32⟩
  | 111 => ⟨S1x2097152, .i1⟩
  | 112 => ⟨S1x2097152, .i1⟩
  | 113 => ⟨S_, .i32⟩
  | 114 => ⟨S1x2097152, .i32⟩
  | 115 => ⟨S1x2097152, .i1⟩
  | 116 => ⟨S1x2097152, .i1⟩
  | 117 => ⟨S_, .i32⟩
  | 118 => ⟨S1x2097152, .i32⟩
  | 119 => ⟨S1x2097152, .i1⟩
  | 120 => ⟨S1x2097152, .i1⟩
  | 121 => ⟨S1x2097152, .f32⟩
  | 122 => ⟨S_, .i32⟩
  | 123 => ⟨S_, .i32⟩
  | 124 => ⟨S_, .i32⟩
  | 125 => ⟨S1x2097152, .i32⟩
  | 126 => ⟨S1x2097152, .i32⟩
  | 127 => ⟨S_, .i32⟩
  | _ => ⟨S1x2097152x3, .f32⟩

abbrev hbmTy0_1 (i : Nat) : BufTy := match i % 128 with
  | 0 => ⟨S1x2097152, .i32⟩
  | 1 => ⟨S1x2097152, .i32⟩
  | 2 => ⟨S_, .i32⟩
  | 3 => ⟨S_, .i32⟩
  | 4 => ⟨S_, .i32⟩
  | 5 => ⟨S1x2097152, .i32⟩
  | 6 => ⟨S1x2097152, .i32⟩
  | 7 => ⟨S_, .i32⟩
  | 8 => ⟨S1x2097152, .i32⟩
  | 9 => ⟨S1x2097152, .i32⟩
  | 10 => ⟨S_, .i32⟩
  | 11 => ⟨S1x2097152, .i32⟩
  | 12 => ⟨S1x2097152, .i1⟩
  | 13 => ⟨S_, .i32⟩
  | 14 => ⟨S1x2097152, .i32⟩
  | 15 => ⟨S1x2097152, .i32⟩
  | 16 => ⟨S1x2097152, .i32⟩
  | 17 => ⟨S_, .i32⟩
  | 18 => ⟨S1x2097152, .i32⟩
  | 19 => ⟨S1x2097152, .i1⟩
  | 20 => ⟨S_, .i32⟩
  | 21 => ⟨S1x2097152, .i32⟩
  | 22 => ⟨S1x2097152, .i32⟩
  | 23 => ⟨S1x2097152, .i32⟩
  | 24 => ⟨S1x2097152x1, .i32⟩
  | 25 => ⟨S1x2097152x1, .i32⟩
  | 26 => ⟨S1x2097152x2, .i32⟩
  | 27 => ⟨S1x16x2097152, .f32⟩
  | 28 => ⟨S1x2097152, .f32⟩
  | 29 => ⟨S1x1x2097152, .f32⟩
  | 30 => ⟨S1x16x2097152, .f32⟩
  | 31 => ⟨S1x16x2097152, .f32⟩
  | 32 => ⟨S1x16x2097152, .f32⟩
  | 33 => ⟨S_, .i32⟩
  | 34 => ⟨S1x2097152, .i32⟩
  | 35 => ⟨S1x2097152, .i32⟩
  | 36 => ⟨S_, .f32⟩
  | 37 => ⟨S1x2097152, .f32⟩
  | 38 => ⟨S1x2097152, .f32⟩
  | 39 => ⟨S1x2097152, .f32⟩
  | 40 => ⟨S_, .i32⟩
  | 41 => ⟨S1x2097152, .i32⟩
  | 42 => ⟨S1x2097152, .i1⟩
  | 43 => ⟨S_, .i32⟩
  | 44 => ⟨S1x2097152, .i32⟩
  | 45 => ⟨S1x2097152, .i1⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S_, .i32⟩
  | 52 => ⟨S1x2097152, .i32⟩
  | 53 => ⟨S1x2097152, .i1⟩
  | 54 => ⟨S1x2097152, .i1⟩
  | 55 => ⟨S1x2097152, .f32⟩
  | 56 => ⟨S_, .i32⟩
  | 57 => ⟨S_, .i32⟩
  | 58 => ⟨S_, .i32⟩
  | 59 => ⟨S1x2097152, .i32⟩
  | 60 => ⟨S1x2097152, .i32⟩
  | 61 => ⟨S_, .i32⟩
  | 62 => ⟨S1x2097152, .i32⟩
  | 63 => ⟨S1x2097152, .i32⟩
  | 64 => ⟨S_, .i32⟩
  | 65 => ⟨S_, .i32⟩
  | 66 => ⟨S_, .i32⟩
  | 67 => ⟨S1x2097152, .i32⟩
  | 68 => ⟨S1x2097152, .i32⟩
  | 69 => ⟨S_, .i32⟩
  | 70 => ⟨S1x2097152, .i32⟩
  | 71 => ⟨S1x2097152, .i32⟩
  | 72 => ⟨S_, .i32⟩
  | 73 => ⟨S1x2097152, .i32⟩
  | 74 => ⟨S1x2097152, .i1⟩
  | 75 => ⟨S_, .i32⟩
  | 76 => ⟨S1x2097152, .i32⟩
  | 77 => ⟨S1x2097152, .i32⟩
  | 78 => ⟨S1x2097152, .i32⟩
  | 79 => ⟨S_, .i32⟩
  | 80 => ⟨S1x2097152, .i32⟩
  | 81 => ⟨S1x2097152, .i1⟩
  | 82 => ⟨S_, .i32⟩
  | 83 => ⟨S1x2097152, .i32⟩
  | 84 => ⟨S1x2097152, .i32⟩
  | 85 => ⟨S1x2097152, .i32⟩
  | 86 => ⟨S1x2097152x1, .i32⟩
  | 87 => ⟨S1x2097152x1, .i32⟩
  | 88 => ⟨S1x2097152x2, .i32⟩
  | 89 => ⟨S1x16x2097152, .f32⟩
  | 90 => ⟨S1x2097152, .f32⟩
  | 91 => ⟨S1x1x2097152, .f32⟩
  | 92 => ⟨S1x16x2097152, .f32⟩
  | 93 => ⟨S1x16x2097152, .f32⟩
  | 94 => ⟨S1x16x2097152, .f32⟩
  | 95 => ⟨S_, .i32⟩
  | 96 => ⟨S1x2097152, .i32⟩
  | 97 => ⟨S1x2097152, .i32⟩
  | 98 => ⟨S_, .i32⟩
  | 99 => ⟨S1x2097152, .i32⟩
  | 100 => ⟨S1x2097152, .i32⟩
  | 101 => ⟨S1x2097152, .f32⟩
  | 102 => ⟨S_, .i32⟩
  | 103 => ⟨S1x2097152, .i32⟩
  | 104 => ⟨S1x2097152, .i1⟩
  | 105 => ⟨S_, .i32⟩
  | 106 => ⟨S1x2097152, .i32⟩
  | 107 => ⟨S1x2097152, .i1⟩
  | 108 => ⟨S1x2097152, .i1⟩
  | 109 => ⟨S_, .i32⟩
  | 110 => ⟨S1x2097152, .i32⟩
  | 111 => ⟨S1x2097152, .i1⟩
  | 112 => ⟨S1x2097152, .i1⟩
  | 113 => ⟨S_, .i32⟩
  | 114 => ⟨S1x2097152, .i32⟩
  | 115 => ⟨S1x2097152, .i1⟩
  | 116 => ⟨S1x2097152, .i1⟩
  | 117 => ⟨S1x2097152, .f32⟩
  | 118 => ⟨S_, .i32⟩
  | 119 => ⟨S_, .i32⟩
  | 120 => ⟨S_, .i32⟩
  | 121 => ⟨S1x2097152, .i32⟩
  | 122 => ⟨S1x2097152, .i32⟩
  | 123 => ⟨S_, .i32⟩
  | 124 => ⟨S1x2097152, .i32⟩
  | 125 => ⟨S1x2097152, .i32⟩
  | 126 => ⟨S_, .i32⟩
  | 127 => ⟨S_, .i32⟩
  | _ => ⟨S1x2097152x3, .f32⟩

abbrev hbmTy0_2 (i : Nat) : BufTy := match i % 128 with
  | 0 => ⟨S_, .i32⟩
  | 1 => ⟨S1x2097152, .i32⟩
  | 2 => ⟨S1x2097152, .i32⟩
  | 3 => ⟨S_, .i32⟩
  | 4 => ⟨S1x2097152, .i32⟩
  | 5 => ⟨S1x2097152, .i32⟩
  | 6 => ⟨S_, .i32⟩
  | 7 => ⟨S1x2097152, .i32⟩
  | 8 => ⟨S1x2097152, .i1⟩
  | 9 => ⟨S_, .i32⟩
  | 10 => ⟨S1x2097152, .i32⟩
  | 11 => ⟨S1x2097152, .i32⟩
  | 12 => ⟨S1x2097152, .i32⟩
  | 13 => ⟨S_, .i32⟩
  | 14 => ⟨S1x2097152, .i32⟩
  | 15 => ⟨S1x2097152, .i1⟩
  | 16 => ⟨S_, .i32⟩
  | 17 => ⟨S1x2097152, .i32⟩
  | 18 => ⟨S1x2097152, .i32⟩
  | 19 => ⟨S1x2097152, .i32⟩
  | 20 => ⟨S1x2097152x1, .i32⟩
  | 21 => ⟨S1x2097152x1, .i32⟩
  | 22 => ⟨S1x2097152x2, .i32⟩
  | 23 => ⟨S1x16x2097152, .f32⟩
  | 24 => ⟨S1x2097152, .f32⟩
  | 25 => ⟨S1x1x2097152, .f32⟩
  | 26 => ⟨S1x16x2097152, .f32⟩
  | 27 => ⟨S1x16x2097152, .f32⟩
  | 28 => ⟨S1x16x2097152, .f32⟩
  | 29 => ⟨S_, .f32⟩
  | 30 => ⟨S1x2097152, .f32⟩
  | 31 => ⟨S1x2097152, .f32⟩
  | 32 => ⟨S_, .f32⟩
  | 33 => ⟨S1x2097152, .f32⟩
  | 34 => ⟨S1x2097152, .f32⟩
  | 35 => ⟨S_, .f32⟩
  | 36 => ⟨S1x2097152, .f32⟩
  | 37 => ⟨S1x2097152, .f32⟩
  | 38 => ⟨S1x2097152, .f32⟩
  | 39 => ⟨S1x2097152, .f32⟩
  | 40 => ⟨S1x2097152, .i32⟩
  | 41 => ⟨S_, .f32⟩
  | 42 => ⟨S1x2097152, .f32⟩
  | 43 => ⟨S1x2097152, .f32⟩
  | 44 => ⟨S_, .i32⟩
  | 45 => ⟨S1x2097152, .i32⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S1x2097152, .f32⟩
  | 52 => ⟨S_, .i32⟩
  | 53 => ⟨S_, .i32⟩
  | 54 => ⟨S_, .i32⟩
  | 55 => ⟨S1x2097152, .i32⟩
  | 56 => ⟨S1x2097152, .i32⟩
  | 57 => ⟨S_, .i32⟩
  | 58 => ⟨S1x2097152, .i32⟩
  | 59 => ⟨S1x2097152, .i32⟩
  | 60 => ⟨S_, .i32⟩
  | 61 => ⟨S1x2097152, .i32⟩
  | 62 => ⟨S1x2097152, .i1⟩
  | 63 => ⟨S_, .i32⟩
  | 64 => ⟨S1x2097152, .i32⟩
  | 65 => ⟨S1x2097152, .i32⟩
  | 66 => ⟨S1x2097152, .i32⟩
  | 67 => ⟨S1x2097152x1, .i32⟩
  | 68 => ⟨S1x16x2097152, .f32⟩
  | 69 => ⟨S1x2097152, .f32⟩
  | 70 => ⟨S1x1x2097152, .f32⟩
  | 71 => ⟨S1x16x2097152, .f32⟩
  | 72 => ⟨S1x16x2097152, .f32⟩
  | 73 => ⟨S_, .i32⟩
  | 74 => ⟨S1x2097152, .i32⟩
  | 75 => ⟨S1x2097152, .i32⟩
  | 76 => ⟨S_, .i32⟩
  | 77 => ⟨S1x2097152, .i32⟩
  | 78 => ⟨S1x2097152, .i1⟩
  | 79 => ⟨S_, .i32⟩
  | 80 => ⟨S1x2097152, .i32⟩
  | 81 => ⟨S1x2097152, .i1⟩
  | 82 => ⟨S1x2097152, .i1⟩
  | 83 => ⟨S1x2097152, .f32⟩
  | 84 => ⟨S_, .i32⟩
  | 85 => ⟨S_, .i32⟩
  | 86 => ⟨S_, .i32⟩
  | 87 => ⟨S1x2097152, .i32⟩
  | 88 => ⟨S1x2097152, .i32⟩
  | 89 => ⟨S_, .i32⟩
  | 90 => ⟨S1x2097152, .i32⟩
  | 91 => ⟨S1x2097152, .i32⟩
  | 92 => ⟨S_, .i32⟩
  | 93 => ⟨S1x2097152, .i32⟩
  | 94 => ⟨S1x2097152, .i1⟩
  | 95 => ⟨S_, .i32⟩
  | 96 => ⟨S1x2097152, .i32⟩
  | 97 => ⟨S1x2097152, .i32⟩
  | 98 => ⟨S1x2097152, .i32⟩
  | 99 => ⟨S1x2097152x1, .i32⟩
  | 100 => ⟨S1x16x2097152, .f32⟩
  | 101 => ⟨S1x2097152, .f32⟩
  | 102 => ⟨S1x1x2097152, .f32⟩
  | 103 => ⟨S1x16x2097152, .f32⟩
  | 104 => ⟨S1x16x2097152, .f32⟩
  | 105 => ⟨S1x16x2097152, .f32⟩
  | 106 => ⟨S_, .f32⟩
  | 107 => ⟨S1x2097152, .f32⟩
  | 108 => ⟨S1x2097152, .f32⟩
  | 109 => ⟨S_, .f32⟩
  | 110 => ⟨S1x2097152, .f32⟩
  | 111 => ⟨S1x2097152, .f32⟩
  | 112 => ⟨S_, .f32⟩
  | 113 => ⟨S1x2097152, .f32⟩
  | 114 => ⟨S1x2097152, .f32⟩
  | 115 => ⟨S_, .f32⟩
  | 116 => ⟨S1x2097152, .f32⟩
  | 117 => ⟨S1x2097152, .f32⟩
  | 118 => ⟨S_, .f32⟩
  | 119 => ⟨S1x2097152, .f32⟩
  | 120 => ⟨S1x2097152, .f32⟩
  | 121 => ⟨S_, .f32⟩
  | 122 => ⟨S1x2097152, .f32⟩
  | 123 => ⟨S1x2097152, .f32⟩
  | 124 => ⟨S1x2097152, .f32⟩
  | 125 => ⟨S1x2097152, .f32⟩
  | 126 => ⟨S1x2097152, .f32⟩
  | 127 => ⟨S1x2097152, .f32⟩
  | _ => ⟨S1x2097152x3, .f32⟩

abbrev hbmTy0_3 (i : Nat) : BufTy := match i % 128 with
  | 0 => ⟨S1x2097152, .i32⟩
  | 1 => ⟨S1x2097152, .i32⟩
  | 2 => ⟨S_, .f32⟩
  | 3 => ⟨S1x2097152, .f32⟩
  | 4 => ⟨S1x2097152, .f32⟩
  | 5 => ⟨S_, .f32⟩
  | 6 => ⟨S1x2097152, .f32⟩
  | 7 => ⟨S1x2097152, .f32⟩
  | 8 => ⟨S1x2097152, .f32⟩
  | 9 => ⟨S_, .i32⟩
  | 10 => ⟨S1x2097152, .i32⟩
  | 11 => ⟨S1x2097152, .i1⟩
  | 12 => ⟨S_, .i32⟩
  | 13 => ⟨S1x2097152, .i32⟩
  | 14 => ⟨S1x2097152, .i1⟩
  | 15 => ⟨S1x2097152, .i1⟩
  | 16 => ⟨S_, .i32⟩
  | 17 => ⟨S1x2097152, .i32⟩
  | 18 => ⟨S1x2097152, .i1⟩
  | 19 => ⟨S1x2097152, .i1⟩
  | 20 => ⟨S_, .i32⟩
  | 21 => ⟨S1x2097152, .i32⟩
  | 22 => ⟨S1x2097152, .i1⟩
  | 23 => ⟨S1x2097152, .i1⟩
  | 24 => ⟨S1x2097152, .f32⟩
  | 25 => ⟨S_, .i32⟩
  | 26 => ⟨S_, .i32⟩
  | 27 => ⟨S_, .i32⟩
  | 28 => ⟨S1x2097152, .i32⟩
  | 29 => ⟨S1x2097152, .i32⟩
  | 30 => ⟨S_, .i32⟩
  | 31 => ⟨S1x2097152, .i32⟩
  | 32 => ⟨S1x2097152, .i32⟩
  | 33 => ⟨S_, .i32⟩
  | 34 => ⟨S_, .i32⟩
  | 35 => ⟨S_, .i32⟩
  | 36 => ⟨S1x2097152, .i32⟩
  | 37 => ⟨S1x2097152, .i32⟩
  | 38 => ⟨S_, .i32⟩
  | 39 => ⟨S1x2097152, .i32⟩
  | 40 => ⟨S1x2097152, .i32⟩
  | 41 => ⟨S_, .i32⟩
  | 42 => ⟨S1x2097152, .i32⟩
  | 43 => ⟨S1x2097152, .i1⟩
  | 44 => ⟨S_, .i32⟩
  | 45 => ⟨S1x2097152, .i32⟩
  | 46 => ⟨S1x2097152, .i32⟩
  | 47 => ⟨S1x2097152, .i32⟩
  | 48 => ⟨S_, .i32⟩
  | 49 => ⟨S1x2097152, .i32⟩
  | 50 => ⟨S1x2097152, .i1⟩
  | 51 => ⟨S_, .i32⟩
  | 52 => ⟨S1x2097152, .i32⟩
  | 53 => ⟨S1x2097152, .i32⟩
  | 54 => ⟨S1x2097152, .i32⟩
  | 55 => ⟨S1x2097152x1, .i32⟩
  | 56 => ⟨S1x2097152x1, .i32⟩
  | 57 => ⟨S1x2097152x2, .i32⟩
  | 58 => ⟨S1x16x2097152, .f32⟩
  | 59 => ⟨S1x2097152, .f32⟩
  | 60 => ⟨S1x1x2097152, .f32⟩
  | 61 => ⟨S1x16x2097152, .f32⟩
  | 62 => ⟨S1x16x2097152, .f32⟩
  | 63 => ⟨S_, .i32⟩
  | 64 => ⟨S1x2097152, .i32⟩
  | 65 => ⟨S1x2097152, .i32⟩
  | 66 => ⟨S_, .f32⟩
  | 67 => ⟨S1x2097152, .f32⟩
  | 68 => ⟨S1x2097152, .f32⟩
  | 69 => ⟨S1x2097152, .f32⟩
  | 70 => ⟨S_, .i32⟩
  | 71 => ⟨S1x2097152, .i32⟩
  | 72 => ⟨S1x2097152, .i1⟩
  | 73 => ⟨S_, .i32⟩
  | 74 => ⟨S1x2097152, .i32⟩
  | 75 => ⟨S1x2097152, .i1⟩
  | 76 => ⟨S1x2097152, .i1⟩
  | 77 => ⟨S_, .i32⟩
  | 78 => ⟨S1x2097152, .i32⟩
  | 79 => ⟨S1x2097152, .i1⟩
  | 80 => ⟨S1x2097152, .i1⟩
  | 81 => ⟨S_, .i32⟩
  | 82 => ⟨S1x2097152, .i32⟩
  | 83 => ⟨S1x2097152, .i1⟩
  | 84 => ⟨S1x2097152, .i1⟩
  | 85 => ⟨S1x2097152, .f32⟩
  | 86 => ⟨S_, .i32⟩
  | 87 => ⟨S_, .i32⟩
  | 88 => ⟨S_, .i32⟩
  | 89 => ⟨S1x2097152, .i32⟩
  | 90 => ⟨S1x2097152, .i32⟩
  | 91 => ⟨S_, .i32⟩
  | 92 => ⟨S1x2097152, .i32⟩
  | 93 => ⟨S1x2097152, .i32⟩
  | 94 => ⟨S_, .i32⟩
  | 95 => ⟨S_, .i32⟩
  | 96 => ⟨S_, .i32⟩
  | 97 => ⟨S1x2097152, .i32⟩
  | 98 => ⟨S1x2097152, .i32⟩
  | 99 => ⟨S_, .i32⟩
  | 100 => ⟨S1x2097152, .i32⟩
  | 101 => ⟨S1x2097152, .i32⟩
  | 102 => ⟨S_, .i32⟩
  | 103 => ⟨S1x2097152, .i32⟩
  | 104 => ⟨S1x2097152, .i1⟩
  | 105 => ⟨S_, .i32⟩
  | 106 => ⟨S1x2097152, .i32⟩
  | 107 => ⟨S1x2097152, .i32⟩
  | 108 => ⟨S1x2097152, .i32⟩
  | 109 => ⟨S_, .i32⟩
  | 110 => ⟨S1x2097152, .i32⟩
  | 111 => ⟨S1x2097152, .i1⟩
  | 112 => ⟨S_, .i32⟩
  | 113 => ⟨S1x2097152, .i32⟩
  | 114 => ⟨S1x2097152, .i32⟩
  | 115 => ⟨S1x2097152, .i32⟩
  | 116 => ⟨S1x2097152x1, .i32⟩
  | 117 => ⟨S1x2097152x1, .i32⟩
  | 118 => ⟨S1x2097152x2, .i32⟩
  | 119 => ⟨S1x16x2097152, .f32⟩
  | 120 => ⟨S1x2097152, .f32⟩
  | 121 => ⟨S1x1x2097152, .f32⟩
  | 122 => ⟨S1x16x2097152, .f32⟩
  | 123 => ⟨S1x16x2097152, .f32⟩
  | 124 => ⟨S1x16x2097152, .f32⟩
  | 125 => ⟨S_, .i32⟩
  | 126 => ⟨S1x2097152, .i32⟩
  | 127 => ⟨S1x2097152, .i32⟩
  | _ => ⟨S1x2097152x3, .f32⟩

abbrev hbmTy0_4 (i : Nat) : BufTy := match i % 128 with
  | 0 => ⟨S_, .f32⟩
  | 1 => ⟨S1x2097152, .f32⟩
  | 2 => ⟨S1x2097152, .f32⟩
  | 3 => ⟨S1x2097152, .f32⟩
  | 4 => ⟨S_, .i32⟩
  | 5 => ⟨S1x2097152, .i32⟩
  | 6 => ⟨S1x2097152, .i1⟩
  | 7 => ⟨S_, .i32⟩
  | 8 => ⟨S1x2097152, .i32⟩
  | 9 => ⟨S1x2097152, .i1⟩
  | 10 => ⟨S1x2097152, .i1⟩
  | 11 => ⟨S_, .i32⟩
  | 12 => ⟨S1x2097152, .i32⟩
  | 13 => ⟨S1x2097152, .i1⟩
  | 14 => ⟨S1x2097152, .i1⟩
  | 15 => ⟨S_, .i32⟩
  | 16 => ⟨S1x2097152, .i32⟩
  | 17 => ⟨S1x2097152, .i1⟩
  | 18 => ⟨S1x2097152, .i1⟩
  | 19 => ⟨S1x2097152, .f32⟩
  | 20 => ⟨S_, .i32⟩
  | 21 => ⟨S_, .i32⟩
  | 22 => ⟨S_, .i32⟩
  | 23 => ⟨S1x2097152, .i32⟩
  | 24 => ⟨S1x2097152, .i32⟩
  | 25 => ⟨S_, .i32⟩
  | 26 => ⟨S1x2097152, .i32⟩
  | 27 => ⟨S1x2097152, .i32⟩
  | 28 => ⟨S_, .i32⟩
  | 29 => ⟨S_, .i32⟩
  | 30 => ⟨S_, .i32⟩
  | 31 => ⟨S1x2097152, .i32⟩
  | 32 => ⟨S1x2097152, .i32⟩
  | 33 => ⟨S_, .i32⟩
  | 34 => ⟨S1x2097152, .i32⟩
  | 35 => ⟨S1x2097152, .i32⟩
  | 36 => ⟨S_, .i32⟩
  | 37 => ⟨S1x2097152, .i32⟩
  | 38 => ⟨S1x2097152, .i1⟩
  | 39 => ⟨S_, .i32⟩
  | 40 => ⟨S1x2097152, .i32⟩
  | 41 => ⟨S1x2097152, .i32⟩
  | 42 => ⟨S1x2097152, .i32⟩
  | 43 => ⟨S_, .i32⟩
  | 44 => ⟨S1x2097152, .i32⟩
  | 45 => ⟨S1x2097152, .i1⟩
  | 46 => ⟨S_, .i32⟩
  | 47 => ⟨S1x2097152, .i32⟩
  | 48 => ⟨S1x2097152, .i32⟩
  | 49 => ⟨S1x2097152, .i32⟩
  | 50 => ⟨S1x2097152x1, .i32⟩
  | 51 => ⟨S1x2097152x1, .i32⟩
  | 52 => ⟨S1x2097152x2, .i32⟩
  | 53 => ⟨S1x16x2097152, .f32⟩
  | 54 => ⟨S1x2097152, .f32⟩
  | 55 => ⟨S1x1x2097152, .f32⟩
  | 56 => ⟨S1x16x2097152, .f32⟩
  | 57 => ⟨S1x16x2097152, .f32⟩
  | 58 => ⟨S1x16x2097152, .f32⟩
  | 59 => ⟨S_, .i32⟩
  | 60 => ⟨S1x2097152, .i32⟩
  | 61 => ⟨S1x2097152, .i32⟩
  | 62 => ⟨S_, .i32⟩
  | 63 => ⟨S1x2097152, .i32⟩
  | 64 => ⟨S1x2097152, .i32⟩
  | 65 => ⟨S1x2097152, .f32⟩
  | 66 => ⟨S_, .i32⟩
  | 67 => ⟨S1x2097152, .i32⟩
  | 68 => ⟨S1x2097152, .i1⟩
  | 69 => ⟨S_, .i32⟩
  | 70 => ⟨S1x2097152, .i32⟩
  | 71 => ⟨S1x2097152, .i1⟩
  | 72 => ⟨S1x2097152, .i1⟩
  | 73 => ⟨S_, .i32⟩
  | 74 => ⟨S1x2097152, .i32⟩
  | 75 => ⟨S1x2097152, .i1⟩
  | 76 => ⟨S1x2097152, .i1⟩
  | 77 => ⟨S_, .i32⟩
  | 78 => ⟨S1x2097152, .i32⟩
  | 79 => ⟨S1x2097152, .i1⟩
  | 80 => ⟨S1x2097152, .i1⟩
  | 81 => ⟨S1x2097152, .f32⟩
  | 82 => ⟨S_, .i32⟩
  | 83 => ⟨S_, .i32⟩
  | 84 => ⟨S_, .i32⟩
  | 85 => ⟨S1x2097152, .i32⟩
  | 86 => ⟨S1x2097152, .i32⟩
  | 87 => ⟨S_, .i32⟩
  | 88 => ⟨S1x2097152, .i32⟩
  | 89 => ⟨S1x2097152, .i32⟩
  | 90 => ⟨S_, .i32⟩
  | 91 => ⟨S_, .i32⟩
  | 92 => ⟨S_, .i32⟩
  | 93 => ⟨S1x2097152, .i32⟩
  | 94 => ⟨S1x2097152, .i32⟩
  | 95 => ⟨S_, .i32⟩
  | 96 => ⟨S1x2097152, .i32⟩
  | 97 => ⟨S1x2097152, .i32⟩
  | 98 => ⟨S_, .i32⟩
  | 99 => ⟨S1x2097152, .i32⟩
  | 100 => ⟨S1x2097152, .i1⟩
  | 101 => ⟨S_, .i32⟩
  | 102 => ⟨S1x2097152, .i32⟩
  | 103 => ⟨S1x2097152, .i32⟩
  | 104 => ⟨S1x2097152, .i32⟩
  | 105 => ⟨S_, .i32⟩
  | 106 => ⟨S1x2097152, .i32⟩
  | 107 => ⟨S1x2097152, .i1⟩
  | 108 => ⟨S_, .i32⟩
  | 109 => ⟨S1x2097152, .i32⟩
  | 110 => ⟨S1x2097152, .i32⟩
  | 111 => ⟨S1x2097152, .i32⟩
  | 112 => ⟨S1x2097152x1, .i32⟩
  | 113 => ⟨S1x2097152x1, .i32⟩
  | 114 => ⟨S1x2097152x2, .i32⟩
  | 115 => ⟨S1x16x2097152, .f32⟩
  | 116 => ⟨S1x2097152, .f32⟩
  | 117 => ⟨S1x1x2097152, .f32⟩
  | 118 => ⟨S1x16x2097152, .f32⟩
  | 119 => ⟨S1x16x2097152, .f32⟩
  | 120 => ⟨S1x16x2097152, .f32⟩
  | 121 => ⟨S_, .f32⟩
  | 122 => ⟨S1x2097152, .f32⟩
  | 123 => ⟨S1x2097152, .f32⟩
  | 124 => ⟨S_, .f32⟩
  | 125 => ⟨S1x2097152, .f32⟩
  | 126 => ⟨S1x2097152, .f32⟩
  | 127 => ⟨S_, .f32⟩
  | _ => ⟨S1x2097152x3, .f32⟩

abbrev hbmTy0_5 (i : Nat) : BufTy := match i % 128 with
  | 0 => ⟨S1x2097152, .f32⟩
  | 1 => ⟨S1x2097152, .f32⟩
  | 2 => ⟨S1x2097152, .f32⟩
  | 3 => ⟨S1x2097152, .f32⟩
  | 4 => ⟨S1x2097152, .i32⟩
  | 5 => ⟨S_, .f32⟩
  | 6 => ⟨S1x2097152, .f32⟩
  | 7 => ⟨S1x2097152, .f32⟩
  | 8 => ⟨S_, .i32⟩
  | 9 => ⟨S1x2097152, .i32⟩
  | 10 => ⟨S1x2097152, .i1⟩
  | 11 => ⟨S_, .i32⟩
  | 12 => ⟨S1x2097152, .i32⟩
  | 13 => ⟨S1x2097152, .i1⟩
  | 14 => ⟨S1x2097152, .i1⟩
  | 15 => ⟨S1x2097152, .f32⟩
  | 16 => ⟨S_, .i32⟩
  | 17 => ⟨S_, .i32⟩
  | 18 => ⟨S_, .i32⟩
  | 19 => ⟨S1x2097152, .i32⟩
  | 20 => ⟨S1x2097152, .i32⟩
  | 21 => ⟨S_, .i32⟩
  | 22 => ⟨S1x2097152, .i32⟩
  | 23 => ⟨S1x2097152, .i32⟩
  | 24 => ⟨S_, .i32⟩
  | 25 => ⟨S1x2097152, .i32⟩
  | 26 => ⟨S1x2097152, .i1⟩
  | 27 => ⟨S_, .i32⟩
  | 28 => ⟨S1x2097152, .i32⟩
  | 29 => ⟨S1x2097152, .i32⟩
  | 30 => ⟨S1x2097152, .i32⟩
  | 31 => ⟨S1x2097152x1, .i32⟩
  | 32 => ⟨S1x16x2097152, .f32⟩
  | 33 => ⟨S1x2097152, .f32⟩
  | 34 => ⟨S1x1x2097152, .f32⟩
  | 35 => ⟨S1x16x2097152, .f32⟩
  | 36 => ⟨S1x16x2097152, .f32⟩
  | 37 => ⟨S_, .i32⟩
  | 38 => ⟨S1x2097152, .i32⟩
  | 39 => ⟨S1x2097152, .i32⟩
  | 40 => ⟨S_, .i32⟩
  | 41 => ⟨S1x2097152, .i32⟩
  | 42 => ⟨S1x2097152, .i1⟩
  | 43 => ⟨S_, .i32⟩
  | 44 => ⟨S1x2097152, .i32⟩
  | 45 => ⟨S1x2097152, .i1⟩
  | 46 => ⟨S1x2097152, .i1⟩
  | 47 => ⟨S1x2097152, .f32⟩
  | 48 => ⟨S_, .i32⟩
  | 49 => ⟨S_, .i32⟩
  | 50 => ⟨S_, .i32⟩
  | 51 => ⟨S1x2097152, .i32⟩
  | 52 => ⟨S1x2097152, .i32⟩
  | 53 => ⟨S_, .i32⟩
  | 54 => ⟨S1x2097152, .i32⟩
  | 55 => ⟨S1x2097152, .i32⟩
  | 56 => ⟨S_, .i32⟩
  | 57 => ⟨S1x2097152, .i32⟩
  | 58 => ⟨S1x2097152, .i1⟩
  | 59 => ⟨S_, .i32⟩
  | 60 => ⟨S1x2097152, .i32⟩
  | 61 => ⟨S1x2097152, .i32⟩
  | 62 => ⟨S1x2097152, .i32⟩
  | 63 => ⟨S1x2097152x1, .i32⟩
  | 64 => ⟨S1x16x2097152, .f32⟩
  | 65 => ⟨S1x2097152, .f32⟩
  | 66 => ⟨S1x1x2097152, .f32⟩
  | 67 => ⟨S1x16x2097152, .f32⟩
  | 68 => ⟨S1x16x2097152, .f32⟩
  | 69 => ⟨S1x16x2097152, .f32⟩
  | 70 => ⟨S_, .f32⟩
  | 71 => ⟨S1x2097152, .f32⟩
  | 72 => ⟨S1x2097152, .f32⟩
  | 73 => ⟨S_, .f32⟩
  | 74 => ⟨S1x2097152, .f32⟩
  | 75 => ⟨S1x2097152, .f32⟩
  | 76 => ⟨S_, .f32⟩
  | 77 => ⟨S1x2097152, .f32⟩
  | 78 => ⟨S1x2097152, .f32⟩
  | 79 => ⟨S_, .f32⟩
  | 80 => ⟨S1x2097152, .f32⟩
  | 81 => ⟨S1x2097152, .f32⟩
  | 82 => ⟨S_, .f32⟩
  | 83 => ⟨S1x2097152, .f32⟩
  | 84 => ⟨S1x2097152, .f32⟩
  | 85 => ⟨S_, .f32⟩
  | 86 => ⟨S1x2097152, .f32⟩
  | 87 => ⟨S1x2097152, .f32⟩
  | 88 => ⟨S1x2097152, .f32⟩
  | 89 => ⟨S1x2097152, .f32⟩
  | 90 => ⟨S1x2097152, .f32⟩
  | 91 => ⟨S1x2097152, .f32⟩
  | 92 => ⟨S1x2097152, .i32⟩
  | 93 => ⟨S1x2097152, .i32⟩
  | 94 => ⟨S_, .f32⟩
  | 95 => ⟨S1x2097152, .f32⟩
  | 96 => ⟨S1x2097152, .f32⟩
  | 97 => ⟨S_, .f32⟩
  | 98 => ⟨S1x2097152, .f32⟩
  | 99 => ⟨S1x2097152, .f32⟩
  | 100 => ⟨S1x2097152, .f32⟩
  | 101 => ⟨S_, .i32⟩
  | 102 => ⟨S1x2097152, .i32⟩
  | 103 => ⟨S1x2097152, .i1⟩
  | 104 => ⟨S_, .i32⟩
  | 105 => ⟨S1x2097152, .i32⟩
  | 106 => ⟨S1x2097152, .i1⟩
  | 107 => ⟨S1x2097152, .i1⟩
  | 108 => ⟨S_, .i32⟩
  | 109 => ⟨S1x2097152, .i32⟩
  | 110 => ⟨S1x2097152, .i1⟩
  | 111 => ⟨S1x2097152, .i1⟩
  | 112 => ⟨S_, .i32⟩
  | 113 => ⟨S1x2097152, .i32⟩
  | 114 => ⟨S1x2097152, .i1⟩
  | 115 => ⟨S1x2097152, .i1⟩
  | 116 => ⟨S1x2097152, .f32⟩
  | 117 => ⟨S_, .i32⟩
  | 118 => ⟨S_, .i32⟩
  | 119 => ⟨S_, .i32⟩
  | 120 => ⟨S1x2097152, .i32⟩
  | 121 => ⟨S1x2097152, .i32⟩
  | 122 => ⟨S_, .i32⟩
  | 123 => ⟨S1x2097152, .i32⟩
  | 124 => ⟨S1x2097152, .i32⟩
  | 125 => ⟨S_, .i32⟩
  | 126 => ⟨S_, .i32⟩
  | 127 => ⟨S_, .i32⟩
  | _ => ⟨S1x2097152x3, .f32⟩

abbrev hbmTy0_6 (i : Nat) : BufTy := match i % 128 with
  | 0 => ⟨S1x2097152, .i32⟩
  | 1 => ⟨S1x2097152, .i32⟩
  | 2 => ⟨S_, .i32⟩
  | 3 => ⟨S1x2097152, .i32⟩
  | 4 => ⟨S1x2097152, .i32⟩
  | 5 => ⟨S_, .i32⟩
  | 6 => ⟨S1x2097152, .i32⟩
  | 7 => ⟨S1x2097152, .i1⟩
  | 8 => ⟨S_, .i32⟩
  | 9 => ⟨S1x2097152, .i32⟩
  | 10 => ⟨S1x2097152, .i32⟩
  | 11 => ⟨S1x2097152, .i32⟩
  | 12 => ⟨S_, .i32⟩
  | 13 => ⟨S1x2097152, .i32⟩
  | 14 => ⟨S1x2097152, .i1⟩
  | 15 => ⟨S_, .i32⟩
  | 16 => ⟨S1x2097152, .i32⟩
  | 17 => ⟨S1x2097152, .i32⟩
  | 18 => ⟨S1x2097152, .i32⟩
  | 19 => ⟨S1x2097152x1, .i32⟩
  | 20 => ⟨S1x2097152x1, .i32⟩
  | 21 => ⟨S1x2097152x2, .i32⟩
  | 22 => ⟨S1x16x2097152, .f32⟩
  | 23 => ⟨S1x2097152, .f32⟩
  | 24 => ⟨S1x1x2097152, .f32⟩
  | 25 => ⟨S1x16x2097152, .f32⟩
  | 26 => ⟨S1x16x2097152, .f32⟩
  | 27 => ⟨S_, .i32⟩
  | 28 => ⟨S1x2097152, .i32⟩
  | 29 => ⟨S1x2097152, .i32⟩
  | 30 => ⟨S_, .f32⟩
  | 31 => ⟨S1x2097152, .f32⟩
  | 32 => ⟨S1x2097152, .f32⟩
  | 33 => ⟨S1x2097152, .f32⟩
  | 34 => ⟨S_, .i32⟩
  | 35 => ⟨S1x2097152, .i32⟩
  | 36 => ⟨S1x2097152, .i1⟩
  | 37 => ⟨S_, .i32⟩
  | 38 => ⟨S1x2097152, .i32⟩
  | 39 => ⟨S1x2097152, .i1⟩
  | 40 => ⟨S1x2097152, .i1⟩
  | 41 => ⟨S_, .i32⟩
  | 42 => ⟨S1x2097152, .i32⟩
  | 43 => ⟨S1x2097152, .i1⟩
  | 44 => ⟨S1x2097152, .i1⟩
  | 45 => ⟨S_, .i32⟩
  | 46 => ⟨S1x2097152, .i32⟩
  | 47 => ⟨S1x2097152, .i1⟩
  | 48 => ⟨S1x2097152, .i1⟩
  | 49 => ⟨S1x2097152, .f32⟩
  | 50 => ⟨S_, .i32⟩
  | 51 => ⟨S_, .i32⟩
  | 52 => ⟨S_, .i32⟩
  | 53 => ⟨S1x2097152, .i32⟩
  | 54 => ⟨S1x2097152, .i32⟩
  | 55 => ⟨S_, .i32⟩
  | 56 => ⟨S1x2097152, .i32⟩
  | 57 => ⟨S1x2097152, .i32⟩
  | 58 => ⟨S_, .i32⟩
  | 59 => ⟨S_, .i32⟩
  | 60 => ⟨S_, .i32⟩
  | 61 => ⟨S1x2097152, .i32⟩
  | 62 => ⟨S1x2097152, .i32⟩
  | 63 => ⟨S_, .i32⟩
  | 64 => ⟨S1x2097152, .i32⟩
  | 65 => ⟨S1x2097152, .i32⟩
  | 66 => ⟨S_, .i32⟩
  | 67 => ⟨S1x2097152, .i32⟩
  | 68 => ⟨S1x2097152, .i1⟩
  | 69 => ⟨S_, .i32⟩
  | 70 => ⟨S1x2097152, .i32⟩
  | 71 => ⟨S1x2097152, .i32⟩
  | 72 => ⟨S1x2097152, .i32⟩
  | 73 => ⟨S_, .i32⟩
  | 74 => ⟨S1x2097152, .i32⟩
  | 75 => ⟨S1x2097152, .i1⟩
  | 76 => ⟨S_, .i32⟩
  | 77 => ⟨S1x2097152, .i32⟩
  | 78 => ⟨S1x2097152, .i32⟩
  | 79 => ⟨S1x2097152, .i32⟩
  | 80 => ⟨S1x2097152x1, .i32⟩
  | 81 => ⟨S1x2097152x1, .i32⟩
  | 82 => ⟨S1x2097152x2, .i32⟩
  | 83 => ⟨S1x16x2097152, .f32⟩
  | 84 => ⟨S1x2097152, .f32⟩
  | 85 => ⟨S1x1x2097152, .f32⟩
  | 86 => ⟨S1x16x2097152, .f32⟩
  | 87 => ⟨S1x16x2097152, .f32⟩
  | 88 => ⟨S1x16x2097152, .f32⟩
  | 89 => ⟨S_, .i32⟩
  | 90 => ⟨S1x2097152, .i32⟩
  | 91 => ⟨S1x2097152, .i32⟩
  | 92 => ⟨S_, .f32⟩
  | 93 => ⟨S1x2097152, .f32⟩
  | 94 => ⟨S1x2097152, .f32⟩
  | 95 => ⟨S1x2097152, .f32⟩
  | 96 => ⟨S_, .i32⟩
  | 97 => ⟨S1x2097152, .i32⟩
  | 98 => ⟨S1x2097152, .i1⟩
  | 99 => ⟨S_, .i32⟩
  | 100 => ⟨S1x2097152, .i32⟩
  | 101 => ⟨S1x2097152, .i1⟩
  | 102 => ⟨S1x2097152, .i1⟩
  | 103 => ⟨S_, .i32⟩
  | 104 => ⟨S1x2097152, .i32⟩
  | 105 => ⟨S1x2097152, .i1⟩
  | 106 => ⟨S1x2097152, .i1⟩
  | 107 => ⟨S_, .i32⟩
  | 108 => ⟨S1x2097152, .i32⟩
  | 109 => ⟨S1x2097152, .i1⟩
  | 110 => ⟨S1x2097152, .i1⟩
  | 111 => ⟨S1x2097152, .f32⟩
  | 112 => ⟨S_, .i32⟩
  | 113 => ⟨S_, .i32⟩
  | 114 => ⟨S_, .i32⟩
  | 115 => ⟨S1x2097152, .i32⟩
  | 116 => ⟨S1x2097152, .i32⟩
  | 117 => ⟨S_, .i32⟩
  | 118 => ⟨S1x2097152, .i32⟩
  | 119 => ⟨S1x2097152, .i32⟩
  | 120 => ⟨S_, .i32⟩
  | 121 => ⟨S_, .i32⟩
  | 122 => ⟨S_, .i32⟩
  | 123 => ⟨S1x2097152, .i32⟩
  | 124 => ⟨S1x2097152, .i32⟩
  | 125 => ⟨S_, .i32⟩
  | 126 => ⟨S1x2097152, .i32⟩
  | 127 => ⟨S1x2097152, .i32⟩
  | _ => ⟨S1x2097152x3, .f32⟩

abbrev hbmTy0_7 (i : Nat) : BufTy := match i % 128 with
  | 0 => ⟨S_, .i32⟩
  | 1 => ⟨S1x2097152, .i32⟩
  | 2 => ⟨S1x2097152, .i1⟩
  | 3 => ⟨S_, .i32⟩
  | 4 => ⟨S1x2097152, .i32⟩
  | 5 => ⟨S1x2097152, .i32⟩
  | 6 => ⟨S1x2097152, .i32⟩
  | 7 => ⟨S_, .i32⟩
  | 8 => ⟨S1x2097152, .i32⟩
  | 9 => ⟨S1x2097152, .i1⟩
  | 10 => ⟨S_, .i32⟩
  | 11 => ⟨S1x2097152, .i32⟩
  | 12 => ⟨S1x2097152, .i32⟩
  | 13 => ⟨S1x2097152, .i32⟩
  | 14 => ⟨S1x2097152x1, .i32⟩
  | 15 => ⟨S1x2097152x1, .i32⟩
  | 16 => ⟨S1x2097152x2, .i32⟩
  | 17 => ⟨S1x16x2097152, .f32⟩
  | 18 => ⟨S1x2097152, .f32⟩
  | 19 => ⟨S1x1x2097152, .f32⟩
  | 20 => ⟨S1x16x2097152, .f32⟩
  | 21 => ⟨S1x16x2097152, .f32⟩
  | 22 => ⟨S1x16x2097152, .f32⟩
  | 23 => ⟨S_, .i32⟩
  | 24 => ⟨S1x2097152, .i32⟩
  | 25 => ⟨S1x2097152, .i32⟩
  | 26 => ⟨S_, .i32⟩
  | 27 => ⟨S1x2097152, .i32⟩
  | 28 => ⟨S1x2097152, .i32⟩
  | 29 => ⟨S1x2097152, .f32⟩
  | 30 => ⟨S_, .i32⟩
  | 31 => ⟨S1x2097152, .i32⟩
  | 32 => ⟨S1x2097152, .i1⟩
  | 33 => ⟨S_, .i32⟩
  | 34 => ⟨S1x2097152, .i32⟩
  | 35 => ⟨S1x2097152, .i1⟩
  | 36 => ⟨S1x2097152, .i1⟩
  | 37 => ⟨S_, .i32⟩
  | 38 => ⟨S1x2097152, .i32⟩
  | 39 => ⟨S1x2097152, .i1⟩
  | 40 => ⟨S1x2097152, .i1⟩
  | 41 => ⟨S_, .i32⟩
  | 42 => ⟨S1x2097152, .i32⟩
  | 43 => ⟨S1x2097152, .i1⟩
  | 44 => ⟨S1x2097152, .i1⟩
  | 45 => ⟨S1x2097152, .f32⟩
  | 46 => ⟨S_, .i32⟩
  | 47 => ⟨S_, .i32⟩
  | 48 => ⟨S_, .i32⟩
  | 49 => ⟨S1x2097152, .i32⟩
  | 50 => ⟨S1x2097152, .i32⟩
  | 51 => ⟨S_, .i32⟩
  | 52 => ⟨S1x2097152, .i32⟩
  | 53 => ⟨S1x2097152, .i32⟩
  | 54 => ⟨S_, .i32⟩
  | 55 => ⟨S_, .i32⟩
  | 56 => ⟨S_, .i32⟩
  | 57 => ⟨S1x2097152, .i32⟩
  | 58 => ⟨S1x2097152, .i32⟩
  | 59 => ⟨S_, .i32⟩
  | 60 => ⟨S1x2097152, .i32⟩
  | 61 => ⟨S1x2097152, .i32⟩
  | 62 => ⟨S_, .i32⟩
  | 63 => ⟨S1x2097152, .i32⟩
  | 64 => ⟨S1x2097152, .i1⟩
  | 65 => ⟨S_, .i32⟩
  | 66 => ⟨S1x2097152, .i32⟩
  | 67 => ⟨S1x2097152, .i32⟩
  | 68 => ⟨S1x2097152, .i32⟩
  | 69 => ⟨S_, .i32⟩
  | 70 => ⟨S1x2097152, .i32⟩
  | 71 => ⟨S1x2097152, .i1⟩
  | 72 => ⟨S_, .i32⟩
  | 73 => ⟨S1x2097152, .i32⟩
  | 74 => ⟨S1x2097152, .i32⟩
  | 75 => ⟨S1x2097152, .i32⟩
  | 76 => ⟨S1x2097152x1, .i32⟩
  | 77 => ⟨S1x2097152x1, .i32⟩
  | 78 => ⟨S1x2097152x2, .i32⟩
  | 79 => ⟨S1x16x2097152, .f32⟩
  | 80 => ⟨S1x2097152, .f32⟩
  | 81 => ⟨S1x1x2097152, .f32⟩
  | 82 => ⟨S1x16x2097152, .f32⟩
  | 83 => ⟨S1x16x2097152, .f32⟩
  | 84 => ⟨S1x16x2097152, .f32⟩
  | 85 => ⟨S_, .f32⟩
  | 86 => ⟨S1x2097152, .f32⟩
  | 87 => ⟨S1x2097152, .f32⟩
  | 88 => ⟨S_, .f32⟩
  | 89 => ⟨S1x2097152, .f32⟩
  | 90 => ⟨S1x2097152, .f32⟩
  | 91 => ⟨S_, .f32⟩
  | 92 => ⟨S1x2097152, .f32⟩
  | 93 => ⟨S1x2097152, .f32⟩
  | 94 => ⟨S1x2097152, .f32⟩
  | 95 => ⟨S1x2097152, .f32⟩
  | 96 => ⟨S1x2097152, .i32⟩
  | 97 => ⟨S_, .f32⟩
  | 98 => ⟨S1x2097152, .f32⟩
  | 99 => ⟨S1x2097152, .f32⟩
  | 100 => ⟨S_, .i32⟩
  | 101 => ⟨S1x2097152, .i32⟩
  | 102 => ⟨S1x2097152, .i1⟩
  | 103 => ⟨S_, .i32⟩
  | 104 => ⟨S1x2097152, .i32⟩
  | 105 => ⟨S1x2097152, .i1⟩
  | 106 => ⟨S1x2097152, .i1⟩
  | 107 => ⟨S1x2097152, .f32⟩
  | 108 => ⟨S_, .i32⟩
  | 109 => ⟨S_, .i32⟩
  | 110 => ⟨S_, .i32⟩
  | 111 => ⟨S1x2097152, .i32⟩
  | 112 => ⟨S1x2097152, .i32⟩
  | 113 => ⟨S_, .i32⟩
  | 114 => ⟨S1x2097152, .i32⟩
  | 115 => ⟨S1x2097152, .i32⟩
  | 116 => ⟨S_, .i32⟩
  | 117 => ⟨S1x2097152, .i32⟩
  | 118 => ⟨S1x2097152, .i1⟩
  | 119 => ⟨S_, .i32⟩
  | 120 => ⟨S1x2097152, .i32⟩
  | 121 => ⟨S1x2097152, .i32⟩
  | 122 => ⟨S1x2097152, .i32⟩
  | 123 => ⟨S1x2097152x1, .i32⟩
  | 124 => ⟨S1x16x2097152, .f32⟩
  | 125 => ⟨S1x2097152, .f32⟩
  | 126 => ⟨S1x1x2097152, .f32⟩
  | 127 => ⟨S1x16x2097152, .f32⟩
  | _ => ⟨S1x2097152x3, .f32⟩

abbrev hbmTy0_8 (i : Nat) : BufTy := match i % 128 with
  | 0 => ⟨S1x16x2097152, .f32⟩
  | 1 => ⟨S_, .i32⟩
  | 2 => ⟨S1x2097152, .i32⟩
  | 3 => ⟨S1x2097152, .i32⟩
  | 4 => ⟨S_, .i32⟩
  | 5 => ⟨S1x2097152, .i32⟩
  | 6 => ⟨S1x2097152, .i1⟩
  | 7 => ⟨S_, .i32⟩
  | 8 => ⟨S1x2097152, .i32⟩
  | 9 => ⟨S1x2097152, .i1⟩
  | 10 => ⟨S1x2097152, .i1⟩
  | 11 => ⟨S1x2097152, .f32⟩
  | 12 => ⟨S_, .i32⟩
  | 13 => ⟨S_, .i32⟩
  | 14 => ⟨S_, .i32⟩
  | 15 => ⟨S1x2097152, .i32⟩
  | 16 => ⟨S1x2097152, .i32⟩
  | 17 => ⟨S_, .i32⟩
  | 18 => ⟨S1x2097152, .i32⟩
  | 19 => ⟨S1x2097152, .i32⟩
  | 20 => ⟨S_, .i32⟩
  | 21 => ⟨S1x2097152, .i32⟩
  | 22 => ⟨S1x2097152, .i1⟩
  | 23 => ⟨S_, .i32⟩
  | 24 => ⟨S1x2097152, .i32⟩
  | 25 => ⟨S1x2097152, .i32⟩
  | 26 => ⟨S1x2097152, .i32⟩
  | 27 => ⟨S1x2097152x1, .i32⟩
  | 28 => ⟨S1x16x2097152, .f32⟩
  | 29 => ⟨S1x2097152, .f32⟩
  | 30 => ⟨S1x1x2097152, .f32⟩
  | 31 => ⟨S1x16x2097152, .f32⟩
  | 32 => ⟨S1x16x2097152, .f32⟩
  | 33 => ⟨S1x16x2097152, .f32⟩
  | 34 => ⟨S1x16x2097152, .f32⟩
  | 35 => ⟨S16x2097152, .f32⟩
  | 36 => ⟨S16x2097152, .bf16⟩
  | 37 => ⟨S1x16x2097152, .f32⟩
  | 38 => ⟨S16x2097152, .f32⟩
  | 39 => ⟨S16x2097152, .bf16⟩
  | 40 => ⟨S1x16x2097152, .f32⟩
  | 41 => ⟨S16x2097152, .f32⟩
  | 42 => ⟨S16x2097152, .bf16⟩
  | 43 => ⟨S48x27, .f32⟩
  | 44 => ⟨S48x27, .bf16⟩
  | 45 => ⟨S16x27, .bf16⟩
  | 46 => ⟨S16x27, .bf16⟩
  | 47 => ⟨S16x27, .bf16⟩
  | 48 => ⟨S2097152x27, .f32⟩
  | 49 => ⟨S1x2097152x27, .f32⟩
  | _ => ⟨S1x2097152x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x2097152x3, .f32⟩

abbrev bufTy : (tb : Table) → Fin (tcTables nBuf tb) → BufTy
  | .hbm, ⟨i, _⟩ => hbmTy i
  | .local _ .vmem, ⟨0, _⟩ => ⟨S16x32768, .bf16⟩
  | .local _ .vmem, ⟨1, _⟩ => ⟨S16x32768, .bf16⟩
  | .local _ .vmem, ⟨2, _⟩ => ⟨S16x32768, .bf16⟩
  | .local _ .vmem, ⟨3, _⟩ => ⟨S16x32768, .bf16⟩
  | .local _ .vmem, ⟨4, _⟩ => ⟨S16x32768, .bf16⟩
  | .local _ .vmem, ⟨5, _⟩ => ⟨S16x32768, .bf16⟩
  | .local _ .vmem, ⟨6, _⟩ => ⟨S16x27, .bf16⟩
  | .local _ .vmem, ⟨7, _⟩ => ⟨S16x27, .bf16⟩
  | .local _ .vmem, ⟨8, _⟩ => ⟨S16x27, .bf16⟩
  | .local _ .vmem, ⟨9, _⟩ => ⟨S32768x27, .f32⟩
  | .local _ .vmem, ⟨10, _⟩ => ⟨S32768x27, .f32⟩
  | _, _ => ⟨S1x2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_c_11 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v41 : Ref sig .tc := ⟨.hbm, 68, rfl⟩
abbrev main_c_12 : Ref sig .tc := ⟨.hbm, 69, rfl⟩
abbrev main_c_13 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v42 : Ref sig .tc := ⟨.hbm, 76, rfl⟩
abbrev main_c_14 : Ref sig .tc := ⟨.hbm, 77, rfl⟩
abbrev main_v43 : Ref sig .tc := ⟨.hbm, 78, rfl⟩
abbrev main_v44 : Ref sig .tc := ⟨.hbm, 79, rfl⟩
abbrev main_c_15 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_16 : Ref sig .tc := ⟨.hbm, 84, rfl⟩
abbrev main_v48 : Ref sig .tc := ⟨.hbm, 85, rfl⟩
abbrev main_v49 : Ref sig .tc := ⟨.hbm, 86, rfl⟩
abbrev main_c_17 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_18 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_20 : Ref sig .tc := ⟨.hbm, 106, rfl⟩
abbrev main_v66 : Ref sig .tc := ⟨.hbm, 107, rfl⟩
abbrev main_v67 : Ref sig .tc := ⟨.hbm, 108, rfl⟩
abbrev main_c_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_22 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_24 : Ref sig .tc := ⟨.hbm, 122, rfl⟩
abbrev main_c_25 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v78 : Ref sig .tc := ⟨.hbm, 129, rfl⟩
abbrev main_c_26 : Ref sig .tc := ⟨.hbm, 130, rfl⟩
abbrev main_c_27 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v79 : Ref sig .tc := ⟨.hbm, 137, rfl⟩
abbrev main_c_28 : Ref sig .tc := ⟨.hbm, 138, rfl⟩
abbrev main_v80 : Ref sig .tc := ⟨.hbm, 139, rfl⟩
abbrev main_v81 : Ref sig .tc := ⟨.hbm, 140, rfl⟩
abbrev main_c_29 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_30 : Ref sig .tc := ⟨.hbm, 145, rfl⟩
abbrev main_v85 : Ref sig .tc := ⟨.hbm, 146, rfl⟩
abbrev main_v86 : Ref sig .tc := ⟨.hbm, 147, rfl⟩
abbrev main_c_31 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_c_32 : Ref sig .tc := ⟨.hbm, 161, rfl⟩
abbrev main_v99 : Ref sig .tc := ⟨.hbm, 162, rfl⟩
abbrev main_v100 : Ref sig .tc := ⟨.hbm, 163, rfl⟩
abbrev main_cst_33 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_c_34 : Ref sig .tc := ⟨.hbm, 168, rfl⟩
abbrev main_v104 : Ref sig .tc := ⟨.hbm, 169, rfl⟩
abbrev main_v105 : Ref sig .tc := ⟨.hbm, 170, rfl⟩
abbrev main_c_35 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_36 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_37 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_38 : Ref sig .tc := ⟨.hbm, 184, rfl⟩
abbrev main_c_39 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v116 : Ref sig .tc := ⟨.hbm, 191, rfl⟩
abbrev main_c_40 : Ref sig .tc := ⟨.hbm, 192, rfl⟩
abbrev main_c_41 : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_v117 : Ref sig .tc := ⟨.hbm, 199, rfl⟩
abbrev main_c_42 : Ref sig .tc := ⟨.hbm, 200, rfl⟩
abbrev main_v118 : Ref sig .tc := ⟨.hbm, 201, rfl⟩
abbrev main_v119 : Ref sig .tc := ⟨.hbm, 202, rfl⟩
abbrev main_c_43 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_c_44 : Ref sig .tc := ⟨.hbm, 207, rfl⟩
abbrev main_v123 : Ref sig .tc := ⟨.hbm, 208, rfl⟩
abbrev main_v124 : Ref sig .tc := ⟨.hbm, 209, rfl⟩
abbrev main_c_45 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_c_46 : Ref sig .tc := ⟨.hbm, 223, rfl⟩
abbrev main_v137 : Ref sig .tc := ⟨.hbm, 224, rfl⟩
abbrev main_v138 : Ref sig .tc := ⟨.hbm, 225, rfl⟩
abbrev main_c_47 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_c_48 : Ref sig .tc := ⟨.hbm, 230, rfl⟩
abbrev main_v142 : Ref sig .tc := ⟨.hbm, 231, rfl⟩
abbrev main_v143 : Ref sig .tc := ⟨.hbm, 232, rfl⟩
abbrev main_c_49 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_c_50 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_c_51 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_c_52 : Ref sig .tc := ⟨.hbm, 246, rfl⟩
abbrev main_c_53 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v154 : Ref sig .tc := ⟨.hbm, 253, rfl⟩
abbrev main_c_54 : Ref sig .tc := ⟨.hbm, 254, rfl⟩
abbrev main_c_55 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v155 : Ref sig .tc := ⟨.hbm, 261, rfl⟩
abbrev main_c_56 : Ref sig .tc := ⟨.hbm, 262, rfl⟩
abbrev main_v156 : Ref sig .tc := ⟨.hbm, 263, rfl⟩
abbrev main_v157 : Ref sig .tc := ⟨.hbm, 264, rfl⟩
abbrev main_c_57 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_c_58 : Ref sig .tc := ⟨.hbm, 269, rfl⟩
abbrev main_v161 : Ref sig .tc := ⟨.hbm, 270, rfl⟩
abbrev main_v162 : Ref sig .tc := ⟨.hbm, 271, rfl⟩
abbrev main_c_59 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_cst_60 : Ref sig .tc := ⟨.hbm, 285, rfl⟩
abbrev main_v175 : Ref sig .tc := ⟨.hbm, 286, rfl⟩
abbrev main_v176 : Ref sig .tc := ⟨.hbm, 287, rfl⟩
abbrev main_cst_61 : Ref sig .tc := ⟨.hbm, 288, rfl⟩
abbrev main_v177 : Ref sig .tc := ⟨.hbm, 289, rfl⟩
abbrev main_v178 : Ref sig .tc := ⟨.hbm, 290, rfl⟩
abbrev main_cst_62 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_63 : Ref sig .tc := ⟨.hbm, 297, rfl⟩
abbrev main_v184 : Ref sig .tc := ⟨.hbm, 298, rfl⟩
abbrev main_v185 : Ref sig .tc := ⟨.hbm, 299, rfl⟩
abbrev main_c_64 : Ref sig .tc := ⟨.hbm, 300, rfl⟩
abbrev main_v186 : Ref sig .tc := ⟨.hbm, 301, rfl⟩
abbrev main_v187 : Ref sig .tc := ⟨.hbm, 302, rfl⟩
abbrev main_c_65 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_c_66 : Ref sig .tc := ⟨.hbm, 308, rfl⟩
abbrev main_c_67 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_call8_v3 : Ref sig .tc := ⟨.hbm, 313, rfl⟩
abbrev main_call8_v4 : Ref sig .tc := ⟨.hbm, 314, rfl⟩
abbrev main_v192 : Ref sig .tc := ⟨.hbm, 315, rfl⟩
abbrev main_c_68 : Ref sig .tc := ⟨.hbm, 316, rfl⟩
abbrev main_v193 : Ref sig .tc := ⟨.hbm, 317, rfl⟩
abbrev main_v194 : Ref sig .tc := ⟨.hbm, 318, rfl⟩
abbrev main_c_69 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_c_70 : Ref sig .tc := ⟨.hbm, 329, rfl⟩
abbrev main_v204 : Ref sig .tc := ⟨.hbm, 330, rfl⟩
abbrev main_v205 : Ref sig .tc := ⟨.hbm, 331, rfl⟩
abbrev main_c_71 : Ref sig .tc := ⟨.hbm, 332, rfl⟩
abbrev main_v206 : Ref sig .tc := ⟨.hbm, 333, rfl⟩
abbrev main_v207 : Ref sig .tc := ⟨.hbm, 334, rfl⟩
abbrev main_c_72 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_c_73 : Ref sig .tc := ⟨.hbm, 340, rfl⟩
abbrev main_c_74 : Ref sig .tc := ⟨.hbm, 341, rfl⟩
abbrev main_call9_v0 : Ref sig .tc := ⟨.hbm, 342, rfl⟩
abbrev main_call9_v1 : Ref sig .tc := ⟨.hbm, 343, rfl⟩
abbrev main_call9_v2 : Ref sig .tc := ⟨.hbm, 344, rfl⟩
abbrev main_call9_v3 : Ref sig .tc := ⟨.hbm, 345, rfl⟩
abbrev main_call9_v4 : Ref sig .tc := ⟨.hbm, 346, rfl⟩
abbrev main_v212 : Ref sig .tc := ⟨.hbm, 347, rfl⟩
abbrev main_c_75 : Ref sig .tc := ⟨.hbm, 348, rfl⟩
abbrev main_v213 : Ref sig .tc := ⟨.hbm, 349, rfl⟩
abbrev main_v214 : Ref sig .tc := ⟨.hbm, 350, rfl⟩
abbrev main_c_76 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_cst_77 : Ref sig .tc := ⟨.hbm, 362, rfl⟩
abbrev main_v225 : Ref sig .tc := ⟨.hbm, 363, rfl⟩
abbrev main_v226 : Ref sig .tc := ⟨.hbm, 364, rfl⟩
abbrev main_cst_78 : Ref sig .tc := ⟨.hbm, 365, rfl⟩
abbrev main_v227 : Ref sig .tc := ⟨.hbm, 366, rfl⟩
abbrev main_v228 : Ref sig .tc := ⟨.hbm, 367, rfl⟩
abbrev main_cst_79 : Ref sig .tc := ⟨.hbm, 368, rfl⟩
abbrev main_v229 : Ref sig .tc := ⟨.hbm, 369, rfl⟩
abbrev main_v230 : Ref sig .tc := ⟨.hbm, 370, rfl⟩
abbrev main_cst_80 : Ref sig .tc := ⟨.hbm, 371, rfl⟩
abbrev main_v231 : Ref sig .tc := ⟨.hbm, 372, rfl⟩
abbrev main_v232 : Ref sig .tc := ⟨.hbm, 373, rfl⟩
abbrev main_cst_81 : Ref sig .tc := ⟨.hbm, 374, rfl⟩
abbrev main_v233 : Ref sig .tc := ⟨.hbm, 375, rfl⟩
abbrev main_v234 : Ref sig .tc := ⟨.hbm, 376, rfl⟩
abbrev main_cst_82 : Ref sig .tc := ⟨.hbm, 377, rfl⟩
abbrev main_v235 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_cst_83 : Ref sig .tc := ⟨.hbm, 386, rfl⟩
abbrev main_v243 : Ref sig .tc := ⟨.hbm, 387, rfl⟩
abbrev main_v244 : Ref sig .tc := ⟨.hbm, 388, rfl⟩
abbrev main_cst_84 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_c_85 : Ref sig .tc := ⟨.hbm, 393, rfl⟩
abbrev main_v248 : Ref sig .tc := ⟨.hbm, 394, rfl⟩
abbrev main_v249 : Ref sig .tc := ⟨.hbm, 395, rfl⟩
abbrev main_c_86 : Ref sig .tc := ⟨.hbm, 396, rfl⟩
abbrev main_v250 : Ref sig .tc := ⟨.hbm, 397, rfl⟩
abbrev main_v251 : Ref sig .tc := ⟨.hbm, 398, rfl⟩
abbrev main_v252 : Ref sig .tc := ⟨.hbm, 399, rfl⟩
abbrev main_c_87 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_c_88 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_c_89 : Ref sig .tc := ⟨.hbm, 409, rfl⟩
abbrev main_c_90 : Ref sig .tc := ⟨.hbm, 410, rfl⟩
abbrev main_call10_v0 : Ref sig .tc := ⟨.hbm, 411, rfl⟩
abbrev main_call10_v1 : Ref sig .tc := ⟨.hbm, 412, rfl⟩
abbrev main_call10_v2 : Ref sig .tc := ⟨.hbm, 413, rfl⟩
abbrev main_call10_v3 : Ref sig .tc := ⟨.hbm, 414, rfl⟩
abbrev main_call10_v4 : Ref sig .tc := ⟨.hbm, 415, rfl⟩
abbrev main_v260 : Ref sig .tc := ⟨.hbm, 416, rfl⟩
abbrev main_c_91 : Ref sig .tc := ⟨.hbm, 417, rfl⟩
abbrev main_c_92 : Ref sig .tc := ⟨.hbm, 418, rfl⟩
abbrev main_call11_v0 : Ref sig .tc := ⟨.hbm, 419, rfl⟩
abbrev main_call11_v1 : Ref sig .tc := ⟨.hbm, 420, rfl⟩
abbrev main_call11_v2 : Ref sig .tc := ⟨.hbm, 421, rfl⟩
abbrev main_call11_v3 : Ref sig .tc := ⟨.hbm, 422, rfl⟩
abbrev main_call11_v4 : Ref sig .tc := ⟨.hbm, 423, rfl⟩
abbrev main_v261 : Ref sig .tc := ⟨.hbm, 424, rfl⟩
abbrev main_c_93 : Ref sig .tc := ⟨.hbm, 425, rfl⟩
abbrev main_v262 : Ref sig .tc := ⟨.hbm, 426, rfl⟩
abbrev main_v263 : Ref sig .tc := ⟨.hbm, 427, rfl⟩
abbrev main_c_94 : Ref sig .tc := ⟨.hbm, 428, rfl⟩
abbrev main_v264 : Ref sig .tc := ⟨.hbm, 429, rfl⟩
abbrev main_v265 : Ref sig .tc := ⟨.hbm, 430, rfl⟩
abbrev main_v266 : Ref sig .tc := ⟨.hbm, 431, rfl⟩
abbrev main_c_95 : Ref sig .tc := ⟨.hbm, 432, rfl⟩
abbrev main_v267 : Ref sig .tc := ⟨.hbm, 433, rfl⟩
abbrev main_v268 : Ref sig .tc := ⟨.hbm, 434, rfl⟩
abbrev main_c_96 : Ref sig .tc := ⟨.hbm, 435, rfl⟩
abbrev main_v269 : Ref sig .tc := ⟨.hbm, 436, rfl⟩
abbrev main_v270 : Ref sig .tc := ⟨.hbm, 437, rfl⟩
abbrev main_v271 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_c_97 : Ref sig .tc := ⟨.hbm, 447, rfl⟩
abbrev main_v280 : Ref sig .tc := ⟨.hbm, 448, rfl⟩
abbrev main_v281 : Ref sig .tc := ⟨.hbm, 449, rfl⟩
abbrev main_cst_98 : Ref sig .tc := ⟨.hbm, 450, rfl⟩
abbrev main_v282 : Ref sig .tc := ⟨.hbm, 451, rfl⟩
abbrev main_v283 : Ref sig .tc := ⟨.hbm, 452, rfl⟩
abbrev main_v284 : Ref sig .tc := ⟨.hbm, 453, rfl⟩
abbrev main_c_99 : Ref sig .tc := ⟨.hbm, 454, rfl⟩
abbrev main_v285 : Ref sig .tc := ⟨.hbm, 455, rfl⟩
abbrev main_v286 : Ref sig .tc := ⟨.hbm, 456, rfl⟩
abbrev main_c_100 : Ref sig .tc := ⟨.hbm, 457, rfl⟩
abbrev main_v287 : Ref sig .tc := ⟨.hbm, 458, rfl⟩
abbrev main_v288 : Ref sig .tc := ⟨.hbm, 459, rfl⟩
abbrev main_v289 : Ref sig .tc := ⟨.hbm, 460, rfl⟩
abbrev main_c_101 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_c_102 : Ref sig .tc := ⟨.hbm, 465, rfl⟩
abbrev main_v293 : Ref sig .tc := ⟨.hbm, 466, rfl⟩
abbrev main_v294 : Ref sig .tc := ⟨.hbm, 467, rfl⟩
abbrev main_v295 : Ref sig .tc := ⟨.hbm, 468, rfl⟩
abbrev main_v296 : Ref sig .tc := ⟨.hbm, 469, rfl⟩
abbrev main_c_103 : Ref sig .tc := ⟨.hbm, 470, rfl⟩
abbrev main_c_104 : Ref sig .tc := ⟨.hbm, 471, rfl⟩
abbrev main_call12_v0 : Ref sig .tc := ⟨.hbm, 472, rfl⟩
abbrev main_call12_v1 : Ref sig .tc := ⟨.hbm, 473, rfl⟩
abbrev main_call12_v2 : Ref sig .tc := ⟨.hbm, 474, rfl⟩
abbrev main_call12_v3 : Ref sig .tc := ⟨.hbm, 475, rfl⟩
abbrev main_call12_v4 : Ref sig .tc := ⟨.hbm, 476, rfl⟩
abbrev main_v297 : Ref sig .tc := ⟨.hbm, 477, rfl⟩
abbrev main_c_105 : Ref sig .tc := ⟨.hbm, 478, rfl⟩
abbrev main_c_106 : Ref sig .tc := ⟨.hbm, 479, rfl⟩
abbrev main_call13_v0 : Ref sig .tc := ⟨.hbm, 480, rfl⟩
abbrev main_call13_v1 : Ref sig .tc := ⟨.hbm, 481, rfl⟩
abbrev main_call13_v2 : Ref sig .tc := ⟨.hbm, 482, rfl⟩
abbrev main_call13_v3 : Ref sig .tc := ⟨.hbm, 483, rfl⟩
abbrev main_call13_v4 : Ref sig .tc := ⟨.hbm, 484, rfl⟩
abbrev main_v298 : Ref sig .tc := ⟨.hbm, 485, rfl⟩
abbrev main_c_107 : Ref sig .tc := ⟨.hbm, 486, rfl⟩
abbrev main_v299 : Ref sig .tc := ⟨.hbm, 487, rfl⟩
abbrev main_v300 : Ref sig .tc := ⟨.hbm, 488, rfl⟩
abbrev main_c_108 : Ref sig .tc := ⟨.hbm, 489, rfl⟩
abbrev main_v301 : Ref sig .tc := ⟨.hbm, 490, rfl⟩
abbrev main_v302 : Ref sig .tc := ⟨.hbm, 491, rfl⟩
abbrev main_v303 : Ref sig .tc := ⟨.hbm, 492, rfl⟩
abbrev main_c_109 : Ref sig .tc := ⟨.hbm, 493, rfl⟩
abbrev main_v304 : Ref sig .tc := ⟨.hbm, 494, rfl⟩
abbrev main_v305 : Ref sig .tc := ⟨.hbm, 495, rfl⟩
abbrev main_c_110 : Ref sig .tc := ⟨.hbm, 496, rfl⟩
abbrev main_v306 : Ref sig .tc := ⟨.hbm, 497, rfl⟩
abbrev main_v307 : Ref sig .tc := ⟨.hbm, 498, rfl⟩
abbrev main_v308 : Ref sig .tc := ⟨.hbm, 499, rfl⟩
abbrev main_v309 : Ref sig .tc := ⟨.hbm, 500, rfl⟩
abbrev main_v310 : Ref sig .tc := ⟨.hbm, 501, rfl⟩
abbrev main_v311 : Ref sig .tc := ⟨.hbm, 502, rfl⟩
abbrev main_v312 : Ref sig .tc := ⟨.hbm, 503, rfl⟩
abbrev main_v313 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_v317 : Ref sig .tc := ⟨.hbm, 508, rfl⟩
abbrev main_c_111 : Ref sig .tc := ⟨.hbm, 509, rfl⟩
abbrev main_v318 : Ref sig .tc := ⟨.hbm, 510, rfl⟩
abbrev main_v319 : Ref sig .tc := ⟨.hbm, 511, rfl⟩
abbrev main_cst_112 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_c_113 : Ref sig .tc := ⟨.hbm, 516, rfl⟩
abbrev main_v323 : Ref sig .tc := ⟨.hbm, 517, rfl⟩
abbrev main_v324 : Ref sig .tc := ⟨.hbm, 518, rfl⟩
abbrev main_c_114 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_c_115 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_c_116 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_v334 : Ref sig .tc := ⟨.hbm, 531, rfl⟩
abbrev main_c_117 : Ref sig .tc := ⟨.hbm, 532, rfl⟩
abbrev main_c_118 : Ref sig .tc := ⟨.hbm, 533, rfl⟩
abbrev main_call14_v0 : Ref sig .tc := ⟨.hbm, 534, rfl⟩
abbrev main_call14_v1 : Ref sig .tc := ⟨.hbm, 535, rfl⟩
abbrev main_call14_v2 : Ref sig .tc := ⟨.hbm, 536, rfl⟩
abbrev main_call14_v3 : Ref sig .tc := ⟨.hbm, 537, rfl⟩
abbrev main_call14_v4 : Ref sig .tc := ⟨.hbm, 538, rfl⟩
abbrev main_v335 : Ref sig .tc := ⟨.hbm, 539, rfl⟩
abbrev main_c_119 : Ref sig .tc := ⟨.hbm, 540, rfl⟩
abbrev main_c_120 : Ref sig .tc := ⟨.hbm, 541, rfl⟩
abbrev main_call15_v0 : Ref sig .tc := ⟨.hbm, 542, rfl⟩
abbrev main_call15_v1 : Ref sig .tc := ⟨.hbm, 543, rfl⟩
abbrev main_call15_v2 : Ref sig .tc := ⟨.hbm, 544, rfl⟩
abbrev main_call15_v3 : Ref sig .tc := ⟨.hbm, 545, rfl⟩
abbrev main_call15_v4 : Ref sig .tc := ⟨.hbm, 546, rfl⟩
abbrev main_v336 : Ref sig .tc := ⟨.hbm, 547, rfl⟩
abbrev main_c_121 : Ref sig .tc := ⟨.hbm, 548, rfl⟩
abbrev main_v337 : Ref sig .tc := ⟨.hbm, 549, rfl⟩
abbrev main_v338 : Ref sig .tc := ⟨.hbm, 550, rfl⟩
abbrev main_c_122 : Ref sig .tc := ⟨.hbm, 551, rfl⟩
abbrev main_v339 : Ref sig .tc := ⟨.hbm, 552, rfl⟩
abbrev main_v340 : Ref sig .tc := ⟨.hbm, 553, rfl⟩
abbrev main_v341 : Ref sig .tc := ⟨.hbm, 554, rfl⟩
abbrev main_c_123 : Ref sig .tc := ⟨.hbm, 555, rfl⟩
abbrev main_v342 : Ref sig .tc := ⟨.hbm, 556, rfl⟩
abbrev main_v343 : Ref sig .tc := ⟨.hbm, 557, rfl⟩
abbrev main_c_124 : Ref sig .tc := ⟨.hbm, 558, rfl⟩
abbrev main_v344 : Ref sig .tc := ⟨.hbm, 559, rfl⟩
abbrev main_v345 : Ref sig .tc := ⟨.hbm, 560, rfl⟩
abbrev main_v346 : Ref sig .tc := ⟨.hbm, 561, rfl⟩
abbrev main_v347 : Ref sig .tc := ⟨.hbm, 562, rfl⟩
abbrev main_v348 : Ref sig .tc := ⟨.hbm, 563, rfl⟩
abbrev main_v349 : Ref sig .tc := ⟨.hbm, 564, rfl⟩
abbrev main_v350 : Ref sig .tc := ⟨.hbm, 565, rfl⟩
abbrev main_v351 : Ref sig .tc := ⟨.hbm, 566, rfl⟩
abbrev main_v352 : Ref sig .tc := ⟨.hbm, 567, rfl⟩
abbrev main_v353 : Ref sig .tc := ⟨.hbm, 568, rfl⟩
abbrev main_v354 : Ref sig .tc := ⟨.hbm, 569, rfl⟩
abbrev main_v355 : Ref sig .tc := ⟨.hbm, 570, rfl⟩
abbrev main_c_125 : Ref sig .tc := ⟨.hbm, 571, rfl⟩
abbrev main_v356 : Ref sig .tc := ⟨.hbm, 572, rfl⟩
abbrev main_v357 : Ref sig .tc := ⟨.hbm, 573, rfl⟩
abbrev main_c_126 : Ref sig .tc := ⟨.hbm, 574, rfl⟩
abbrev main_v358 : Ref sig .tc := ⟨.hbm, 575, rfl⟩
abbrev main_v359 : Ref sig .tc := ⟨.hbm, 576, rfl⟩
abbrev main_v360 : Ref sig .tc := ⟨.hbm, 577, rfl⟩
abbrev main_c_127 : Ref sig .tc := ⟨.hbm, 578, rfl⟩
abbrev main_v361 : Ref sig .tc := ⟨.hbm, 579, rfl⟩
abbrev main_v362 : Ref sig .tc := ⟨.hbm, 580, rfl⟩
abbrev main_c_128 : Ref sig .tc := ⟨.hbm, 581, rfl⟩
abbrev main_v363 : Ref sig .tc := ⟨.hbm, 582, rfl⟩
abbrev main_v364 : Ref sig .tc := ⟨.hbm, 583, rfl⟩
abbrev main_v365 : Ref sig .tc := ⟨.hbm, 584, rfl⟩
abbrev main_c_129 : Ref sig .tc := ⟨.hbm, 585, rfl⟩
abbrev main_v366 : Ref sig .tc := ⟨.hbm, 586, rfl⟩
abbrev main_v367 : Ref sig .tc := ⟨.hbm, 587, rfl⟩
abbrev main_v368 : Ref sig .tc := ⟨.hbm, 588, rfl⟩
abbrev main_c_130 : Ref sig .tc := ⟨.hbm, 589, rfl⟩
abbrev main_v369 : Ref sig .tc := ⟨.hbm, 590, rfl⟩
abbrev main_v370 : Ref sig .tc := ⟨.hbm, 591, rfl⟩
abbrev main_v371 : Ref sig .tc := ⟨.hbm, 592, rfl⟩
abbrev main_v372 : Ref sig .tc := ⟨.hbm, 593, rfl⟩
abbrev main_c_131 : Ref sig .tc := ⟨.hbm, 594, rfl⟩
abbrev main_c_132 : Ref sig .tc := ⟨.hbm, 595, rfl⟩
abbrev main_call16_v0 : Ref sig .tc := ⟨.hbm, 596, rfl⟩
abbrev main_call16_v1 : Ref sig .tc := ⟨.hbm, 597, rfl⟩
abbrev main_call16_v2 : Ref sig .tc := ⟨.hbm, 598, rfl⟩
abbrev main_call16_v3 : Ref sig .tc := ⟨.hbm, 599, rfl⟩
abbrev main_call16_v4 : Ref sig .tc := ⟨.hbm, 600, rfl⟩
abbrev main_v373 : Ref sig .tc := ⟨.hbm, 601, rfl⟩
abbrev main_c_133 : Ref sig .tc := ⟨.hbm, 602, rfl⟩
abbrev main_c_134 : Ref sig .tc := ⟨.hbm, 603, rfl⟩
abbrev main_call17_v0 : Ref sig .tc := ⟨.hbm, 604, rfl⟩
abbrev main_call17_v1 : Ref sig .tc := ⟨.hbm, 605, rfl⟩
abbrev main_call17_v2 : Ref sig .tc := ⟨.hbm, 606, rfl⟩
abbrev main_call17_v3 : Ref sig .tc := ⟨.hbm, 607, rfl⟩
abbrev main_call17_v4 : Ref sig .tc := ⟨.hbm, 608, rfl⟩
abbrev main_v374 : Ref sig .tc := ⟨.hbm, 609, rfl⟩
abbrev main_c_135 : Ref sig .tc := ⟨.hbm, 610, rfl⟩
abbrev main_v375 : Ref sig .tc := ⟨.hbm, 611, rfl⟩
abbrev main_v376 : Ref sig .tc := ⟨.hbm, 612, rfl⟩
abbrev main_c_136 : Ref sig .tc := ⟨.hbm, 613, rfl⟩
abbrev main_v377 : Ref sig .tc := ⟨.hbm, 614, rfl⟩
abbrev main_v378 : Ref sig .tc := ⟨.hbm, 615, rfl⟩
abbrev main_v379 : Ref sig .tc := ⟨.hbm, 616, rfl⟩
abbrev main_c_137 : Ref sig .tc := ⟨.hbm, 617, rfl⟩
abbrev main_v380 : Ref sig .tc := ⟨.hbm, 618, rfl⟩
abbrev main_v381 : Ref sig .tc := ⟨.hbm, 619, rfl⟩
abbrev main_c_138 : Ref sig .tc := ⟨.hbm, 620, rfl⟩
abbrev main_v382 : Ref sig .tc := ⟨.hbm, 621, rfl⟩
abbrev main_v383 : Ref sig .tc := ⟨.hbm, 622, rfl⟩
abbrev main_v384 : Ref sig .tc := ⟨.hbm, 623, rfl⟩
abbrev main_v385 : Ref sig .tc := ⟨.hbm, 624, rfl⟩
abbrev main_v386 : Ref sig .tc := ⟨.hbm, 625, rfl⟩
abbrev main_v387 : Ref sig .tc := ⟨.hbm, 626, rfl⟩
abbrev main_v388 : Ref sig .tc := ⟨.hbm, 627, rfl⟩
abbrev main_v389 : Ref sig .tc := ⟨.hbm, 628, rfl⟩
abbrev main_v390 : Ref sig .tc := ⟨.hbm, 629, rfl⟩
abbrev main_v391 : Ref sig .tc := ⟨.hbm, 630, rfl⟩
abbrev main_v392 : Ref sig .tc := ⟨.hbm, 631, rfl⟩
abbrev main_v393 : Ref sig .tc := ⟨.hbm, 632, rfl⟩
abbrev main_cst_139 : Ref sig .tc := ⟨.hbm, 633, rfl⟩
abbrev main_v394 : Ref sig .tc := ⟨.hbm, 634, rfl⟩
abbrev main_v395 : Ref sig .tc := ⟨.hbm, 635, rfl⟩
abbrev main_cst_140 : Ref sig .tc := ⟨.hbm, 636, rfl⟩
abbrev main_v396 : Ref sig .tc := ⟨.hbm, 637, rfl⟩
abbrev main_v397 : Ref sig .tc := ⟨.hbm, 638, rfl⟩
abbrev main_cst_141 : Ref sig .tc := ⟨.hbm, 639, rfl⟩
abbrev main_v398 : Ref sig .tc := ⟨.hbm, 640, rfl⟩
abbrev main_v399 : Ref sig .tc := ⟨.hbm, 641, rfl⟩
abbrev main_v400 : Ref sig .tc := ⟨.hbm, 642, rfl⟩
abbrev main_v401 : Ref sig .tc := ⟨.hbm, 643, rfl⟩
abbrev main_v402 : Ref sig .tc := ⟨.hbm, 644, rfl⟩
abbrev main_cst_142 : Ref sig .tc := ⟨.hbm, 645, rfl⟩
abbrev main_v403 : Ref sig .tc := ⟨.hbm, 646, rfl⟩
abbrev main_v404 : Ref sig .tc := ⟨.hbm, 647, rfl⟩
abbrev main_c_143 : Ref sig .tc := ⟨.hbm, 648, rfl⟩
abbrev main_v405 : Ref sig .tc := ⟨.hbm, 649, rfl⟩
abbrev main_v406 : Ref sig .tc := ⟨.hbm, 650, rfl⟩
abbrev main_c_144 : Ref sig .tc := ⟨.hbm, 651, rfl⟩
abbrev main_v407 : Ref sig .tc := ⟨.hbm, 652, rfl⟩
abbrev main_v408 : Ref sig .tc := ⟨.hbm, 653, rfl⟩
abbrev main_v409 : Ref sig .tc := ⟨.hbm, 654, rfl⟩
abbrev main_v410 : Ref sig .tc := ⟨.hbm, 655, rfl⟩
abbrev main_c_145 : Ref sig .tc := ⟨.hbm, 656, rfl⟩
abbrev main_c_146 : Ref sig .tc := ⟨.hbm, 657, rfl⟩
abbrev main_call18_v0 : Ref sig .tc := ⟨.hbm, 658, rfl⟩
abbrev main_call18_v1 : Ref sig .tc := ⟨.hbm, 659, rfl⟩
abbrev main_call18_v2 : Ref sig .tc := ⟨.hbm, 660, rfl⟩
abbrev main_call18_v3 : Ref sig .tc := ⟨.hbm, 661, rfl⟩
abbrev main_call18_v4 : Ref sig .tc := ⟨.hbm, 662, rfl⟩
abbrev main_v411 : Ref sig .tc := ⟨.hbm, 663, rfl⟩
abbrev main_c_147 : Ref sig .tc := ⟨.hbm, 664, rfl⟩
abbrev main_v412 : Ref sig .tc := ⟨.hbm, 665, rfl⟩
abbrev main_v413 : Ref sig .tc := ⟨.hbm, 666, rfl⟩
abbrev main_c_148 : Ref sig .tc := ⟨.hbm, 667, rfl⟩
abbrev main_v414 : Ref sig .tc := ⟨.hbm, 668, rfl⟩
abbrev main_v415 : Ref sig .tc := ⟨.hbm, 669, rfl⟩
abbrev main_v416 : Ref sig .tc := ⟨.hbm, 670, rfl⟩
abbrev main_v417 : Ref sig .tc := ⟨.hbm, 671, rfl⟩
abbrev main_v418 : Ref sig .tc := ⟨.hbm, 672, rfl⟩
abbrev main_v419 : Ref sig .tc := ⟨.hbm, 673, rfl⟩
abbrev main_v420 : Ref sig .tc := ⟨.hbm, 674, rfl⟩
abbrev main_v421 : Ref sig .tc := ⟨.hbm, 675, rfl⟩
abbrev main_v422 : Ref sig .tc := ⟨.hbm, 676, rfl⟩
abbrev main_c_149 : Ref sig .tc := ⟨.hbm, 677, rfl⟩
abbrev main_v423 : Ref sig .tc := ⟨.hbm, 678, rfl⟩
abbrev main_v424 : Ref sig .tc := ⟨.hbm, 679, rfl⟩
abbrev main_c_150 : Ref sig .tc := ⟨.hbm, 680, rfl⟩
abbrev main_v425 : Ref sig .tc := ⟨.hbm, 681, rfl⟩
abbrev main_v426 : Ref sig .tc := ⟨.hbm, 682, rfl⟩
abbrev main_c_151 : Ref sig .tc := ⟨.hbm, 683, rfl⟩
abbrev main_v427 : Ref sig .tc := ⟨.hbm, 684, rfl⟩
abbrev main_v428 : Ref sig .tc := ⟨.hbm, 685, rfl⟩
abbrev main_v429 : Ref sig .tc := ⟨.hbm, 686, rfl⟩
abbrev main_v430 : Ref sig .tc := ⟨.hbm, 687, rfl⟩
abbrev main_c_152 : Ref sig .tc := ⟨.hbm, 688, rfl⟩
abbrev main_c_153 : Ref sig .tc := ⟨.hbm, 689, rfl⟩
abbrev main_call19_v0 : Ref sig .tc := ⟨.hbm, 690, rfl⟩
abbrev main_call19_v1 : Ref sig .tc := ⟨.hbm, 691, rfl⟩
abbrev main_call19_v2 : Ref sig .tc := ⟨.hbm, 692, rfl⟩
abbrev main_call19_v3 : Ref sig .tc := ⟨.hbm, 693, rfl⟩
abbrev main_call19_v4 : Ref sig .tc := ⟨.hbm, 694, rfl⟩
abbrev main_v431 : Ref sig .tc := ⟨.hbm, 695, rfl⟩
abbrev main_c_154 : Ref sig .tc := ⟨.hbm, 696, rfl⟩
abbrev main_v432 : Ref sig .tc := ⟨.hbm, 697, rfl⟩
abbrev main_v433 : Ref sig .tc := ⟨.hbm, 698, rfl⟩
abbrev main_c_155 : Ref sig .tc := ⟨.hbm, 699, rfl⟩
abbrev main_v434 : Ref sig .tc := ⟨.hbm, 700, rfl⟩
abbrev main_v435 : Ref sig .tc := ⟨.hbm, 701, rfl⟩
abbrev main_v436 : Ref sig .tc := ⟨.hbm, 702, rfl⟩
abbrev main_v437 : Ref sig .tc := ⟨.hbm, 703, rfl⟩
abbrev main_v438 : Ref sig .tc := ⟨.hbm, 704, rfl⟩
abbrev main_v439 : Ref sig .tc := ⟨.hbm, 705, rfl⟩
abbrev main_v440 : Ref sig .tc := ⟨.hbm, 706, rfl⟩
abbrev main_v441 : Ref sig .tc := ⟨.hbm, 707, rfl⟩
abbrev main_v442 : Ref sig .tc := ⟨.hbm, 708, rfl⟩
abbrev main_v443 : Ref sig .tc := ⟨.hbm, 709, rfl⟩
abbrev main_cst_156 : Ref sig .tc := ⟨.hbm, 710, rfl⟩
abbrev main_v444 : Ref sig .tc := ⟨.hbm, 711, rfl⟩
abbrev main_v445 : Ref sig .tc := ⟨.hbm, 712, rfl⟩
abbrev main_cst_157 : Ref sig .tc := ⟨.hbm, 713, rfl⟩
abbrev main_v446 : Ref sig .tc := ⟨.hbm, 714, rfl⟩
abbrev main_v447 : Ref sig .tc := ⟨.hbm, 715, rfl⟩
abbrev main_cst_158 : Ref sig .tc := ⟨.hbm, 716, rfl⟩
abbrev main_v448 : Ref sig .tc := ⟨.hbm, 717, rfl⟩
abbrev main_v449 : Ref sig .tc := ⟨.hbm, 718, rfl⟩
abbrev main_cst_159 : Ref sig .tc := ⟨.hbm, 719, rfl⟩
abbrev main_v450 : Ref sig .tc := ⟨.hbm, 720, rfl⟩
abbrev main_v451 : Ref sig .tc := ⟨.hbm, 721, rfl⟩
abbrev main_cst_160 : Ref sig .tc := ⟨.hbm, 722, rfl⟩
abbrev main_v452 : Ref sig .tc := ⟨.hbm, 723, rfl⟩
abbrev main_v453 : Ref sig .tc := ⟨.hbm, 724, rfl⟩
abbrev main_cst_161 : Ref sig .tc := ⟨.hbm, 725, rfl⟩
abbrev main_v454 : Ref sig .tc := ⟨.hbm, 726, rfl⟩
abbrev main_v455 : Ref sig .tc := ⟨.hbm, 727, rfl⟩
abbrev main_v456 : Ref sig .tc := ⟨.hbm, 728, rfl⟩
abbrev main_v457 : Ref sig .tc := ⟨.hbm, 729, rfl⟩
abbrev main_v458 : Ref sig .tc := ⟨.hbm, 730, rfl⟩
abbrev main_v459 : Ref sig .tc := ⟨.hbm, 731, rfl⟩
abbrev main_v460 : Ref sig .tc := ⟨.hbm, 732, rfl⟩
abbrev main_v461 : Ref sig .tc := ⟨.hbm, 733, rfl⟩
abbrev main_cst_162 : Ref sig .tc := ⟨.hbm, 734, rfl⟩
abbrev main_v462 : Ref sig .tc := ⟨.hbm, 735, rfl⟩
abbrev main_v463 : Ref sig .tc := ⟨.hbm, 736, rfl⟩
abbrev main_cst_163 : Ref sig .tc := ⟨.hbm, 737, rfl⟩
abbrev main_v464 : Ref sig .tc := ⟨.hbm, 738, rfl⟩
abbrev main_v465 : Ref sig .tc := ⟨.hbm, 739, rfl⟩
abbrev main_v466 : Ref sig .tc := ⟨.hbm, 740, rfl⟩
abbrev main_c_164 : Ref sig .tc := ⟨.hbm, 741, rfl⟩
abbrev main_v467 : Ref sig .tc := ⟨.hbm, 742, rfl⟩
abbrev main_v468 : Ref sig .tc := ⟨.hbm, 743, rfl⟩
abbrev main_c_165 : Ref sig .tc := ⟨.hbm, 744, rfl⟩
abbrev main_v469 : Ref sig .tc := ⟨.hbm, 745, rfl⟩
abbrev main_v470 : Ref sig .tc := ⟨.hbm, 746, rfl⟩
abbrev main_v471 : Ref sig .tc := ⟨.hbm, 747, rfl⟩
abbrev main_c_166 : Ref sig .tc := ⟨.hbm, 748, rfl⟩
abbrev main_v472 : Ref sig .tc := ⟨.hbm, 749, rfl⟩
abbrev main_v473 : Ref sig .tc := ⟨.hbm, 750, rfl⟩
abbrev main_v474 : Ref sig .tc := ⟨.hbm, 751, rfl⟩
abbrev main_c_167 : Ref sig .tc := ⟨.hbm, 752, rfl⟩
abbrev main_v475 : Ref sig .tc := ⟨.hbm, 753, rfl⟩
abbrev main_v476 : Ref sig .tc := ⟨.hbm, 754, rfl⟩
abbrev main_v477 : Ref sig .tc := ⟨.hbm, 755, rfl⟩
abbrev main_v478 : Ref sig .tc := ⟨.hbm, 756, rfl⟩
abbrev main_c_168 : Ref sig .tc := ⟨.hbm, 757, rfl⟩
abbrev main_c_169 : Ref sig .tc := ⟨.hbm, 758, rfl⟩
abbrev main_call20_v0 : Ref sig .tc := ⟨.hbm, 759, rfl⟩
abbrev main_call20_v1 : Ref sig .tc := ⟨.hbm, 760, rfl⟩
abbrev main_call20_v2 : Ref sig .tc := ⟨.hbm, 761, rfl⟩
abbrev main_call20_v3 : Ref sig .tc := ⟨.hbm, 762, rfl⟩
abbrev main_call20_v4 : Ref sig .tc := ⟨.hbm, 763, rfl⟩
abbrev main_v479 : Ref sig .tc := ⟨.hbm, 764, rfl⟩
abbrev main_c_170 : Ref sig .tc := ⟨.hbm, 765, rfl⟩
abbrev main_c_171 : Ref sig .tc := ⟨.hbm, 766, rfl⟩
abbrev main_call21_v0 : Ref sig .tc := ⟨.hbm, 767, rfl⟩
abbrev main_call21_v1 : Ref sig .tc := ⟨.hbm, 768, rfl⟩
abbrev main_call21_v2 : Ref sig .tc := ⟨.hbm, 769, rfl⟩
abbrev main_call21_v3 : Ref sig .tc := ⟨.hbm, 770, rfl⟩
abbrev main_call21_v4 : Ref sig .tc := ⟨.hbm, 771, rfl⟩
abbrev main_v480 : Ref sig .tc := ⟨.hbm, 772, rfl⟩
abbrev main_c_172 : Ref sig .tc := ⟨.hbm, 773, rfl⟩
abbrev main_v481 : Ref sig .tc := ⟨.hbm, 774, rfl⟩
abbrev main_v482 : Ref sig .tc := ⟨.hbm, 775, rfl⟩
abbrev main_c_173 : Ref sig .tc := ⟨.hbm, 776, rfl⟩
abbrev main_v483 : Ref sig .tc := ⟨.hbm, 777, rfl⟩
abbrev main_v484 : Ref sig .tc := ⟨.hbm, 778, rfl⟩
abbrev main_v485 : Ref sig .tc := ⟨.hbm, 779, rfl⟩
abbrev main_c_174 : Ref sig .tc := ⟨.hbm, 780, rfl⟩
abbrev main_v486 : Ref sig .tc := ⟨.hbm, 781, rfl⟩
abbrev main_v487 : Ref sig .tc := ⟨.hbm, 782, rfl⟩
abbrev main_c_175 : Ref sig .tc := ⟨.hbm, 783, rfl⟩
abbrev main_v488 : Ref sig .tc := ⟨.hbm, 784, rfl⟩
abbrev main_v489 : Ref sig .tc := ⟨.hbm, 785, rfl⟩
abbrev main_v490 : Ref sig .tc := ⟨.hbm, 786, rfl⟩
abbrev main_v491 : Ref sig .tc := ⟨.hbm, 787, rfl⟩
abbrev main_v492 : Ref sig .tc := ⟨.hbm, 788, rfl⟩
abbrev main_v493 : Ref sig .tc := ⟨.hbm, 789, rfl⟩
abbrev main_v494 : Ref sig .tc := ⟨.hbm, 790, rfl⟩
abbrev main_v495 : Ref sig .tc := ⟨.hbm, 791, rfl⟩
abbrev main_v496 : Ref sig .tc := ⟨.hbm, 792, rfl⟩
abbrev main_v497 : Ref sig .tc := ⟨.hbm, 793, rfl⟩
abbrev main_v498 : Ref sig .tc := ⟨.hbm, 794, rfl⟩
abbrev main_c_176 : Ref sig .tc := ⟨.hbm, 795, rfl⟩
abbrev main_v499 : Ref sig .tc := ⟨.hbm, 796, rfl⟩
abbrev main_v500 : Ref sig .tc := ⟨.hbm, 797, rfl⟩
abbrev main_cst_177 : Ref sig .tc := ⟨.hbm, 798, rfl⟩
abbrev main_v501 : Ref sig .tc := ⟨.hbm, 799, rfl⟩
abbrev main_v502 : Ref sig .tc := ⟨.hbm, 800, rfl⟩
abbrev main_v503 : Ref sig .tc := ⟨.hbm, 801, rfl⟩
abbrev main_c_178 : Ref sig .tc := ⟨.hbm, 802, rfl⟩
abbrev main_v504 : Ref sig .tc := ⟨.hbm, 803, rfl⟩
abbrev main_v505 : Ref sig .tc := ⟨.hbm, 804, rfl⟩
abbrev main_c_179 : Ref sig .tc := ⟨.hbm, 805, rfl⟩
abbrev main_v506 : Ref sig .tc := ⟨.hbm, 806, rfl⟩
abbrev main_v507 : Ref sig .tc := ⟨.hbm, 807, rfl⟩
abbrev main_v508 : Ref sig .tc := ⟨.hbm, 808, rfl⟩
abbrev main_c_180 : Ref sig .tc := ⟨.hbm, 809, rfl⟩
abbrev main_v509 : Ref sig .tc := ⟨.hbm, 810, rfl⟩
abbrev main_v510 : Ref sig .tc := ⟨.hbm, 811, rfl⟩
abbrev main_v511 : Ref sig .tc := ⟨.hbm, 812, rfl⟩
abbrev main_c_181 : Ref sig .tc := ⟨.hbm, 813, rfl⟩
abbrev main_v512 : Ref sig .tc := ⟨.hbm, 814, rfl⟩
abbrev main_v513 : Ref sig .tc := ⟨.hbm, 815, rfl⟩
abbrev main_v514 : Ref sig .tc := ⟨.hbm, 816, rfl⟩
abbrev main_v515 : Ref sig .tc := ⟨.hbm, 817, rfl⟩
abbrev main_c_182 : Ref sig .tc := ⟨.hbm, 818, rfl⟩
abbrev main_c_183 : Ref sig .tc := ⟨.hbm, 819, rfl⟩
abbrev main_call22_v0 : Ref sig .tc := ⟨.hbm, 820, rfl⟩
abbrev main_call22_v1 : Ref sig .tc := ⟨.hbm, 821, rfl⟩
abbrev main_call22_v2 : Ref sig .tc := ⟨.hbm, 822, rfl⟩
abbrev main_call22_v3 : Ref sig .tc := ⟨.hbm, 823, rfl⟩
abbrev main_call22_v4 : Ref sig .tc := ⟨.hbm, 824, rfl⟩
abbrev main_v516 : Ref sig .tc := ⟨.hbm, 825, rfl⟩
abbrev main_c_184 : Ref sig .tc := ⟨.hbm, 826, rfl⟩
abbrev main_c_185 : Ref sig .tc := ⟨.hbm, 827, rfl⟩
abbrev main_call23_v0 : Ref sig .tc := ⟨.hbm, 828, rfl⟩
abbrev main_call23_v1 : Ref sig .tc := ⟨.hbm, 829, rfl⟩
abbrev main_call23_v2 : Ref sig .tc := ⟨.hbm, 830, rfl⟩
abbrev main_call23_v3 : Ref sig .tc := ⟨.hbm, 831, rfl⟩
abbrev main_call23_v4 : Ref sig .tc := ⟨.hbm, 832, rfl⟩
abbrev main_v517 : Ref sig .tc := ⟨.hbm, 833, rfl⟩
abbrev main_c_186 : Ref sig .tc := ⟨.hbm, 834, rfl⟩
abbrev main_v518 : Ref sig .tc := ⟨.hbm, 835, rfl⟩
abbrev main_v519 : Ref sig .tc := ⟨.hbm, 836, rfl⟩
abbrev main_c_187 : Ref sig .tc := ⟨.hbm, 837, rfl⟩
abbrev main_v520 : Ref sig .tc := ⟨.hbm, 838, rfl⟩
abbrev main_v521 : Ref sig .tc := ⟨.hbm, 839, rfl⟩
abbrev main_v522 : Ref sig .tc := ⟨.hbm, 840, rfl⟩
abbrev main_c_188 : Ref sig .tc := ⟨.hbm, 841, rfl⟩
abbrev main_v523 : Ref sig .tc := ⟨.hbm, 842, rfl⟩
abbrev main_v524 : Ref sig .tc := ⟨.hbm, 843, rfl⟩
abbrev main_c_189 : Ref sig .tc := ⟨.hbm, 844, rfl⟩
abbrev main_v525 : Ref sig .tc := ⟨.hbm, 845, rfl⟩
abbrev main_v526 : Ref sig .tc := ⟨.hbm, 846, rfl⟩
abbrev main_v527 : Ref sig .tc := ⟨.hbm, 847, rfl⟩
abbrev main_v528 : Ref sig .tc := ⟨.hbm, 848, rfl⟩
abbrev main_v529 : Ref sig .tc := ⟨.hbm, 849, rfl⟩
abbrev main_v530 : Ref sig .tc := ⟨.hbm, 850, rfl⟩
abbrev main_v531 : Ref sig .tc := ⟨.hbm, 851, rfl⟩
abbrev main_v532 : Ref sig .tc := ⟨.hbm, 852, rfl⟩
abbrev main_v533 : Ref sig .tc := ⟨.hbm, 853, rfl⟩
abbrev main_v534 : Ref sig .tc := ⟨.hbm, 854, rfl⟩
abbrev main_v535 : Ref sig .tc := ⟨.hbm, 855, rfl⟩
abbrev main_v536 : Ref sig .tc := ⟨.hbm, 856, rfl⟩
abbrev main_c_190 : Ref sig .tc := ⟨.hbm, 857, rfl⟩
abbrev main_v537 : Ref sig .tc := ⟨.hbm, 858, rfl⟩
abbrev main_v538 : Ref sig .tc := ⟨.hbm, 859, rfl⟩
abbrev main_cst_191 : Ref sig .tc := ⟨.hbm, 860, rfl⟩
abbrev main_v539 : Ref sig .tc := ⟨.hbm, 861, rfl⟩
abbrev main_v540 : Ref sig .tc := ⟨.hbm, 862, rfl⟩
abbrev main_v541 : Ref sig .tc := ⟨.hbm, 863, rfl⟩
abbrev main_c_192 : Ref sig .tc := ⟨.hbm, 864, rfl⟩
abbrev main_v542 : Ref sig .tc := ⟨.hbm, 865, rfl⟩
abbrev main_v543 : Ref sig .tc := ⟨.hbm, 866, rfl⟩
abbrev main_c_193 : Ref sig .tc := ⟨.hbm, 867, rfl⟩
abbrev main_v544 : Ref sig .tc := ⟨.hbm, 868, rfl⟩
abbrev main_v545 : Ref sig .tc := ⟨.hbm, 869, rfl⟩
abbrev main_v546 : Ref sig .tc := ⟨.hbm, 870, rfl⟩
abbrev main_c_194 : Ref sig .tc := ⟨.hbm, 871, rfl⟩
abbrev main_v547 : Ref sig .tc := ⟨.hbm, 872, rfl⟩
abbrev main_v548 : Ref sig .tc := ⟨.hbm, 873, rfl⟩
abbrev main_v549 : Ref sig .tc := ⟨.hbm, 874, rfl⟩
abbrev main_c_195 : Ref sig .tc := ⟨.hbm, 875, rfl⟩
abbrev main_v550 : Ref sig .tc := ⟨.hbm, 876, rfl⟩
abbrev main_v551 : Ref sig .tc := ⟨.hbm, 877, rfl⟩
abbrev main_v552 : Ref sig .tc := ⟨.hbm, 878, rfl⟩
abbrev main_v553 : Ref sig .tc := ⟨.hbm, 879, rfl⟩
abbrev main_c_196 : Ref sig .tc := ⟨.hbm, 880, rfl⟩
abbrev main_c_197 : Ref sig .tc := ⟨.hbm, 881, rfl⟩
abbrev main_call24_v0 : Ref sig .tc := ⟨.hbm, 882, rfl⟩
abbrev main_call24_v1 : Ref sig .tc := ⟨.hbm, 883, rfl⟩
abbrev main_call24_v2 : Ref sig .tc := ⟨.hbm, 884, rfl⟩
abbrev main_call24_v3 : Ref sig .tc := ⟨.hbm, 885, rfl⟩
abbrev main_call24_v4 : Ref sig .tc := ⟨.hbm, 886, rfl⟩
abbrev main_v554 : Ref sig .tc := ⟨.hbm, 887, rfl⟩
abbrev main_c_198 : Ref sig .tc := ⟨.hbm, 888, rfl⟩
abbrev main_c_199 : Ref sig .tc := ⟨.hbm, 889, rfl⟩
abbrev main_call25_v0 : Ref sig .tc := ⟨.hbm, 890, rfl⟩
abbrev main_call25_v1 : Ref sig .tc := ⟨.hbm, 891, rfl⟩
abbrev main_call25_v2 : Ref sig .tc := ⟨.hbm, 892, rfl⟩
abbrev main_call25_v3 : Ref sig .tc := ⟨.hbm, 893, rfl⟩
abbrev main_call25_v4 : Ref sig .tc := ⟨.hbm, 894, rfl⟩
abbrev main_v555 : Ref sig .tc := ⟨.hbm, 895, rfl⟩
abbrev main_c_200 : Ref sig .tc := ⟨.hbm, 896, rfl⟩
abbrev main_v556 : Ref sig .tc := ⟨.hbm, 897, rfl⟩
abbrev main_v557 : Ref sig .tc := ⟨.hbm, 898, rfl⟩
abbrev main_c_201 : Ref sig .tc := ⟨.hbm, 899, rfl⟩
abbrev main_v558 : Ref sig .tc := ⟨.hbm, 900, rfl⟩
abbrev main_v559 : Ref sig .tc := ⟨.hbm, 901, rfl⟩
abbrev main_v560 : Ref sig .tc := ⟨.hbm, 902, rfl⟩
abbrev main_c_202 : Ref sig .tc := ⟨.hbm, 903, rfl⟩
abbrev main_v561 : Ref sig .tc := ⟨.hbm, 904, rfl⟩
abbrev main_v562 : Ref sig .tc := ⟨.hbm, 905, rfl⟩
abbrev main_c_203 : Ref sig .tc := ⟨.hbm, 906, rfl⟩
abbrev main_v563 : Ref sig .tc := ⟨.hbm, 907, rfl⟩
abbrev main_v564 : Ref sig .tc := ⟨.hbm, 908, rfl⟩
abbrev main_v565 : Ref sig .tc := ⟨.hbm, 909, rfl⟩
abbrev main_v566 : Ref sig .tc := ⟨.hbm, 910, rfl⟩
abbrev main_v567 : Ref sig .tc := ⟨.hbm, 911, rfl⟩
abbrev main_v568 : Ref sig .tc := ⟨.hbm, 912, rfl⟩
abbrev main_v569 : Ref sig .tc := ⟨.hbm, 913, rfl⟩
abbrev main_v570 : Ref sig .tc := ⟨.hbm, 914, rfl⟩
abbrev main_v571 : Ref sig .tc := ⟨.hbm, 915, rfl⟩
abbrev main_v572 : Ref sig .tc := ⟨.hbm, 916, rfl⟩
abbrev main_v573 : Ref sig .tc := ⟨.hbm, 917, rfl⟩
abbrev main_v574 : Ref sig .tc := ⟨.hbm, 918, rfl⟩
abbrev main_c_204 : Ref sig .tc := ⟨.hbm, 919, rfl⟩
abbrev main_v575 : Ref sig .tc := ⟨.hbm, 920, rfl⟩
abbrev main_v576 : Ref sig .tc := ⟨.hbm, 921, rfl⟩
abbrev main_c_205 : Ref sig .tc := ⟨.hbm, 922, rfl⟩
abbrev main_v577 : Ref sig .tc := ⟨.hbm, 923, rfl⟩
abbrev main_v578 : Ref sig .tc := ⟨.hbm, 924, rfl⟩
abbrev main_v579 : Ref sig .tc := ⟨.hbm, 925, rfl⟩
abbrev main_c_206 : Ref sig .tc := ⟨.hbm, 926, rfl⟩
abbrev main_v580 : Ref sig .tc := ⟨.hbm, 927, rfl⟩
abbrev main_v581 : Ref sig .tc := ⟨.hbm, 928, rfl⟩
abbrev main_c_207 : Ref sig .tc := ⟨.hbm, 929, rfl⟩
abbrev main_v582 : Ref sig .tc := ⟨.hbm, 930, rfl⟩
abbrev main_v583 : Ref sig .tc := ⟨.hbm, 931, rfl⟩
abbrev main_v584 : Ref sig .tc := ⟨.hbm, 932, rfl⟩
abbrev main_c_208 : Ref sig .tc := ⟨.hbm, 933, rfl⟩
abbrev main_v585 : Ref sig .tc := ⟨.hbm, 934, rfl⟩
abbrev main_v586 : Ref sig .tc := ⟨.hbm, 935, rfl⟩
abbrev main_v587 : Ref sig .tc := ⟨.hbm, 936, rfl⟩
abbrev main_c_209 : Ref sig .tc := ⟨.hbm, 937, rfl⟩
abbrev main_v588 : Ref sig .tc := ⟨.hbm, 938, rfl⟩
abbrev main_v589 : Ref sig .tc := ⟨.hbm, 939, rfl⟩
abbrev main_v590 : Ref sig .tc := ⟨.hbm, 940, rfl⟩
abbrev main_v591 : Ref sig .tc := ⟨.hbm, 941, rfl⟩
abbrev main_c_210 : Ref sig .tc := ⟨.hbm, 942, rfl⟩
abbrev main_c_211 : Ref sig .tc := ⟨.hbm, 943, rfl⟩
abbrev main_call26_v0 : Ref sig .tc := ⟨.hbm, 944, rfl⟩
abbrev main_call26_v1 : Ref sig .tc := ⟨.hbm, 945, rfl⟩
abbrev main_call26_v2 : Ref sig .tc := ⟨.hbm, 946, rfl⟩
abbrev main_call26_v3 : Ref sig .tc := ⟨.hbm, 947, rfl⟩
abbrev main_call26_v4 : Ref sig .tc := ⟨.hbm, 948, rfl⟩
abbrev main_v592 : Ref sig .tc := ⟨.hbm, 949, rfl⟩
abbrev main_c_212 : Ref sig .tc := ⟨.hbm, 950, rfl⟩
abbrev main_c_213 : Ref sig .tc := ⟨.hbm, 951, rfl⟩
abbrev main_call27_v0 : Ref sig .tc := ⟨.hbm, 952, rfl⟩
abbrev main_call27_v1 : Ref sig .tc := ⟨.hbm, 953, rfl⟩
abbrev main_call27_v2 : Ref sig .tc := ⟨.hbm, 954, rfl⟩
abbrev main_call27_v3 : Ref sig .tc := ⟨.hbm, 955, rfl⟩
abbrev main_call27_v4 : Ref sig .tc := ⟨.hbm, 956, rfl⟩
abbrev main_v593 : Ref sig .tc := ⟨.hbm, 957, rfl⟩
abbrev main_c_214 : Ref sig .tc := ⟨.hbm, 958, rfl⟩
abbrev main_v594 : Ref sig .tc := ⟨.hbm, 959, rfl⟩
abbrev main_v595 : Ref sig .tc := ⟨.hbm, 960, rfl⟩
abbrev main_c_215 : Ref sig .tc := ⟨.hbm, 961, rfl⟩
abbrev main_v596 : Ref sig .tc := ⟨.hbm, 962, rfl⟩
abbrev main_v597 : Ref sig .tc := ⟨.hbm, 963, rfl⟩
abbrev main_v598 : Ref sig .tc := ⟨.hbm, 964, rfl⟩
abbrev main_c_216 : Ref sig .tc := ⟨.hbm, 965, rfl⟩
abbrev main_v599 : Ref sig .tc := ⟨.hbm, 966, rfl⟩
abbrev main_v600 : Ref sig .tc := ⟨.hbm, 967, rfl⟩
abbrev main_c_217 : Ref sig .tc := ⟨.hbm, 968, rfl⟩
abbrev main_v601 : Ref sig .tc := ⟨.hbm, 969, rfl⟩
abbrev main_v602 : Ref sig .tc := ⟨.hbm, 970, rfl⟩
abbrev main_v603 : Ref sig .tc := ⟨.hbm, 971, rfl⟩
abbrev main_v604 : Ref sig .tc := ⟨.hbm, 972, rfl⟩
abbrev main_v605 : Ref sig .tc := ⟨.hbm, 973, rfl⟩
abbrev main_v606 : Ref sig .tc := ⟨.hbm, 974, rfl⟩
abbrev main_v607 : Ref sig .tc := ⟨.hbm, 975, rfl⟩
abbrev main_v608 : Ref sig .tc := ⟨.hbm, 976, rfl⟩
abbrev main_v609 : Ref sig .tc := ⟨.hbm, 977, rfl⟩
abbrev main_v610 : Ref sig .tc := ⟨.hbm, 978, rfl⟩
abbrev main_v611 : Ref sig .tc := ⟨.hbm, 979, rfl⟩
abbrev main_v612 : Ref sig .tc := ⟨.hbm, 980, rfl⟩
abbrev main_cst_218 : Ref sig .tc := ⟨.hbm, 981, rfl⟩
abbrev main_v613 : Ref sig .tc := ⟨.hbm, 982, rfl⟩
abbrev main_v614 : Ref sig .tc := ⟨.hbm, 983, rfl⟩
abbrev main_cst_219 : Ref sig .tc := ⟨.hbm, 984, rfl⟩
abbrev main_v615 : Ref sig .tc := ⟨.hbm, 985, rfl⟩
abbrev main_v616 : Ref sig .tc := ⟨.hbm, 986, rfl⟩
abbrev main_cst_220 : Ref sig .tc := ⟨.hbm, 987, rfl⟩
abbrev main_v617 : Ref sig .tc := ⟨.hbm, 988, rfl⟩
abbrev main_v618 : Ref sig .tc := ⟨.hbm, 989, rfl⟩
abbrev main_v619 : Ref sig .tc := ⟨.hbm, 990, rfl⟩
abbrev main_v620 : Ref sig .tc := ⟨.hbm, 991, rfl⟩
abbrev main_v621 : Ref sig .tc := ⟨.hbm, 992, rfl⟩
abbrev main_cst_221 : Ref sig .tc := ⟨.hbm, 993, rfl⟩
abbrev main_v622 : Ref sig .tc := ⟨.hbm, 994, rfl⟩
abbrev main_v623 : Ref sig .tc := ⟨.hbm, 995, rfl⟩
abbrev main_c_222 : Ref sig .tc := ⟨.hbm, 996, rfl⟩
abbrev main_v624 : Ref sig .tc := ⟨.hbm, 997, rfl⟩
abbrev main_v625 : Ref sig .tc := ⟨.hbm, 998, rfl⟩
abbrev main_c_223 : Ref sig .tc := ⟨.hbm, 999, rfl⟩
abbrev main_v626 : Ref sig .tc := ⟨.hbm, 1000, rfl⟩
abbrev main_v627 : Ref sig .tc := ⟨.hbm, 1001, rfl⟩
abbrev main_v628 : Ref sig .tc := ⟨.hbm, 1002, rfl⟩
abbrev main_v629 : Ref sig .tc := ⟨.hbm, 1003, rfl⟩
abbrev main_c_224 : Ref sig .tc := ⟨.hbm, 1004, rfl⟩
abbrev main_c_225 : Ref sig .tc := ⟨.hbm, 1005, rfl⟩
abbrev main_call28_v0 : Ref sig .tc := ⟨.hbm, 1006, rfl⟩
abbrev main_call28_v1 : Ref sig .tc := ⟨.hbm, 1007, rfl⟩
abbrev main_call28_v2 : Ref sig .tc := ⟨.hbm, 1008, rfl⟩
abbrev main_call28_v3 : Ref sig .tc := ⟨.hbm, 1009, rfl⟩
abbrev main_call28_v4 : Ref sig .tc := ⟨.hbm, 1010, rfl⟩
abbrev main_v630 : Ref sig .tc := ⟨.hbm, 1011, rfl⟩
abbrev main_c_226 : Ref sig .tc := ⟨.hbm, 1012, rfl⟩
abbrev main_v631 : Ref sig .tc := ⟨.hbm, 1013, rfl⟩
abbrev main_v632 : Ref sig .tc := ⟨.hbm, 1014, rfl⟩
abbrev main_c_227 : Ref sig .tc := ⟨.hbm, 1015, rfl⟩
abbrev main_v633 : Ref sig .tc := ⟨.hbm, 1016, rfl⟩
abbrev main_v634 : Ref sig .tc := ⟨.hbm, 1017, rfl⟩
abbrev main_v635 : Ref sig .tc := ⟨.hbm, 1018, rfl⟩
abbrev main_v636 : Ref sig .tc := ⟨.hbm, 1019, rfl⟩
abbrev main_v637 : Ref sig .tc := ⟨.hbm, 1020, rfl⟩
abbrev main_v638 : Ref sig .tc := ⟨.hbm, 1021, rfl⟩
abbrev main_v639 : Ref sig .tc := ⟨.hbm, 1022, rfl⟩
abbrev main_v640 : Ref sig .tc := ⟨.hbm, 1023, rfl⟩
abbrev main_v641 : Ref sig .tc := ⟨.hbm, 1024, rfl⟩
abbrev main_c_228 : Ref sig .tc := ⟨.hbm, 1025, rfl⟩
abbrev main_v642 : Ref sig .tc := ⟨.hbm, 1026, rfl⟩
abbrev main_v643 : Ref sig .tc := ⟨.hbm, 1027, rfl⟩
abbrev main_c_229 : Ref sig .tc := ⟨.hbm, 1028, rfl⟩
abbrev main_v644 : Ref sig .tc := ⟨.hbm, 1029, rfl⟩
abbrev main_v645 : Ref sig .tc := ⟨.hbm, 1030, rfl⟩
abbrev main_c_230 : Ref sig .tc := ⟨.hbm, 1031, rfl⟩
abbrev main_v646 : Ref sig .tc := ⟨.hbm, 1032, rfl⟩
abbrev main_v647 : Ref sig .tc := ⟨.hbm, 1033, rfl⟩
abbrev main_v648 : Ref sig .tc := ⟨.hbm, 1034, rfl⟩
abbrev main_v649 : Ref sig .tc := ⟨.hbm, 1035, rfl⟩
abbrev main_c_231 : Ref sig .tc := ⟨.hbm, 1036, rfl⟩
abbrev main_c_232 : Ref sig .tc := ⟨.hbm, 1037, rfl⟩
abbrev main_call29_v0 : Ref sig .tc := ⟨.hbm, 1038, rfl⟩
abbrev main_call29_v1 : Ref sig .tc := ⟨.hbm, 1039, rfl⟩
abbrev main_call29_v2 : Ref sig .tc := ⟨.hbm, 1040, rfl⟩
abbrev main_call29_v3 : Ref sig .tc := ⟨.hbm, 1041, rfl⟩
abbrev main_call29_v4 : Ref sig .tc := ⟨.hbm, 1042, rfl⟩
abbrev main_v650 : Ref sig .tc := ⟨.hbm, 1043, rfl⟩
abbrev main_c_233 : Ref sig .tc := ⟨.hbm, 1044, rfl⟩
abbrev main_v651 : Ref sig .tc := ⟨.hbm, 1045, rfl⟩
abbrev main_v652 : Ref sig .tc := ⟨.hbm, 1046, rfl⟩
abbrev main_c_234 : Ref sig .tc := ⟨.hbm, 1047, rfl⟩
abbrev main_v653 : Ref sig .tc := ⟨.hbm, 1048, rfl⟩
abbrev main_v654 : Ref sig .tc := ⟨.hbm, 1049, rfl⟩
abbrev main_v655 : Ref sig .tc := ⟨.hbm, 1050, rfl⟩
abbrev main_v656 : Ref sig .tc := ⟨.hbm, 1051, rfl⟩
abbrev main_v657 : Ref sig .tc := ⟨.hbm, 1052, rfl⟩
abbrev main_v658 : Ref sig .tc := ⟨.hbm, 1053, rfl⟩
abbrev main_v659 : Ref sig .tc := ⟨.hbm, 1054, rfl⟩
abbrev main_v660 : Ref sig .tc := ⟨.hbm, 1055, rfl⟩
abbrev main_v661 : Ref sig .tc := ⟨.hbm, 1056, rfl⟩
abbrev main_v662 : Ref sig .tc := ⟨.hbm, 1057, rfl⟩
abbrev main_v663 : Ref sig .tc := ⟨.hbm, 1058, rfl⟩
abbrev main_v664 : Ref sig .tc := ⟨.hbm, 1059, rfl⟩
abbrev main_v665 : Ref sig .tc := ⟨.hbm, 1060, rfl⟩
abbrev main_v666 : Ref sig .tc := ⟨.hbm, 1061, rfl⟩
abbrev main_v667 : Ref sig .tc := ⟨.hbm, 1062, rfl⟩
abbrev main_v668 : Ref sig .tc := ⟨.hbm, 1063, rfl⟩
abbrev main_v669 : Ref sig .tc := ⟨.hbm, 1064, rfl⟩
abbrev main_v670 : Ref sig .tc := ⟨.hbm, 1065, rfl⟩
abbrev main_v671 : Ref sig .tc := ⟨.hbm, 1066, rfl⟩
abbrev main_v672 : Ref sig .tc := ⟨.hbm, 1067, rfl⟩
abbrev main_v673 : Ref sig .tc := ⟨.hbm, 1068, rfl⟩
abbrev main_v674 : Ref sig .tc := ⟨.hbm, 1069, rfl⟩
abbrev main_v675 : Ref sig .tc := ⟨.hbm, 1070, rfl⟩
abbrev main_v676 : Ref sig .tc := ⟨.hbm, 1071, rfl⟩
abbrev main_v677 : Ref sig .tc := ⟨.hbm, 1072, rfl⟩
abbrev main_v678 : Ref sig .tc := ⟨.hbm, 1073, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x27 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x27 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x27 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32768x27 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1x2097152x3_S1x2097152x1_0_0_0 : S1x2097152x3.Slices ![0, 0, 0] S1x2097152x1
  shapeCasts_S1x2097152x1_S1x2097152 : S1x2097152x1.ShapeCasts S1x2097152
  slices_S1x2097152x3_S1x2097152x1_0_0_1 : S1x2097152x3.Slices ![0, 0, 1] S1x2097152x1
  slices_S1x2097152x3_S1x2097152x1_0_0_2 : S1x2097152x3.Slices ![0, 0, 2] S1x2097152x1
  bcast_S_S1x2097152 : S_.BroadcastsInDim S1x2097152 (![] : Fin 0 → Fin S1x2097152.rank)
  bcast_S1x2097152_S1x2097152x1_0_1 : S1x2097152.BroadcastsInDim S1x2097152x1 (![0, 1] : Fin 2 → Fin S1x2097152x1.rank)
  concatenates_S1x2097152x1_S1x2097152x1_S1x2097152x2_d2 : Shape.Concatenates [S1x2097152x1, S1x2097152x1] S1x2097152x2 2
  bcast_S1x2097152_S1x1x2097152_0_2 : S1x2097152.BroadcastsInDim S1x1x2097152 (![0, 2] : Fin 2 → Fin S1x1x2097152.rank)
  bcast_S1x1x2097152_S1x16x2097152_0_1_2 : S1x1x2097152.BroadcastsInDim S1x16x2097152 (![0, 1, 2] : Fin 3 → Fin S1x16x2097152.rank)
  shapeCasts_S1x16x2097152_S16x2097152 : S1x16x2097152.ShapeCasts S16x2097152
  bitsLt_bf16_f32 : FTy.bits .bf16 < FTy.bits .f32
  shapeCasts_S1x48x27_S48x27 : S1x48x27.ShapeCasts S48x27
  slices_S48x27_S16x27_0_0 : S48x27.Slices ![0, 0] S16x27
  slices_S48x27_S16x27_16_0 : S48x27.Slices ![16, 0] S16x27
  slices_S48x27_S16x27_32_0 : S48x27.Slices ![32, 0] S16x27
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  inb_S16x27_S16x27_0_0 : ∀ a, (![0, 0] : Fin 2 → Nat) a + S16x27.size a ≤ S16x27.size a
  h_S16x27 : 0 < S16x27.numel
  shapeCasts_S16x27_S16x27 : S16x27.ShapeCasts S16x27
  inb_S32768x27_S32768x27_0_0 : ∀ a, (![0, 0] : Fin 2 → Nat) a + S32768x27.size a ≤ S32768x27.size a
  h_S32768x27 : 0 < S32768x27.numel
  shapeCasts_S2097152x27_S1x2097152x27 : S2097152x27.ShapeCasts S1x2097152x27
  gather_S1x16x320x320_S1x2097152x2_S1x16x2097152_1_23_0_0_23_2_11611_wf : GatherDims.WF S1x16x320x320 S1x2097152x2 S1x16x2097152 [1] [2, 3] [0] [2, 3] [0] 2 ![1, 16, 1, 1]
  gather_S1x16x320_S1x2097152x1_S1x16x2097152_1_2_0_0_2_2_1161_wf : GatherDims.WF S1x16x320 S1x2097152x1 S1x16x2097152 [1] [2] [0] [2] [0] 2 ![1, 16, 1]
  dot_S16x32768_S16x27_S32768x27_0_0_1_1_n_n_wf : DotDims.WF S16x32768 S16x27 S32768x27 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32768.size a ≤ S16x2097152.size a
  hwx0_0 : ∀ i : grid0.Coords, EltTy.bits .bf16 = 32 ∨ (Rect.block (s := S16x2097152) S16x32768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32768.size a ≤ S16x2097152.size a
  hwx0_1 : ∀ i : grid0.Coords, EltTy.bits .bf16 = 32 ∨ (Rect.block (s := S16x2097152) S16x32768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32768.size a ≤ S16x2097152.size a
  hwx0_2 : ∀ i : grid0.Coords, EltTy.bits .bf16 = 32 ∨ (Rect.block (s := S16x2097152) S16x32768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x27.size a ≤ S16x27.size a
  hwx0_3 : ∀ i : grid0.Coords, EltTy.bits .bf16 = 32 ∨ (Rect.block (s := S16x27) S16x27.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x27.size a ≤ S16x27.size a
  hwx0_4 : ∀ i : grid0.Coords, EltTy.bits .bf16 = 32 ∨ (Rect.block (s := S16x27) S16x27.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x27.size a ≤ S16x27.size a
  hwx0_5 : ∀ i : grid0.Coords, EltTy.bits .bf16 = 32 ∨ (Rect.block (s := S16x27) S16x27.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32768x27.size a ≤ S2097152x27.size a
  hwx0_6 : ∀ i : grid0.Coords, EltTy.bits .f32 = 32 ∨ (Rect.block (s := S2097152x27) S32768x27.size (cc0_transform_6 i) (hinb0_6 i)).WholeWords (EltTy.packing .f32)

variable [Facts₀]

def gather_S1x16x320x320_S1x2097152x2_S1x16x2097152_1_23_0_0_23_2_11611 : GatherDims S1x16x320x320 S1x2097152x2 S1x16x2097152 where
  offsetDims := [1]
  collapsedSliceDims := [2, 3]
  operandBatchingDims := [0]
  startIndicesBatchingDims := [0]
  startIndexMap := [2, 3]
  indexVectorDim := 2
  sliceSizes := ![1, 16, 1, 1]
  wf := gather_S1x16x320x320_S1x2097152x2_S1x16x2097152_1_23_0_0_23_2_11611_wf
def gather_S1x16x320_S1x2097152x1_S1x16x2097152_1_2_0_0_2_2_1161 : GatherDims S1x16x320 S1x2097152x1 S1x16x2097152 where
  offsetDims := [1]
  collapsedSliceDims := [2]
  operandBatchingDims := [0]
  startIndicesBatchingDims := [0]
  startIndexMap := [2]
  indexVectorDim := 2
  sliceSizes := ![1, 16, 1]
  wf := gather_S1x16x320_S1x2097152x1_S1x16x2097152_1_2_0_0_2_2_1161_wf
def dot_S16x32768_S16x27_S32768x27_0_0_1_1_n_n : DotDims S16x32768 S16x27 S32768x27 where
  lhsContracting := [0]
  rhsContracting := [0]
  lhsNonContracting := [1]
  rhsNonContracting := [1]
  lhsBatch := []
  rhsBatch := []
  wf := dot_S16x32768_S16x27_S32768x27_0_0_1_1_n_n_wf

abbrev win0_0 : Pipeline.Window sig grid0 :=
  Pipeline.Window.ofSpec (Memref.whole main_v665) S16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v668) S16x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v671) S16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v674) S16x27.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v675) S16x27.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v676) S16x27.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v677) S32768x27.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x2097152x3 : Shape := ⟨3, ![1, 2097152, 3]⟩
abbrev S1x16x320x320 : Shape := ⟨4, ![1, 16, 320, 320]⟩
abbrev S1x16x320 : Shape := ⟨3, ![1, 16, 320]⟩
abbrev S1x48x27 : Shape := ⟨3, ![1, 48, 27]⟩
abbrev S1x2097152x1 : Shape := ⟨3, ![1, 2097152, 1]⟩
abbrev S1x2097152 : Shape := ⟨2, ![1, 2097152]⟩
abbrev S_ : Shape := ⟨0, ![]⟩
abbrev S1x2097152x2 : Shape := ⟨3, ![1, 2097152, 2]⟩
abbrev S1x16x2097152 : Shape := ⟨3, ![1, 16, 2097152]⟩
abbrev S1x1x2097152 : Shape := ⟨3, ![1, 1, 2097152]⟩
abbrev S1x2097152x16 : Shape := ⟨3, ![1, 2097152, 16]⟩
abbrev S1x2097152x48 : Shape := ⟨3, ![1, 2097152, 48]⟩
abbrev S1x2097152x27 : Shape := ⟨3, ![1, 2097152, 27]⟩

abbrev nBuf : Space → Nat
  | .hbm => 1069
  | .vmem => 0
  | .smem => 0
  | _ => 0

abbrev hbmTy0_0 (i : Nat) : BufTy := match i % 128 with
  | 0 => ⟨S1x2097152x3, .f32⟩
  | 1 => ⟨S1x16x320x320, .f32⟩
  | 2 => ⟨S1x16x320x320, .f32⟩
  | 3 => ⟨S1x16x320x320, .f32⟩
  | 4 => ⟨S1x16x320, .f32⟩
  | 5 => ⟨S1x16x320, .f32⟩
  | 6 => ⟨S1x16x320, .f32⟩
  | 7 => ⟨S1x48x27, .f32⟩
  | 8 => ⟨S1x2097152x1, .f32⟩
  | 9 => ⟨S1x2097152, .f32⟩
  | 10 => ⟨S1x2097152x1, .f32⟩
  | 11 => ⟨S1x2097152, .f32⟩
  | 12 => ⟨S1x2097152x1, .f32⟩
  | 13 => ⟨S1x2097152, .f32⟩
  | 14 => ⟨S_, .f32⟩
  | 15 => ⟨S1x2097152, .f32⟩
  | 16 => ⟨S1x2097152, .f32⟩
  | 17 => ⟨S_, .f32⟩
  | 18 => ⟨S1x2097152, .f32⟩
  | 19 => ⟨S1x2097152, .f32⟩
  | 20 => ⟨S_, .f32⟩
  | 21 => ⟨S1x2097152, .f32⟩
  | 22 => ⟨S1x2097152, .f32⟩
  | 23 => ⟨S_, .f32⟩
  | 24 => ⟨S1x2097152, .f32⟩
  | 25 => ⟨S1x2097152, .f32⟩
  | 26 => ⟨S_, .f32⟩
  | 27 => ⟨S1x2097152, .f32⟩
  | 28 => ⟨S1x2097152, .f32⟩
  | 29 => ⟨S_, .f32⟩
  | 30 => ⟨S1x2097152, .f32⟩
  | 31 => ⟨S1x2097152, .f32⟩
  | 32 => ⟨S1x2097152, .f32⟩
  | 33 => ⟨S1x2097152, .f32⟩
  | 34 => ⟨S1x2097152, .f32⟩
  | 35 => ⟨S1x2097152, .f32⟩
  | 36 => ⟨S1x2097152, .i32⟩
  | 37 => ⟨S1x2097152, .i32⟩
  | 38 => ⟨S_, .f32⟩
  | 39 => ⟨S1x2097152, .f32⟩
  | 40 => ⟨S1x2097152, .f32⟩
  | 41 => ⟨S_, .f32⟩
  | 42 => ⟨S1x2097152, .f32⟩
  | 43 => ⟨S1x2097152, .f32⟩
  | 44 => ⟨S1x2097152, .f32⟩
  | 45 => ⟨S_, .i32⟩
  | 46 => ⟨S1x2097152, .i32⟩
  | 47 => ⟨S1x2097152, .i1⟩
  | 48 => ⟨S_, .i32⟩
  | 49 => ⟨S1x2097152, .i32⟩
  | 50 => ⟨S1x2097152, .i1⟩
  | 51 => ⟨S1x2097152, .i1⟩
  | 52 => ⟨S_, .i32⟩
  | 53 => ⟨S1x2097152, .i32⟩
  | 54 => ⟨S1x2097152, .i1⟩
  | 55 => ⟨S1x2097152, .i1⟩
  | 56 => ⟨S_, .i32⟩
  | 57 => ⟨S1x2097152, .i32⟩
  | 58 => ⟨S1x2097152, .i1⟩
  | 59 => ⟨S1x2097152, .i1⟩
  | 60 => ⟨S1x2097152, .f32⟩
  | 61 => ⟨S_, .i32⟩
  | 62 => ⟨S_, .i32⟩
  | 63 => ⟨S_, .i32⟩
  | 64 => ⟨S1x2097152, .i32⟩
  | 65 => ⟨S1x2097152, .i32⟩
  | 66 => ⟨S_, .i32⟩
  | 67 => ⟨S1x2097152, .i32⟩
  | 68 => ⟨S1x2097152, .i32⟩
  | 69 => ⟨S_, .i32⟩
  | 70 => ⟨S_, .i32⟩
  | 71 => ⟨S_, .i32⟩
  | 72 => ⟨S1x2097152, .i32⟩
  | 73 => ⟨S1x2097152, .i32⟩
  | 74 => ⟨S_, .i32⟩
  | 75 => ⟨S1x2097152, .i32⟩
  | 76 => ⟨S1x2097152, .i32⟩
  | 77 => ⟨S_, .i32⟩
  | 78 => ⟨S1x2097152, .i32⟩
  | 79 => ⟨S1x2097152, .i1⟩
  | 80 => ⟨S_, .i32⟩
  | 81 => ⟨S1x2097152, .i32⟩
  | 82 => ⟨S1x2097152, .i32⟩
  | 83 => ⟨S1x2097152, .i32⟩
  | 84 => ⟨S_, .i32⟩
  | 85 => ⟨S1x2097152, .i32⟩
  | 86 => ⟨S1x2097152, .i1⟩
  | 87 => ⟨S_, .i32⟩
  | 88 => ⟨S1x2097152, .i32⟩
  | 89 => ⟨S1x2097152, .i32⟩
  | 90 => ⟨S1x2097152, .i32⟩
  | 91 => ⟨S1x2097152x1, .i32⟩
  | 92 => ⟨S1x2097152x1, .i32⟩
  | 93 => ⟨S1x2097152x2, .i32⟩
  | 94 => ⟨S1x16x2097152, .f32⟩
  | 95 => ⟨S1x2097152, .f32⟩
  | 96 => ⟨S1x1x2097152, .f32⟩
  | 97 => ⟨S1x16x2097152, .f32⟩
  | 98 => ⟨S1x16x2097152, .f32⟩
  | 99 => ⟨S_, .i32⟩
  | 100 => ⟨S1x2097152, .i32⟩
  | 101 => ⟨S1x2097152, .i32⟩
  | 102 => ⟨S_, .f32⟩
  | 103 => ⟨S1x2097152, .f32⟩
  | 104 => ⟨S1x2097152, .f32⟩
  | 105 => ⟨S1x2097152, .f32⟩
  | 106 => ⟨S_, .i32⟩
  | 107 => ⟨S1x2097152, .i32⟩
  | 108 => ⟨S1x2097152, .i1⟩
  | 109 => ⟨S_, .i32⟩
  | 110 => ⟨S1x2097152, .i32⟩
  | 111 => ⟨S1x2097152, .i1⟩
  | 112 => ⟨S1x2097152, .i1⟩
  | 113 => ⟨S_, .i32⟩
  | 114 => ⟨S1x2097152, .i32⟩
  | 115 => ⟨S1x2097152, .i1⟩
  | 116 => ⟨S1x2097152, .i1⟩
  | 117 => ⟨S_, .i32⟩
  | 118 => ⟨S1x2097152, .i32⟩
  | 119 => ⟨S1x2097152, .i1⟩
  | 120 => ⟨S1x2097152, .i1⟩
  | 121 => ⟨S1x2097152, .f32⟩
  | 122 => ⟨S_, .i32⟩
  | 123 => ⟨S_, .i32⟩
  | 124 => ⟨S_, .i32⟩
  | 125 => ⟨S1x2097152, .i32⟩
  | 126 => ⟨S1x2097152, .i32⟩
  | 127 => ⟨S_, .i32⟩
  | _ => ⟨S1x2097152x3, .f32⟩

abbrev hbmTy0_1 (i : Nat) : BufTy := match i % 128 with
  | 0 => ⟨S1x2097152, .i32⟩
  | 1 => ⟨S1x2097152, .i32⟩
  | 2 => ⟨S_, .i32⟩
  | 3 => ⟨S_, .i32⟩
  | 4 => ⟨S_, .i32⟩
  | 5 => ⟨S1x2097152, .i32⟩
  | 6 => ⟨S1x2097152, .i32⟩
  | 7 => ⟨S_, .i32⟩
  | 8 => ⟨S1x2097152, .i32⟩
  | 9 => ⟨S1x2097152, .i32⟩
  | 10 => ⟨S_, .i32⟩
  | 11 => ⟨S1x2097152, .i32⟩
  | 12 => ⟨S1x2097152, .i1⟩
  | 13 => ⟨S_, .i32⟩
  | 14 => ⟨S1x2097152, .i32⟩
  | 15 => ⟨S1x2097152, .i32⟩
  | 16 => ⟨S1x2097152, .i32⟩
  | 17 => ⟨S_, .i32⟩
  | 18 => ⟨S1x2097152, .i32⟩
  | 19 => ⟨S1x2097152, .i1⟩
  | 20 => ⟨S_, .i32⟩
  | 21 => ⟨S1x2097152, .i32⟩
  | 22 => ⟨S1x2097152, .i32⟩
  | 23 => ⟨S1x2097152, .i32⟩
  | 24 => ⟨S1x2097152x1, .i32⟩
  | 25 => ⟨S1x2097152x1, .i32⟩
  | 26 => ⟨S1x2097152x2, .i32⟩
  | 27 => ⟨S1x16x2097152, .f32⟩
  | 28 => ⟨S1x2097152, .f32⟩
  | 29 => ⟨S1x1x2097152, .f32⟩
  | 30 => ⟨S1x16x2097152, .f32⟩
  | 31 => ⟨S1x16x2097152, .f32⟩
  | 32 => ⟨S1x16x2097152, .f32⟩
  | 33 => ⟨S_, .i32⟩
  | 34 => ⟨S1x2097152, .i32⟩
  | 35 => ⟨S1x2097152, .i32⟩
  | 36 => ⟨S_, .f32⟩
  | 37 => ⟨S1x2097152, .f32⟩
  | 38 => ⟨S1x2097152, .f32⟩
  | 39 => ⟨S1x2097152, .f32⟩
  | 40 => ⟨S_, .i32⟩
  | 41 => ⟨S1x2097152, .i32⟩
  | 42 => ⟨S1x2097152, .i1⟩
  | 43 => ⟨S_, .i32⟩
  | 44 => ⟨S1x2097152, .i32⟩
  | 45 => ⟨S1x2097152, .i1⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S_, .i32⟩
  | 52 => ⟨S1x2097152, .i32⟩
  | 53 => ⟨S1x2097152, .i1⟩
  | 54 => ⟨S1x2097152, .i1⟩
  | 55 => ⟨S1x2097152, .f32⟩
  | 56 => ⟨S_, .i32⟩
  | 57 => ⟨S_, .i32⟩
  | 58 => ⟨S_, .i32⟩
  | 59 => ⟨S1x2097152, .i32⟩
  | 60 => ⟨S1x2097152, .i32⟩
  | 61 => ⟨S_, .i32⟩
  | 62 => ⟨S1x2097152, .i32⟩
  | 63 => ⟨S1x2097152, .i32⟩
  | 64 => ⟨S_, .i32⟩
  | 65 => ⟨S_, .i32⟩
  | 66 => ⟨S_, .i32⟩
  | 67 => ⟨S1x2097152, .i32⟩
  | 68 => ⟨S1x2097152, .i32⟩
  | 69 => ⟨S_, .i32⟩
  | 70 => ⟨S1x2097152, .i32⟩
  | 71 => ⟨S1x2097152, .i32⟩
  | 72 => ⟨S_, .i32⟩
  | 73 => ⟨S1x2097152, .i32⟩
  | 74 => ⟨S1x2097152, .i1⟩
  | 75 => ⟨S_, .i32⟩
  | 76 => ⟨S1x2097152, .i32⟩
  | 77 => ⟨S1x2097152, .i32⟩
  | 78 => ⟨S1x2097152, .i32⟩
  | 79 => ⟨S_, .i32⟩
  | 80 => ⟨S1x2097152, .i32⟩
  | 81 => ⟨S1x2097152, .i1⟩
  | 82 => ⟨S_, .i32⟩
  | 83 => ⟨S1x2097152, .i32⟩
  | 84 => ⟨S1x2097152, .i32⟩
  | 85 => ⟨S1x2097152, .i32⟩
  | 86 => ⟨S1x2097152x1, .i32⟩
  | 87 => ⟨S1x2097152x1, .i32⟩
  | 88 => ⟨S1x2097152x2, .i32⟩
  | 89 => ⟨S1x16x2097152, .f32⟩
  | 90 => ⟨S1x2097152, .f32⟩
  | 91 => ⟨S1x1x2097152, .f32⟩
  | 92 => ⟨S1x16x2097152, .f32⟩
  | 93 => ⟨S1x16x2097152, .f32⟩
  | 94 => ⟨S1x16x2097152, .f32⟩
  | 95 => ⟨S_, .i32⟩
  | 96 => ⟨S1x2097152, .i32⟩
  | 97 => ⟨S1x2097152, .i32⟩
  | 98 => ⟨S_, .i32⟩
  | 99 => ⟨S1x2097152, .i32⟩
  | 100 => ⟨S1x2097152, .i32⟩
  | 101 => ⟨S1x2097152, .f32⟩
  | 102 => ⟨S_, .i32⟩
  | 103 => ⟨S1x2097152, .i32⟩
  | 104 => ⟨S1x2097152, .i1⟩
  | 105 => ⟨S_, .i32⟩
  | 106 => ⟨S1x2097152, .i32⟩
  | 107 => ⟨S1x2097152, .i1⟩
  | 108 => ⟨S1x2097152, .i1⟩
  | 109 => ⟨S_, .i32⟩
  | 110 => ⟨S1x2097152, .i32⟩
  | 111 => ⟨S1x2097152, .i1⟩
  | 112 => ⟨S1x2097152, .i1⟩
  | 113 => ⟨S_, .i32⟩
  | 114 => ⟨S1x2097152, .i32⟩
  | 115 => ⟨S1x2097152, .i1⟩
  | 116 => ⟨S1x2097152, .i1⟩
  | 117 => ⟨S1x2097152, .f32⟩
  | 118 => ⟨S_, .i32⟩
  | 119 => ⟨S_, .i32⟩
  | 120 => ⟨S_, .i32⟩
  | 121 => ⟨S1x2097152, .i32⟩
  | 122 => ⟨S1x2097152, .i32⟩
  | 123 => ⟨S_, .i32⟩
  | 124 => ⟨S1x2097152, .i32⟩
  | 125 => ⟨S1x2097152, .i32⟩
  | 126 => ⟨S_, .i32⟩
  | 127 => ⟨S_, .i32⟩
  | _ => ⟨S1x2097152x3, .f32⟩

abbrev hbmTy0_2 (i : Nat) : BufTy := match i % 128 with
  | 0 => ⟨S_, .i32⟩
  | 1 => ⟨S1x2097152, .i32⟩
  | 2 => ⟨S1x2097152, .i32⟩
  | 3 => ⟨S_, .i32⟩
  | 4 => ⟨S1x2097152, .i32⟩
  | 5 => ⟨S1x2097152, .i32⟩
  | 6 => ⟨S_, .i32⟩
  | 7 => ⟨S1x2097152, .i32⟩
  | 8 => ⟨S1x2097152, .i1⟩
  | 9 => ⟨S_, .i32⟩
  | 10 => ⟨S1x2097152, .i32⟩
  | 11 => ⟨S1x2097152, .i32⟩
  | 12 => ⟨S1x2097152, .i32⟩
  | 13 => ⟨S_, .i32⟩
  | 14 => ⟨S1x2097152, .i32⟩
  | 15 => ⟨S1x2097152, .i1⟩
  | 16 => ⟨S_, .i32⟩
  | 17 => ⟨S1x2097152, .i32⟩
  | 18 => ⟨S1x2097152, .i32⟩
  | 19 => ⟨S1x2097152, .i32⟩
  | 20 => ⟨S1x2097152x1, .i32⟩
  | 21 => ⟨S1x2097152x1, .i32⟩
  | 22 => ⟨S1x2097152x2, .i32⟩
  | 23 => ⟨S1x16x2097152, .f32⟩
  | 24 => ⟨S1x2097152, .f32⟩
  | 25 => ⟨S1x1x2097152, .f32⟩
  | 26 => ⟨S1x16x2097152, .f32⟩
  | 27 => ⟨S1x16x2097152, .f32⟩
  | 28 => ⟨S1x16x2097152, .f32⟩
  | 29 => ⟨S1x2097152x16, .f32⟩
  | 30 => ⟨S_, .f32⟩
  | 31 => ⟨S1x2097152, .f32⟩
  | 32 => ⟨S1x2097152, .f32⟩
  | 33 => ⟨S_, .f32⟩
  | 34 => ⟨S1x2097152, .f32⟩
  | 35 => ⟨S1x2097152, .f32⟩
  | 36 => ⟨S_, .f32⟩
  | 37 => ⟨S1x2097152, .f32⟩
  | 38 => ⟨S1x2097152, .f32⟩
  | 39 => ⟨S1x2097152, .f32⟩
  | 40 => ⟨S1x2097152, .f32⟩
  | 41 => ⟨S1x2097152, .i32⟩
  | 42 => ⟨S_, .f32⟩
  | 43 => ⟨S1x2097152, .f32⟩
  | 44 => ⟨S1x2097152, .f32⟩
  | 45 => ⟨S_, .i32⟩
  | 46 => ⟨S1x2097152, .i32⟩
  | 47 => ⟨S1x2097152, .i1⟩
  | 48 => ⟨S_, .i32⟩
  | 49 => ⟨S1x2097152, .i32⟩
  | 50 => ⟨S1x2097152, .i1⟩
  | 51 => ⟨S1x2097152, .i1⟩
  | 52 => ⟨S1x2097152, .f32⟩
  | 53 => ⟨S_, .i32⟩
  | 54 => ⟨S_, .i32⟩
  | 55 => ⟨S_, .i32⟩
  | 56 => ⟨S1x2097152, .i32⟩
  | 57 => ⟨S1x2097152, .i32⟩
  | 58 => ⟨S_, .i32⟩
  | 59 => ⟨S1x2097152, .i32⟩
  | 60 => ⟨S1x2097152, .i32⟩
  | 61 => ⟨S_, .i32⟩
  | 62 => ⟨S1x2097152, .i32⟩
  | 63 => ⟨S1x2097152, .i1⟩
  | 64 => ⟨S_, .i32⟩
  | 65 => ⟨S1x2097152, .i32⟩
  | 66 => ⟨S1x2097152, .i32⟩
  | 67 => ⟨S1x2097152, .i32⟩
  | 68 => ⟨S1x2097152x1, .i32⟩
  | 69 => ⟨S1x16x2097152, .f32⟩
  | 70 => ⟨S1x2097152, .f32⟩
  | 71 => ⟨S1x1x2097152, .f32⟩
  | 72 => ⟨S1x16x2097152, .f32⟩
  | 73 => ⟨S1x16x2097152, .f32⟩
  | 74 => ⟨S_, .i32⟩
  | 75 => ⟨S1x2097152, .i32⟩
  | 76 => ⟨S1x2097152, .i32⟩
  | 77 => ⟨S_, .i32⟩
  | 78 => ⟨S1x2097152, .i32⟩
  | 79 => ⟨S1x2097152, .i1⟩
  | 80 => ⟨S_, .i32⟩
  | 81 => ⟨S1x2097152, .i32⟩
  | 82 => ⟨S1x2097152, .i1⟩
  | 83 => ⟨S1x2097152, .i1⟩
  | 84 => ⟨S1x2097152, .f32⟩
  | 85 => ⟨S_, .i32⟩
  | 86 => ⟨S_, .i32⟩
  | 87 => ⟨S_, .i32⟩
  | 88 => ⟨S1x2097152, .i32⟩
  | 89 => ⟨S1x2097152, .i32⟩
  | 90 => ⟨S_, .i32⟩
  | 91 => ⟨S1x2097152, .i32⟩
  | 92 => ⟨S1x2097152, .i32⟩
  | 93 => ⟨S_, .i32⟩
  | 94 => ⟨S1x2097152, .i32⟩
  | 95 => ⟨S1x2097152, .i1⟩
  | 96 => ⟨S_, .i32⟩
  | 97 => ⟨S1x2097152, .i32⟩
  | 98 => ⟨S1x2097152, .i32⟩
  | 99 => ⟨S1x2097152, .i32⟩
  | 100 => ⟨S1x2097152x1, .i32⟩
  | 101 => ⟨S1x16x2097152, .f32⟩
  | 102 => ⟨S1x2097152, .f32⟩
  | 103 => ⟨S1x1x2097152, .f32⟩
  | 104 => ⟨S1x16x2097152, .f32⟩
  | 105 => ⟨S1x16x2097152, .f32⟩
  | 106 => ⟨S1x16x2097152, .f32⟩
  | 107 => ⟨S1x2097152x16, .f32⟩
  | 108 => ⟨S1x2097152x16, .f32⟩
  | 109 => ⟨S_, .f32⟩
  | 110 => ⟨S1x2097152, .f32⟩
  | 111 => ⟨S1x2097152, .f32⟩
  | 112 => ⟨S_, .f32⟩
  | 113 => ⟨S1x2097152, .f32⟩
  | 114 => ⟨S1x2097152, .f32⟩
  | 115 => ⟨S_, .f32⟩
  | 116 => ⟨S1x2097152, .f32⟩
  | 117 => ⟨S1x2097152, .f32⟩
  | 118 => ⟨S_, .f32⟩
  | 119 => ⟨S1x2097152, .f32⟩
  | 120 => ⟨S1x2097152, .f32⟩
  | 121 => ⟨S_, .f32⟩
  | 122 => ⟨S1x2097152, .f32⟩
  | 123 => ⟨S1x2097152, .f32⟩
  | 124 => ⟨S_, .f32⟩
  | 125 => ⟨S1x2097152, .f32⟩
  | 126 => ⟨S1x2097152, .f32⟩
  | 127 => ⟨S1x2097152, .f32⟩
  | _ => ⟨S1x2097152x3, .f32⟩

abbrev hbmTy0_3 (i : Nat) : BufTy := match i % 128 with
  | 0 => ⟨S1x2097152, .f32⟩
  | 1 => ⟨S1x2097152, .f32⟩
  | 2 => ⟨S1x2097152, .f32⟩
  | 3 => ⟨S1x2097152, .i32⟩
  | 4 => ⟨S1x2097152, .i32⟩
  | 5 => ⟨S_, .f32⟩
  | 6 => ⟨S1x2097152, .f32⟩
  | 7 => ⟨S1x2097152, .f32⟩
  | 8 => ⟨S_, .f32⟩
  | 9 => ⟨S1x2097152, .f32⟩
  | 10 => ⟨S1x2097152, .f32⟩
  | 11 => ⟨S1x2097152, .f32⟩
  | 12 => ⟨S_, .i32⟩
  | 13 => ⟨S1x2097152, .i32⟩
  | 14 => ⟨S1x2097152, .i1⟩
  | 15 => ⟨S_, .i32⟩
  | 16 => ⟨S1x2097152, .i32⟩
  | 17 => ⟨S1x2097152, .i1⟩
  | 18 => ⟨S1x2097152, .i1⟩
  | 19 => ⟨S_, .i32⟩
  | 20 => ⟨S1x2097152, .i32⟩
  | 21 => ⟨S1x2097152, .i1⟩
  | 22 => ⟨S1x2097152, .i1⟩
  | 23 => ⟨S_, .i32⟩
  | 24 => ⟨S1x2097152, .i32⟩
  | 25 => ⟨S1x2097152, .i1⟩
  | 26 => ⟨S1x2097152, .i1⟩
  | 27 => ⟨S1x2097152, .f32⟩
  | 28 => ⟨S_, .i32⟩
  | 29 => ⟨S_, .i32⟩
  | 30 => ⟨S_, .i32⟩
  | 31 => ⟨S1x2097152, .i32⟩
  | 32 => ⟨S1x2097152, .i32⟩
  | 33 => ⟨S_, .i32⟩
  | 34 => ⟨S1x2097152, .i32⟩
  | 35 => ⟨S1x2097152, .i32⟩
  | 36 => ⟨S_, .i32⟩
  | 37 => ⟨S_, .i32⟩
  | 38 => ⟨S_, .i32⟩
  | 39 => ⟨S1x2097152, .i32⟩
  | 40 => ⟨S1x2097152, .i32⟩
  | 41 => ⟨S_, .i32⟩
  | 42 => ⟨S1x2097152, .i32⟩
  | 43 => ⟨S1x2097152, .i32⟩
  | 44 => ⟨S_, .i32⟩
  | 45 => ⟨S1x2097152, .i32⟩
  | 46 => ⟨S1x2097152, .i1⟩
  | 47 => ⟨S_, .i32⟩
  | 48 => ⟨S1x2097152, .i32⟩
  | 49 => ⟨S1x2097152, .i32⟩
  | 50 => ⟨S1x2097152, .i32⟩
  | 51 => ⟨S_, .i32⟩
  | 52 => ⟨S1x2097152, .i32⟩
  | 53 => ⟨S1x2097152, .i1⟩
  | 54 => ⟨S_, .i32⟩
  | 55 => ⟨S1x2097152, .i32⟩
  | 56 => ⟨S1x2097152, .i32⟩
  | 57 => ⟨S1x2097152, .i32⟩
  | 58 => ⟨S1x2097152x1, .i32⟩
  | 59 => ⟨S1x2097152x1, .i32⟩
  | 60 => ⟨S1x2097152x2, .i32⟩
  | 61 => ⟨S1x16x2097152, .f32⟩
  | 62 => ⟨S1x2097152, .f32⟩
  | 63 => ⟨S1x1x2097152, .f32⟩
  | 64 => ⟨S1x16x2097152, .f32⟩
  | 65 => ⟨S1x16x2097152, .f32⟩
  | 66 => ⟨S_, .i32⟩
  | 67 => ⟨S1x2097152, .i32⟩
  | 68 => ⟨S1x2097152, .i32⟩
  | 69 => ⟨S_, .f32⟩
  | 70 => ⟨S1x2097152, .f32⟩
  | 71 => ⟨S1x2097152, .f32⟩
  | 72 => ⟨S1x2097152, .f32⟩
  | 73 => ⟨S_, .i32⟩
  | 74 => ⟨S1x2097152, .i32⟩
  | 75 => ⟨S1x2097152, .i1⟩
  | 76 => ⟨S_, .i32⟩
  | 77 => ⟨S1x2097152, .i32⟩
  | 78 => ⟨S1x2097152, .i1⟩
  | 79 => ⟨S1x2097152, .i1⟩
  | 80 => ⟨S_, .i32⟩
  | 81 => ⟨S1x2097152, .i32⟩
  | 82 => ⟨S1x2097152, .i1⟩
  | 83 => ⟨S1x2097152, .i1⟩
  | 84 => ⟨S_, .i32⟩
  | 85 => ⟨S1x2097152, .i32⟩
  | 86 => ⟨S1x2097152, .i1⟩
  | 87 => ⟨S1x2097152, .i1⟩
  | 88 => ⟨S1x2097152, .f32⟩
  | 89 => ⟨S_, .i32⟩
  | 90 => ⟨S_, .i32⟩
  | 91 => ⟨S_, .i32⟩
  | 92 => ⟨S1x2097152, .i32⟩
  | 93 => ⟨S1x2097152, .i32⟩
  | 94 => ⟨S_, .i32⟩
  | 95 => ⟨S1x2097152, .i32⟩
  | 96 => ⟨S1x2097152, .i32⟩
  | 97 => ⟨S_, .i32⟩
  | 98 => ⟨S_, .i32⟩
  | 99 => ⟨S_, .i32⟩
  | 100 => ⟨S1x2097152, .i32⟩
  | 101 => ⟨S1x2097152, .i32⟩
  | 102 => ⟨S_, .i32⟩
  | 103 => ⟨S1x2097152, .i32⟩
  | 104 => ⟨S1x2097152, .i32⟩
  | 105 => ⟨S_, .i32⟩
  | 106 => ⟨S1x2097152, .i32⟩
  | 107 => ⟨S1x2097152, .i1⟩
  | 108 => ⟨S_, .i32⟩
  | 109 => ⟨S1x2097152, .i32⟩
  | 110 => ⟨S1x2097152, .i32⟩
  | 111 => ⟨S1x2097152, .i32⟩
  | 112 => ⟨S_, .i32⟩
  | 113 => ⟨S1x2097152, .i32⟩
  | 114 => ⟨S1x2097152, .i1⟩
  | 115 => ⟨S_, .i32⟩
  | 116 => ⟨S1x2097152, .i32⟩
  | 117 => ⟨S1x2097152, .i32⟩
  | 118 => ⟨S1x2097152, .i32⟩
  | 119 => ⟨S1x2097152x1, .i32⟩
  | 120 => ⟨S1x2097152x1, .i32⟩
  | 121 => ⟨S1x2097152x2, .i32⟩
  | 122 => ⟨S1x16x2097152, .f32⟩
  | 123 => ⟨S1x2097152, .f32⟩
  | 124 => ⟨S1x1x2097152, .f32⟩
  | 125 => ⟨S1x16x2097152, .f32⟩
  | 126 => ⟨S1x16x2097152, .f32⟩
  | 127 => ⟨S1x16x2097152, .f32⟩
  | _ => ⟨S1x2097152x3, .f32⟩

abbrev hbmTy0_4 (i : Nat) : BufTy := match i % 128 with
  | 0 => ⟨S_, .i32⟩
  | 1 => ⟨S1x2097152, .i32⟩
  | 2 => ⟨S1x2097152, .i32⟩
  | 3 => ⟨S_, .f32⟩
  | 4 => ⟨S1x2097152, .f32⟩
  | 5 => ⟨S1x2097152, .f32⟩
  | 6 => ⟨S1x2097152, .f32⟩
  | 7 => ⟨S_, .i32⟩
  | 8 => ⟨S1x2097152, .i32⟩
  | 9 => ⟨S1x2097152, .i1⟩
  | 10 => ⟨S_, .i32⟩
  | 11 => ⟨S1x2097152, .i32⟩
  | 12 => ⟨S1x2097152, .i1⟩
  | 13 => ⟨S1x2097152, .i1⟩
  | 14 => ⟨S_, .i32⟩
  | 15 => ⟨S1x2097152, .i32⟩
  | 16 => ⟨S1x2097152, .i1⟩
  | 17 => ⟨S1x2097152, .i1⟩
  | 18 => ⟨S_, .i32⟩
  | 19 => ⟨S1x2097152, .i32⟩
  | 20 => ⟨S1x2097152, .i1⟩
  | 21 => ⟨S1x2097152, .i1⟩
  | 22 => ⟨S1x2097152, .f32⟩
  | 23 => ⟨S_, .i32⟩
  | 24 => ⟨S_, .i32⟩
  | 25 => ⟨S_, .i32⟩
  | 26 => ⟨S1x2097152, .i32⟩
  | 27 => ⟨S1x2097152, .i32⟩
  | 28 => ⟨S_, .i32⟩
  | 29 => ⟨S1x2097152, .i32⟩
  | 30 => ⟨S1x2097152, .i32⟩
  | 31 => ⟨S_, .i32⟩
  | 32 => ⟨S_, .i32⟩
  | 33 => ⟨S_, .i32⟩
  | 34 => ⟨S1x2097152, .i32⟩
  | 35 => ⟨S1x2097152, .i32⟩
  | 36 => ⟨S_, .i32⟩
  | 37 => ⟨S1x2097152, .i32⟩
  | 38 => ⟨S1x2097152, .i32⟩
  | 39 => ⟨S_, .i32⟩
  | 40 => ⟨S1x2097152, .i32⟩
  | 41 => ⟨S1x2097152, .i1⟩
  | 42 => ⟨S_, .i32⟩
  | 43 => ⟨S1x2097152, .i32⟩
  | 44 => ⟨S1x2097152, .i32⟩
  | 45 => ⟨S1x2097152, .i32⟩
  | 46 => ⟨S_, .i32⟩
  | 47 => ⟨S1x2097152, .i32⟩
  | 48 => ⟨S1x2097152, .i1⟩
  | 49 => ⟨S_, .i32⟩
  | 50 => ⟨S1x2097152, .i32⟩
  | 51 => ⟨S1x2097152, .i32⟩
  | 52 => ⟨S1x2097152, .i32⟩
  | 53 => ⟨S1x2097152x1, .i32⟩
  | 54 => ⟨S1x2097152x1, .i32⟩
  | 55 => ⟨S1x2097152x2, .i32⟩
  | 56 => ⟨S1x16x2097152, .f32⟩
  | 57 => ⟨S1x2097152, .f32⟩
  | 58 => ⟨S1x1x2097152, .f32⟩
  | 59 => ⟨S1x16x2097152, .f32⟩
  | 60 => ⟨S1x16x2097152, .f32⟩
  | 61 => ⟨S1x16x2097152, .f32⟩
  | 62 => ⟨S_, .i32⟩
  | 63 => ⟨S1x2097152, .i32⟩
  | 64 => ⟨S1x2097152, .i32⟩
  | 65 => ⟨S_, .i32⟩
  | 66 => ⟨S1x2097152, .i32⟩
  | 67 => ⟨S1x2097152, .i32⟩
  | 68 => ⟨S1x2097152, .f32⟩
  | 69 => ⟨S_, .i32⟩
  | 70 => ⟨S1x2097152, .i32⟩
  | 71 => ⟨S1x2097152, .i1⟩
  | 72 => ⟨S_, .i32⟩
  | 73 => ⟨S1x2097152, .i32⟩
  | 74 => ⟨S1x2097152, .i1⟩
  | 75 => ⟨S1x2097152, .i1⟩
  | 76 => ⟨S_, .i32⟩
  | 77 => ⟨S1x2097152, .i32⟩
  | 78 => ⟨S1x2097152, .i1⟩
  | 79 => ⟨S1x2097152, .i1⟩
  | 80 => ⟨S_, .i32⟩
  | 81 => ⟨S1x2097152, .i32⟩
  | 82 => ⟨S1x2097152, .i1⟩
  | 83 => ⟨S1x2097152, .i1⟩
  | 84 => ⟨S1x2097152, .f32⟩
  | 85 => ⟨S_, .i32⟩
  | 86 => ⟨S_, .i32⟩
  | 87 => ⟨S_, .i32⟩
  | 88 => ⟨S1x2097152, .i32⟩
  | 89 => ⟨S1x2097152, .i32⟩
  | 90 => ⟨S_, .i32⟩
  | 91 => ⟨S1x2097152, .i32⟩
  | 92 => ⟨S1x2097152, .i32⟩
  | 93 => ⟨S_, .i32⟩
  | 94 => ⟨S_, .i32⟩
  | 95 => ⟨S_, .i32⟩
  | 96 => ⟨S1x2097152, .i32⟩
  | 97 => ⟨S1x2097152, .i32⟩
  | 98 => ⟨S_, .i32⟩
  | 99 => ⟨S1x2097152, .i32⟩
  | 100 => ⟨S1x2097152, .i32⟩
  | 101 => ⟨S_, .i32⟩
  | 102 => ⟨S1x2097152, .i32⟩
  | 103 => ⟨S1x2097152, .i1⟩
  | 104 => ⟨S_, .i32⟩
  | 105 => ⟨S1x2097152, .i32⟩
  | 106 => ⟨S1x2097152, .i32⟩
  | 107 => ⟨S1x2097152, .i32⟩
  | 108 => ⟨S_, .i32⟩
  | 109 => ⟨S1x2097152, .i32⟩
  | 110 => ⟨S1x2097152, .i1⟩
  | 111 => ⟨S_, .i32⟩
  | 112 => ⟨S1x2097152, .i32⟩
  | 113 => ⟨S1x2097152, .i32⟩
  | 114 => ⟨S1x2097152, .i32⟩
  | 115 => ⟨S1x2097152x1, .i32⟩
  | 116 => ⟨S1x2097152x1, .i32⟩
  | 117 => ⟨S1x2097152x2, .i32⟩
  | 118 => ⟨S1x16x2097152, .f32⟩
  | 119 => ⟨S1x2097152, .f32⟩
  | 120 => ⟨S1x1x2097152, .f32⟩
  | 121 => ⟨S1x16x2097152, .f32⟩
  | 122 => ⟨S1x16x2097152, .f32⟩
  | 123 => ⟨S1x16x2097152, .f32⟩
  | 124 => ⟨S1x2097152x16, .f32⟩
  | 125 => ⟨S_, .f32⟩
  | 126 => ⟨S1x2097152, .f32⟩
  | 127 => ⟨S1x2097152, .f32⟩
  | _ => ⟨S1x2097152x3, .f32⟩

abbrev hbmTy0_5 (i : Nat) : BufTy := match i % 128 with
  | 0 => ⟨S_, .f32⟩
  | 1 => ⟨S1x2097152, .f32⟩
  | 2 => ⟨S1x2097152, .f32⟩
  | 3 => ⟨S_, .f32⟩
  | 4 => ⟨S1x2097152, .f32⟩
  | 5 => ⟨S1x2097152, .f32⟩
  | 6 => ⟨S1x2097152, .f32⟩
  | 7 => ⟨S1x2097152, .f32⟩
  | 8 => ⟨S1x2097152, .i32⟩
  | 9 => ⟨S_, .f32⟩
  | 10 => ⟨S1x2097152, .f32⟩
  | 11 => ⟨S1x2097152, .f32⟩
  | 12 => ⟨S_, .i32⟩
  | 13 => ⟨S1x2097152, .i32⟩
  | 14 => ⟨S1x2097152, .i1⟩
  | 15 => ⟨S_, .i32⟩
  | 16 => ⟨S1x2097152, .i32⟩
  | 17 => ⟨S1x2097152, .i1⟩
  | 18 => ⟨S1x2097152, .i1⟩
  | 19 => ⟨S1x2097152, .f32⟩
  | 20 => ⟨S_, .i32⟩
  | 21 => ⟨S_, .i32⟩
  | 22 => ⟨S_, .i32⟩
  | 23 => ⟨S1x2097152, .i32⟩
  | 24 => ⟨S1x2097152, .i32⟩
  | 25 => ⟨S_, .i32⟩
  | 26 => ⟨S1x2097152, .i32⟩
  | 27 => ⟨S1x2097152, .i32⟩
  | 28 => ⟨S_, .i32⟩
  | 29 => ⟨S1x2097152, .i32⟩
  | 30 => ⟨S1x2097152, .i1⟩
  | 31 => ⟨S_, .i32⟩
  | 32 => ⟨S1x2097152, .i32⟩
  | 33 => ⟨S1x2097152, .i32⟩
  | 34 => ⟨S1x2097152, .i32⟩
  | 35 => ⟨S1x2097152x1, .i32⟩
  | 36 => ⟨S1x16x2097152, .f32⟩
  | 37 => ⟨S1x2097152, .f32⟩
  | 38 => ⟨S1x1x2097152, .f32⟩
  | 39 => ⟨S1x16x2097152, .f32⟩
  | 40 => ⟨S1x16x2097152, .f32⟩
  | 41 => ⟨S_, .i32⟩
  | 42 => ⟨S1x2097152, .i32⟩
  | 43 => ⟨S1x2097152, .i32⟩
  | 44 => ⟨S_, .i32⟩
  | 45 => ⟨S1x2097152, .i32⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S1x2097152, .f32⟩
  | 52 => ⟨S_, .i32⟩
  | 53 => ⟨S_, .i32⟩
  | 54 => ⟨S_, .i32⟩
  | 55 => ⟨S1x2097152, .i32⟩
  | 56 => ⟨S1x2097152, .i32⟩
  | 57 => ⟨S_, .i32⟩
  | 58 => ⟨S1x2097152, .i32⟩
  | 59 => ⟨S1x2097152, .i32⟩
  | 60 => ⟨S_, .i32⟩
  | 61 => ⟨S1x2097152, .i32⟩
  | 62 => ⟨S1x2097152, .i1⟩
  | 63 => ⟨S_, .i32⟩
  | 64 => ⟨S1x2097152, .i32⟩
  | 65 => ⟨S1x2097152, .i32⟩
  | 66 => ⟨S1x2097152, .i32⟩
  | 67 => ⟨S1x2097152x1, .i32⟩
  | 68 => ⟨S1x16x2097152, .f32⟩
  | 69 => ⟨S1x2097152, .f32⟩
  | 70 => ⟨S1x1x2097152, .f32⟩
  | 71 => ⟨S1x16x2097152, .f32⟩
  | 72 => ⟨S1x16x2097152, .f32⟩
  | 73 => ⟨S1x16x2097152, .f32⟩
  | 74 => ⟨S1x2097152x16, .f32⟩
  | 75 => ⟨S1x2097152x16, .f32⟩
  | 76 => ⟨S_, .f32⟩
  | 77 => ⟨S1x2097152, .f32⟩
  | 78 => ⟨S1x2097152, .f32⟩
  | 79 => ⟨S_, .f32⟩
  | 80 => ⟨S1x2097152, .f32⟩
  | 81 => ⟨S1x2097152, .f32⟩
  | 82 => ⟨S_, .f32⟩
  | 83 => ⟨S1x2097152, .f32⟩
  | 84 => ⟨S1x2097152, .f32⟩
  | 85 => ⟨S_, .f32⟩
  | 86 => ⟨S1x2097152, .f32⟩
  | 87 => ⟨S1x2097152, .f32⟩
  | 88 => ⟨S_, .f32⟩
  | 89 => ⟨S1x2097152, .f32⟩
  | 90 => ⟨S1x2097152, .f32⟩
  | 91 => ⟨S_, .f32⟩
  | 92 => ⟨S1x2097152, .f32⟩
  | 93 => ⟨S1x2097152, .f32⟩
  | 94 => ⟨S1x2097152, .f32⟩
  | 95 => ⟨S1x2097152, .f32⟩
  | 96 => ⟨S1x2097152, .f32⟩
  | 97 => ⟨S1x2097152, .f32⟩
  | 98 => ⟨S1x2097152, .i32⟩
  | 99 => ⟨S1x2097152, .i32⟩
  | 100 => ⟨S_, .f32⟩
  | 101 => ⟨S1x2097152, .f32⟩
  | 102 => ⟨S1x2097152, .f32⟩
  | 103 => ⟨S_, .f32⟩
  | 104 => ⟨S1x2097152, .f32⟩
  | 105 => ⟨S1x2097152, .f32⟩
  | 106 => ⟨S1x2097152, .f32⟩
  | 107 => ⟨S_, .i32⟩
  | 108 => ⟨S1x2097152, .i32⟩
  | 109 => ⟨S1x2097152, .i1⟩
  | 110 => ⟨S_, .i32⟩
  | 111 => ⟨S1x2097152, .i32⟩
  | 112 => ⟨S1x2097152, .i1⟩
  | 113 => ⟨S1x2097152, .i1⟩
  | 114 => ⟨S_, .i32⟩
  | 115 => ⟨S1x2097152, .i32⟩
  | 116 => ⟨S1x2097152, .i1⟩
  | 117 => ⟨S1x2097152, .i1⟩
  | 118 => ⟨S_, .i32⟩
  | 119 => ⟨S1x2097152, .i32⟩
  | 120 => ⟨S1x2097152, .i1⟩
  | 121 => ⟨S1x2097152, .i1⟩
  | 122 => ⟨S1x2097152, .f32⟩
  | 123 => ⟨S_, .i32⟩
  | 124 => ⟨S_, .i32⟩
  | 125 => ⟨S_, .i32⟩
  | 126 => ⟨S1x2097152, .i32⟩
  | 127 => ⟨S1x2097152, .i32⟩
  | _ => ⟨S1x2097152x3, .f32⟩

abbrev hbmTy0_6 (i : Nat) : BufTy := match i % 128 with
  | 0 => ⟨S_, .i32⟩
  | 1 => ⟨S1x2097152, .i32⟩
  | 2 => ⟨S1x2097152, .i32⟩
  | 3 => ⟨S_, .i32⟩
  | 4 => ⟨S_, .i32⟩
  | 5 => ⟨S_, .i32⟩
  | 6 => ⟨S1x2097152, .i32⟩
  | 7 => ⟨S1x2097152, .i32⟩
  | 8 => ⟨S_, .i32⟩
  | 9 => ⟨S1x2097152, .i32⟩
  | 10 => ⟨S1x2097152, .i32⟩
  | 11 => ⟨S_, .i32⟩
  | 12 => ⟨S1x2097152, .i32⟩
  | 13 => ⟨S1x2097152, .i1⟩
  | 14 => ⟨S_, .i32⟩
  | 15 => ⟨S1x2097152, .i32⟩
  | 16 => ⟨S1x2097152, .i32⟩
  | 17 => ⟨S1x2097152, .i32⟩
  | 18 => ⟨S_, .i32⟩
  | 19 => ⟨S1x2097152, .i32⟩
  | 20 => ⟨S1x2097152, .i1⟩
  | 21 => ⟨S_, .i32⟩
  | 22 => ⟨S1x2097152, .i32⟩
  | 23 => ⟨S1x2097152, .i32⟩
  | 24 => ⟨S1x2097152, .i32⟩
  | 25 => ⟨S1x2097152x1, .i32⟩
  | 26 => ⟨S1x2097152x1, .i32⟩
  | 27 => ⟨S1x2097152x2, .i32⟩
  | 28 => ⟨S1x16x2097152, .f32⟩
  | 29 => ⟨S1x2097152, .f32⟩
  | 30 => ⟨S1x1x2097152, .f32⟩
  | 31 => ⟨S1x16x2097152, .f32⟩
  | 32 => ⟨S1x16x2097152, .f32⟩
  | 33 => ⟨S_, .i32⟩
  | 34 => ⟨S1x2097152, .i32⟩
  | 35 => ⟨S1x2097152, .i32⟩
  | 36 => ⟨S_, .f32⟩
  | 37 => ⟨S1x2097152, .f32⟩
  | 38 => ⟨S1x2097152, .f32⟩
  | 39 => ⟨S1x2097152, .f32⟩
  | 40 => ⟨S_, .i32⟩
  | 41 => ⟨S1x2097152, .i32⟩
  | 42 => ⟨S1x2097152, .i1⟩
  | 43 => ⟨S_, .i32⟩
  | 44 => ⟨S1x2097152, .i32⟩
  | 45 => ⟨S1x2097152, .i1⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S_, .i32⟩
  | 52 => ⟨S1x2097152, .i32⟩
  | 53 => ⟨S1x2097152, .i1⟩
  | 54 => ⟨S1x2097152, .i1⟩
  | 55 => ⟨S1x2097152, .f32⟩
  | 56 => ⟨S_, .i32⟩
  | 57 => ⟨S_, .i32⟩
  | 58 => ⟨S_, .i32⟩
  | 59 => ⟨S1x2097152, .i32⟩
  | 60 => ⟨S1x2097152, .i32⟩
  | 61 => ⟨S_, .i32⟩
  | 62 => ⟨S1x2097152, .i32⟩
  | 63 => ⟨S1x2097152, .i32⟩
  | 64 => ⟨S_, .i32⟩
  | 65 => ⟨S_, .i32⟩
  | 66 => ⟨S_, .i32⟩
  | 67 => ⟨S1x2097152, .i32⟩
  | 68 => ⟨S1x2097152, .i32⟩
  | 69 => ⟨S_, .i32⟩
  | 70 => ⟨S1x2097152, .i32⟩
  | 71 => ⟨S1x2097152, .i32⟩
  | 72 => ⟨S_, .i32⟩
  | 73 => ⟨S1x2097152, .i32⟩
  | 74 => ⟨S1x2097152, .i1⟩
  | 75 => ⟨S_, .i32⟩
  | 76 => ⟨S1x2097152, .i32⟩
  | 77 => ⟨S1x2097152, .i32⟩
  | 78 => ⟨S1x2097152, .i32⟩
  | 79 => ⟨S_, .i32⟩
  | 80 => ⟨S1x2097152, .i32⟩
  | 81 => ⟨S1x2097152, .i1⟩
  | 82 => ⟨S_, .i32⟩
  | 83 => ⟨S1x2097152, .i32⟩
  | 84 => ⟨S1x2097152, .i32⟩
  | 85 => ⟨S1x2097152, .i32⟩
  | 86 => ⟨S1x2097152x1, .i32⟩
  | 87 => ⟨S1x2097152x1, .i32⟩
  | 88 => ⟨S1x2097152x2, .i32⟩
  | 89 => ⟨S1x16x2097152, .f32⟩
  | 90 => ⟨S1x2097152, .f32⟩
  | 91 => ⟨S1x1x2097152, .f32⟩
  | 92 => ⟨S1x16x2097152, .f32⟩
  | 93 => ⟨S1x16x2097152, .f32⟩
  | 94 => ⟨S1x16x2097152, .f32⟩
  | 95 => ⟨S_, .i32⟩
  | 96 => ⟨S1x2097152, .i32⟩
  | 97 => ⟨S1x2097152, .i32⟩
  | 98 => ⟨S_, .f32⟩
  | 99 => ⟨S1x2097152, .f32⟩
  | 100 => ⟨S1x2097152, .f32⟩
  | 101 => ⟨S1x2097152, .f32⟩
  | 102 => ⟨S_, .i32⟩
  | 103 => ⟨S1x2097152, .i32⟩
  | 104 => ⟨S1x2097152, .i1⟩
  | 105 => ⟨S_, .i32⟩
  | 106 => ⟨S1x2097152, .i32⟩
  | 107 => ⟨S1x2097152, .i1⟩
  | 108 => ⟨S1x2097152, .i1⟩
  | 109 => ⟨S_, .i32⟩
  | 110 => ⟨S1x2097152, .i32⟩
  | 111 => ⟨S1x2097152, .i1⟩
  | 112 => ⟨S1x2097152, .i1⟩
  | 113 => ⟨S_, .i32⟩
  | 114 => ⟨S1x2097152, .i32⟩
  | 115 => ⟨S1x2097152, .i1⟩
  | 116 => ⟨S1x2097152, .i1⟩
  | 117 => ⟨S1x2097152, .f32⟩
  | 118 => ⟨S_, .i32⟩
  | 119 => ⟨S_, .i32⟩
  | 120 => ⟨S_, .i32⟩
  | 121 => ⟨S1x2097152, .i32⟩
  | 122 => ⟨S1x2097152, .i32⟩
  | 123 => ⟨S_, .i32⟩
  | 124 => ⟨S1x2097152, .i32⟩
  | 125 => ⟨S1x2097152, .i32⟩
  | 126 => ⟨S_, .i32⟩
  | 127 => ⟨S_, .i32⟩
  | _ => ⟨S1x2097152x3, .f32⟩

abbrev hbmTy0_7 (i : Nat) : BufTy := match i % 128 with
  | 0 => ⟨S_, .i32⟩
  | 1 => ⟨S1x2097152, .i32⟩
  | 2 => ⟨S1x2097152, .i32⟩
  | 3 => ⟨S_, .i32⟩
  | 4 => ⟨S1x2097152, .i32⟩
  | 5 => ⟨S1x2097152, .i32⟩
  | 6 => ⟨S_, .i32⟩
  | 7 => ⟨S1x2097152, .i32⟩
  | 8 => ⟨S1x2097152, .i1⟩
  | 9 => ⟨S_, .i32⟩
  | 10 => ⟨S1x2097152, .i32⟩
  | 11 => ⟨S1x2097152, .i32⟩
  | 12 => ⟨S1x2097152, .i32⟩
  | 13 => ⟨S_, .i32⟩
  | 14 => ⟨S1x2097152, .i32⟩
  | 15 => ⟨S1x2097152, .i1⟩
  | 16 => ⟨S_, .i32⟩
  | 17 => ⟨S1x2097152, .i32⟩
  | 18 => ⟨S1x2097152, .i32⟩
  | 19 => ⟨S1x2097152, .i32⟩
  | 20 => ⟨S1x2097152x1, .i32⟩
  | 21 => ⟨S1x2097152x1, .i32⟩
  | 22 => ⟨S1x2097152x2, .i32⟩
  | 23 => ⟨S1x16x2097152, .f32⟩
  | 24 => ⟨S1x2097152, .f32⟩
  | 25 => ⟨S1x1x2097152, .f32⟩
  | 26 => ⟨S1x16x2097152, .f32⟩
  | 27 => ⟨S1x16x2097152, .f32⟩
  | 28 => ⟨S1x16x2097152, .f32⟩
  | 29 => ⟨S_, .i32⟩
  | 30 => ⟨S1x2097152, .i32⟩
  | 31 => ⟨S1x2097152, .i32⟩
  | 32 => ⟨S_, .i32⟩
  | 33 => ⟨S1x2097152, .i32⟩
  | 34 => ⟨S1x2097152, .i32⟩
  | 35 => ⟨S1x2097152, .f32⟩
  | 36 => ⟨S_, .i32⟩
  | 37 => ⟨S1x2097152, .i32⟩
  | 38 => ⟨S1x2097152, .i1⟩
  | 39 => ⟨S_, .i32⟩
  | 40 => ⟨S1x2097152, .i32⟩
  | 41 => ⟨S1x2097152, .i1⟩
  | 42 => ⟨S1x2097152, .i1⟩
  | 43 => ⟨S_, .i32⟩
  | 44 => ⟨S1x2097152, .i32⟩
  | 45 => ⟨S1x2097152, .i1⟩
  | 46 => ⟨S1x2097152, .i1⟩
  | 47 => ⟨S_, .i32⟩
  | 48 => ⟨S1x2097152, .i32⟩
  | 49 => ⟨S1x2097152, .i1⟩
  | 50 => ⟨S1x2097152, .i1⟩
  | 51 => ⟨S1x2097152, .f32⟩
  | 52 => ⟨S_, .i32⟩
  | 53 => ⟨S_, .i32⟩
  | 54 => ⟨S_, .i32⟩
  | 55 => ⟨S1x2097152, .i32⟩
  | 56 => ⟨S1x2097152, .i32⟩
  | 57 => ⟨S_, .i32⟩
  | 58 => ⟨S1x2097152, .i32⟩
  | 59 => ⟨S1x2097152, .i32⟩
  | 60 => ⟨S_, .i32⟩
  | 61 => ⟨S_, .i32⟩
  | 62 => ⟨S_, .i32⟩
  | 63 => ⟨S1x2097152, .i32⟩
  | 64 => ⟨S1x2097152, .i32⟩
  | 65 => ⟨S_, .i32⟩
  | 66 => ⟨S1x2097152, .i32⟩
  | 67 => ⟨S1x2097152, .i32⟩
  | 68 => ⟨S_, .i32⟩
  | 69 => ⟨S1x2097152, .i32⟩
  | 70 => ⟨S1x2097152, .i1⟩
  | 71 => ⟨S_, .i32⟩
  | 72 => ⟨S1x2097152, .i32⟩
  | 73 => ⟨S1x2097152, .i32⟩
  | 74 => ⟨S1x2097152, .i32⟩
  | 75 => ⟨S_, .i32⟩
  | 76 => ⟨S1x2097152, .i32⟩
  | 77 => ⟨S1x2097152, .i1⟩
  | 78 => ⟨S_, .i32⟩
  | 79 => ⟨S1x2097152, .i32⟩
  | 80 => ⟨S1x2097152, .i32⟩
  | 81 => ⟨S1x2097152, .i32⟩
  | 82 => ⟨S1x2097152x1, .i32⟩
  | 83 => ⟨S1x2097152x1, .i32⟩
  | 84 => ⟨S1x2097152x2, .i32⟩
  | 85 => ⟨S1x16x2097152, .f32⟩
  | 86 => ⟨S1x2097152, .f32⟩
  | 87 => ⟨S1x1x2097152, .f32⟩
  | 88 => ⟨S1x16x2097152, .f32⟩
  | 89 => ⟨S1x16x2097152, .f32⟩
  | 90 => ⟨S1x16x2097152, .f32⟩
  | 91 => ⟨S1x2097152x16, .f32⟩
  | 92 => ⟨S_, .f32⟩
  | 93 => ⟨S1x2097152, .f32⟩
  | 94 => ⟨S1x2097152, .f32⟩
  | 95 => ⟨S_, .f32⟩
  | 96 => ⟨S1x2097152, .f32⟩
  | 97 => ⟨S1x2097152, .f32⟩
  | 98 => ⟨S_, .f32⟩
  | 99 => ⟨S1x2097152, .f32⟩
  | 100 => ⟨S1x2097152, .f32⟩
  | 101 => ⟨S1x2097152, .f32⟩
  | 102 => ⟨S1x2097152, .f32⟩
  | 103 => ⟨S1x2097152, .i32⟩
  | 104 => ⟨S_, .f32⟩
  | 105 => ⟨S1x2097152, .f32⟩
  | 106 => ⟨S1x2097152, .f32⟩
  | 107 => ⟨S_, .i32⟩
  | 108 => ⟨S1x2097152, .i32⟩
  | 109 => ⟨S1x2097152, .i1⟩
  | 110 => ⟨S_, .i32⟩
  | 111 => ⟨S1x2097152, .i32⟩
  | 112 => ⟨S1x2097152, .i1⟩
  | 113 => ⟨S1x2097152, .i1⟩
  | 114 => ⟨S1x2097152, .f32⟩
  | 115 => ⟨S_, .i32⟩
  | 116 => ⟨S_, .i32⟩
  | 117 => ⟨S_, .i32⟩
  | 118 => ⟨S1x2097152, .i32⟩
  | 119 => ⟨S1x2097152, .i32⟩
  | 120 => ⟨S_, .i32⟩
  | 121 => ⟨S1x2097152, .i32⟩
  | 122 => ⟨S1x2097152, .i32⟩
  | 123 => ⟨S_, .i32⟩
  | 124 => ⟨S1x2097152, .i32⟩
  | 125 => ⟨S1x2097152, .i1⟩
  | 126 => ⟨S_, .i32⟩
  | 127 => ⟨S1x2097152, .i32⟩
  | _ => ⟨S1x2097152x3, .f32⟩

abbrev hbmTy0_8 (i : Nat) : BufTy := match i % 128 with
  | 0 => ⟨S1x2097152, .i32⟩
  | 1 => ⟨S1x2097152, .i32⟩
  | 2 => ⟨S1x2097152x1, .i32⟩
  | 3 => ⟨S1x16x2097152, .f32⟩
  | 4 => ⟨S1x2097152, .f32⟩
  | 5 => ⟨S1x1x2097152, .f32⟩
  | 6 => ⟨S1x16x2097152, .f32⟩
  | 7 => ⟨S1x16x2097152, .f32⟩
  | 8 => ⟨S_, .i32⟩
  | 9 => ⟨S1x2097152, .i32⟩
  | 10 => ⟨S1x2097152, .i32⟩
  | 11 => ⟨S_, .i32⟩
  | 12 => ⟨S1x2097152, .i32⟩
  | 13 => ⟨S1x2097152, .i1⟩
  | 14 => ⟨S_, .i32⟩
  | 15 => ⟨S1x2097152, .i32⟩
  | 16 => ⟨S1x2097152, .i1⟩
  | 17 => ⟨S1x2097152, .i1⟩
  | 18 => ⟨S1x2097152, .f32⟩
  | 19 => ⟨S_, .i32⟩
  | 20 => ⟨S_, .i32⟩
  | 21 => ⟨S_, .i32⟩
  | 22 => ⟨S1x2097152, .i32⟩
  | 23 => ⟨S1x2097152, .i32⟩
  | 24 => ⟨S_, .i32⟩
  | 25 => ⟨S1x2097152, .i32⟩
  | 26 => ⟨S1x2097152, .i32⟩
  | 27 => ⟨S_, .i32⟩
  | 28 => ⟨S1x2097152, .i32⟩
  | 29 => ⟨S1x2097152, .i1⟩
  | 30 => ⟨S_, .i32⟩
  | 31 => ⟨S1x2097152, .i32⟩
  | 32 => ⟨S1x2097152, .i32⟩
  | 33 => ⟨S1x2097152, .i32⟩
  | 34 => ⟨S1x2097152x1, .i32⟩
  | 35 => ⟨S1x16x2097152, .f32⟩
  | 36 => ⟨S1x2097152, .f32⟩
  | 37 => ⟨S1x1x2097152, .f32⟩
  | 38 => ⟨S1x16x2097152, .f32⟩
  | 39 => ⟨S1x16x2097152, .f32⟩
  | 40 => ⟨S1x16x2097152, .f32⟩
  | 41 => ⟨S1x2097152x16, .f32⟩
  | 42 => ⟨S1x2097152x16, .f32⟩
  | 43 => ⟨S1x2097152x48, .f32⟩
  | 44 => ⟨S1x2097152x27, .f32⟩
  | _ => ⟨S1x2097152x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x2097152x3, .f32⟩

abbrev bufTy : (tb : Table) → Fin (tcTables nBuf tb) → BufTy
  | .hbm, ⟨i, _⟩ => hbmTy i
  | _, _ => ⟨S1x2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_c_11 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v41 : Ref sig .tc := ⟨.hbm, 68, rfl⟩
abbrev main_c_12 : Ref sig .tc := ⟨.hbm, 69, rfl⟩
abbrev main_c_13 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v42 : Ref sig .tc := ⟨.hbm, 76, rfl⟩
abbrev main_c_14 : Ref sig .tc := ⟨.hbm, 77, rfl⟩
abbrev main_v43 : Ref sig .tc := ⟨.hbm, 78, rfl⟩
abbrev main_v44 : Ref sig .tc := ⟨.hbm, 79, rfl⟩
abbrev main_c_15 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_16 : Ref sig .tc := ⟨.hbm, 84, rfl⟩
abbrev main_v48 : Ref sig .tc := ⟨.hbm, 85, rfl⟩
abbrev main_v49 : Ref sig .tc := ⟨.hbm, 86, rfl⟩
abbrev main_c_17 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_18 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_20 : Ref sig .tc := ⟨.hbm, 106, rfl⟩
abbrev main_v66 : Ref sig .tc := ⟨.hbm, 107, rfl⟩
abbrev main_v67 : Ref sig .tc := ⟨.hbm, 108, rfl⟩
abbrev main_c_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_22 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_24 : Ref sig .tc := ⟨.hbm, 122, rfl⟩
abbrev main_c_25 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v78 : Ref sig .tc := ⟨.hbm, 129, rfl⟩
abbrev main_c_26 : Ref sig .tc := ⟨.hbm, 130, rfl⟩
abbrev main_c_27 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v79 : Ref sig .tc := ⟨.hbm, 137, rfl⟩
abbrev main_c_28 : Ref sig .tc := ⟨.hbm, 138, rfl⟩
abbrev main_v80 : Ref sig .tc := ⟨.hbm, 139, rfl⟩
abbrev main_v81 : Ref sig .tc := ⟨.hbm, 140, rfl⟩
abbrev main_c_29 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_30 : Ref sig .tc := ⟨.hbm, 145, rfl⟩
abbrev main_v85 : Ref sig .tc := ⟨.hbm, 146, rfl⟩
abbrev main_v86 : Ref sig .tc := ⟨.hbm, 147, rfl⟩
abbrev main_c_31 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_c_32 : Ref sig .tc := ⟨.hbm, 161, rfl⟩
abbrev main_v99 : Ref sig .tc := ⟨.hbm, 162, rfl⟩
abbrev main_v100 : Ref sig .tc := ⟨.hbm, 163, rfl⟩
abbrev main_cst_33 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_c_34 : Ref sig .tc := ⟨.hbm, 168, rfl⟩
abbrev main_v104 : Ref sig .tc := ⟨.hbm, 169, rfl⟩
abbrev main_v105 : Ref sig .tc := ⟨.hbm, 170, rfl⟩
abbrev main_c_35 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_36 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_37 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_38 : Ref sig .tc := ⟨.hbm, 184, rfl⟩
abbrev main_c_39 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v116 : Ref sig .tc := ⟨.hbm, 191, rfl⟩
abbrev main_c_40 : Ref sig .tc := ⟨.hbm, 192, rfl⟩
abbrev main_c_41 : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_v117 : Ref sig .tc := ⟨.hbm, 199, rfl⟩
abbrev main_c_42 : Ref sig .tc := ⟨.hbm, 200, rfl⟩
abbrev main_v118 : Ref sig .tc := ⟨.hbm, 201, rfl⟩
abbrev main_v119 : Ref sig .tc := ⟨.hbm, 202, rfl⟩
abbrev main_c_43 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_c_44 : Ref sig .tc := ⟨.hbm, 207, rfl⟩
abbrev main_v123 : Ref sig .tc := ⟨.hbm, 208, rfl⟩
abbrev main_v124 : Ref sig .tc := ⟨.hbm, 209, rfl⟩
abbrev main_c_45 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_c_46 : Ref sig .tc := ⟨.hbm, 223, rfl⟩
abbrev main_v137 : Ref sig .tc := ⟨.hbm, 224, rfl⟩
abbrev main_v138 : Ref sig .tc := ⟨.hbm, 225, rfl⟩
abbrev main_c_47 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_c_48 : Ref sig .tc := ⟨.hbm, 230, rfl⟩
abbrev main_v142 : Ref sig .tc := ⟨.hbm, 231, rfl⟩
abbrev main_v143 : Ref sig .tc := ⟨.hbm, 232, rfl⟩
abbrev main_c_49 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_c_50 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_c_51 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_c_52 : Ref sig .tc := ⟨.hbm, 246, rfl⟩
abbrev main_c_53 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v154 : Ref sig .tc := ⟨.hbm, 253, rfl⟩
abbrev main_c_54 : Ref sig .tc := ⟨.hbm, 254, rfl⟩
abbrev main_c_55 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v155 : Ref sig .tc := ⟨.hbm, 261, rfl⟩
abbrev main_c_56 : Ref sig .tc := ⟨.hbm, 262, rfl⟩
abbrev main_v156 : Ref sig .tc := ⟨.hbm, 263, rfl⟩
abbrev main_v157 : Ref sig .tc := ⟨.hbm, 264, rfl⟩
abbrev main_c_57 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_c_58 : Ref sig .tc := ⟨.hbm, 269, rfl⟩
abbrev main_v161 : Ref sig .tc := ⟨.hbm, 270, rfl⟩
abbrev main_v162 : Ref sig .tc := ⟨.hbm, 271, rfl⟩
abbrev main_c_59 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_60 : Ref sig .tc := ⟨.hbm, 286, rfl⟩
abbrev main_v176 : Ref sig .tc := ⟨.hbm, 287, rfl⟩
abbrev main_v177 : Ref sig .tc := ⟨.hbm, 288, rfl⟩
abbrev main_cst_61 : Ref sig .tc := ⟨.hbm, 289, rfl⟩
abbrev main_v178 : Ref sig .tc := ⟨.hbm, 290, rfl⟩
abbrev main_v179 : Ref sig .tc := ⟨.hbm, 291, rfl⟩
abbrev main_cst_62 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_cst_63 : Ref sig .tc := ⟨.hbm, 298, rfl⟩
abbrev main_v185 : Ref sig .tc := ⟨.hbm, 299, rfl⟩
abbrev main_v186 : Ref sig .tc := ⟨.hbm, 300, rfl⟩
abbrev main_c_64 : Ref sig .tc := ⟨.hbm, 301, rfl⟩
abbrev main_v187 : Ref sig .tc := ⟨.hbm, 302, rfl⟩
abbrev main_v188 : Ref sig .tc := ⟨.hbm, 303, rfl⟩
abbrev main_c_65 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_c_66 : Ref sig .tc := ⟨.hbm, 309, rfl⟩
abbrev main_c_67 : Ref sig .tc := ⟨.hbm, 310, rfl⟩
abbrev main_call8_v0 : Ref sig .tc := ⟨.hbm, 311, rfl⟩
abbrev main_call8_v1 : Ref sig .tc := ⟨.hbm, 312, rfl⟩
abbrev main_call8_v2 : Ref sig .tc := ⟨.hbm, 313, rfl⟩
abbrev main_call8_v3 : Ref sig .tc := ⟨.hbm, 314, rfl⟩
abbrev main_call8_v4 : Ref sig .tc := ⟨.hbm, 315, rfl⟩
abbrev main_v193 : Ref sig .tc := ⟨.hbm, 316, rfl⟩
abbrev main_c_68 : Ref sig .tc := ⟨.hbm, 317, rfl⟩
abbrev main_v194 : Ref sig .tc := ⟨.hbm, 318, rfl⟩
abbrev main_v195 : Ref sig .tc := ⟨.hbm, 319, rfl⟩
abbrev main_c_69 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_c_70 : Ref sig .tc := ⟨.hbm, 330, rfl⟩
abbrev main_v205 : Ref sig .tc := ⟨.hbm, 331, rfl⟩
abbrev main_v206 : Ref sig .tc := ⟨.hbm, 332, rfl⟩
abbrev main_c_71 : Ref sig .tc := ⟨.hbm, 333, rfl⟩
abbrev main_v207 : Ref sig .tc := ⟨.hbm, 334, rfl⟩
abbrev main_v208 : Ref sig .tc := ⟨.hbm, 335, rfl⟩
abbrev main_c_72 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_c_73 : Ref sig .tc := ⟨.hbm, 341, rfl⟩
abbrev main_c_74 : Ref sig .tc := ⟨.hbm, 342, rfl⟩
abbrev main_call9_v0 : Ref sig .tc := ⟨.hbm, 343, rfl⟩
abbrev main_call9_v1 : Ref sig .tc := ⟨.hbm, 344, rfl⟩
abbrev main_call9_v2 : Ref sig .tc := ⟨.hbm, 345, rfl⟩
abbrev main_call9_v3 : Ref sig .tc := ⟨.hbm, 346, rfl⟩
abbrev main_call9_v4 : Ref sig .tc := ⟨.hbm, 347, rfl⟩
abbrev main_v213 : Ref sig .tc := ⟨.hbm, 348, rfl⟩
abbrev main_c_75 : Ref sig .tc := ⟨.hbm, 349, rfl⟩
abbrev main_v214 : Ref sig .tc := ⟨.hbm, 350, rfl⟩
abbrev main_v215 : Ref sig .tc := ⟨.hbm, 351, rfl⟩
abbrev main_c_76 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_cst_77 : Ref sig .tc := ⟨.hbm, 365, rfl⟩
abbrev main_v228 : Ref sig .tc := ⟨.hbm, 366, rfl⟩
abbrev main_v229 : Ref sig .tc := ⟨.hbm, 367, rfl⟩
abbrev main_cst_78 : Ref sig .tc := ⟨.hbm, 368, rfl⟩
abbrev main_v230 : Ref sig .tc := ⟨.hbm, 369, rfl⟩
abbrev main_v231 : Ref sig .tc := ⟨.hbm, 370, rfl⟩
abbrev main_cst_79 : Ref sig .tc := ⟨.hbm, 371, rfl⟩
abbrev main_v232 : Ref sig .tc := ⟨.hbm, 372, rfl⟩
abbrev main_v233 : Ref sig .tc := ⟨.hbm, 373, rfl⟩
abbrev main_cst_80 : Ref sig .tc := ⟨.hbm, 374, rfl⟩
abbrev main_v234 : Ref sig .tc := ⟨.hbm, 375, rfl⟩
abbrev main_v235 : Ref sig .tc := ⟨.hbm, 376, rfl⟩
abbrev main_cst_81 : Ref sig .tc := ⟨.hbm, 377, rfl⟩
abbrev main_v236 : Ref sig .tc := ⟨.hbm, 378, rfl⟩
abbrev main_v237 : Ref sig .tc := ⟨.hbm, 379, rfl⟩
abbrev main_cst_82 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_cst_83 : Ref sig .tc := ⟨.hbm, 389, rfl⟩
abbrev main_v246 : Ref sig .tc := ⟨.hbm, 390, rfl⟩
abbrev main_v247 : Ref sig .tc := ⟨.hbm, 391, rfl⟩
abbrev main_cst_84 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_c_85 : Ref sig .tc := ⟨.hbm, 396, rfl⟩
abbrev main_v251 : Ref sig .tc := ⟨.hbm, 397, rfl⟩
abbrev main_v252 : Ref sig .tc := ⟨.hbm, 398, rfl⟩
abbrev main_c_86 : Ref sig .tc := ⟨.hbm, 399, rfl⟩
abbrev main_v253 : Ref sig .tc := ⟨.hbm, 400, rfl⟩
abbrev main_v254 : Ref sig .tc := ⟨.hbm, 401, rfl⟩
abbrev main_v255 : Ref sig .tc := ⟨.hbm, 402, rfl⟩
abbrev main_c_87 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_c_88 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_c_89 : Ref sig .tc := ⟨.hbm, 412, rfl⟩
abbrev main_c_90 : Ref sig .tc := ⟨.hbm, 413, rfl⟩
abbrev main_call10_v0 : Ref sig .tc := ⟨.hbm, 414, rfl⟩
abbrev main_call10_v1 : Ref sig .tc := ⟨.hbm, 415, rfl⟩
abbrev main_call10_v2 : Ref sig .tc := ⟨.hbm, 416, rfl⟩
abbrev main_call10_v3 : Ref sig .tc := ⟨.hbm, 417, rfl⟩
abbrev main_call10_v4 : Ref sig .tc := ⟨.hbm, 418, rfl⟩
abbrev main_v263 : Ref sig .tc := ⟨.hbm, 419, rfl⟩
abbrev main_c_91 : Ref sig .tc := ⟨.hbm, 420, rfl⟩
abbrev main_c_92 : Ref sig .tc := ⟨.hbm, 421, rfl⟩
abbrev main_call11_v0 : Ref sig .tc := ⟨.hbm, 422, rfl⟩
abbrev main_call11_v1 : Ref sig .tc := ⟨.hbm, 423, rfl⟩
abbrev main_call11_v2 : Ref sig .tc := ⟨.hbm, 424, rfl⟩
abbrev main_call11_v3 : Ref sig .tc := ⟨.hbm, 425, rfl⟩
abbrev main_call11_v4 : Ref sig .tc := ⟨.hbm, 426, rfl⟩
abbrev main_v264 : Ref sig .tc := ⟨.hbm, 427, rfl⟩
abbrev main_c_93 : Ref sig .tc := ⟨.hbm, 428, rfl⟩
abbrev main_v265 : Ref sig .tc := ⟨.hbm, 429, rfl⟩
abbrev main_v266 : Ref sig .tc := ⟨.hbm, 430, rfl⟩
abbrev main_c_94 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_c_95 : Ref sig .tc := ⟨.hbm, 435, rfl⟩
abbrev main_v270 : Ref sig .tc := ⟨.hbm, 436, rfl⟩
abbrev main_v271 : Ref sig .tc := ⟨.hbm, 437, rfl⟩
abbrev main_c_96 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_v282 : Ref sig .tc := ⟨.hbm, 449, rfl⟩
abbrev main_c_97 : Ref sig .tc := ⟨.hbm, 450, rfl⟩
abbrev main_v283 : Ref sig .tc := ⟨.hbm, 451, rfl⟩
abbrev main_v284 : Ref sig .tc := ⟨.hbm, 452, rfl⟩
abbrev main_cst_98 : Ref sig .tc := ⟨.hbm, 453, rfl⟩
abbrev main_v285 : Ref sig .tc := ⟨.hbm, 454, rfl⟩
abbrev main_v286 : Ref sig .tc := ⟨.hbm, 455, rfl⟩
abbrev main_v287 : Ref sig .tc := ⟨.hbm, 456, rfl⟩
abbrev main_c_99 : Ref sig .tc := ⟨.hbm, 457, rfl⟩
abbrev main_v288 : Ref sig .tc := ⟨.hbm, 458, rfl⟩
abbrev main_v289 : Ref sig .tc := ⟨.hbm, 459, rfl⟩
abbrev main_c_100 : Ref sig .tc := ⟨.hbm, 460, rfl⟩
abbrev main_v290 : Ref sig .tc := ⟨.hbm, 461, rfl⟩
abbrev main_v291 : Ref sig .tc := ⟨.hbm, 462, rfl⟩
abbrev main_v292 : Ref sig .tc := ⟨.hbm, 463, rfl⟩
abbrev main_c_101 : Ref sig .tc := ⟨.hbm, 464, rfl⟩
abbrev main_v293 : Ref sig .tc := ⟨.hbm, 465, rfl⟩
abbrev main_v294 : Ref sig .tc := ⟨.hbm, 466, rfl⟩
abbrev main_v295 : Ref sig .tc := ⟨.hbm, 467, rfl⟩
abbrev main_c_102 : Ref sig .tc := ⟨.hbm, 468, rfl⟩
abbrev main_v296 : Ref sig .tc := ⟨.hbm, 469, rfl⟩
abbrev main_v297 : Ref sig .tc := ⟨.hbm, 470, rfl⟩
abbrev main_v298 : Ref sig .tc := ⟨.hbm, 471, rfl⟩
abbrev main_v299 : Ref sig .tc := ⟨.hbm, 472, rfl⟩
abbrev main_c_103 : Ref sig .tc := ⟨.hbm, 473, rfl⟩
abbrev main_c_104 : Ref sig .tc := ⟨.hbm, 474, rfl⟩
abbrev main_call12_v0 : Ref sig .tc := ⟨.hbm, 475, rfl⟩
abbrev main_call12_v1 : Ref sig .tc := ⟨.hbm, 476, rfl⟩
abbrev main_call12_v2 : Ref sig .tc := ⟨.hbm, 477, rfl⟩
abbrev main_call12_v3 : Ref sig .tc := ⟨.hbm, 478, rfl⟩
abbrev main_call12_v4 : Ref sig .tc := ⟨.hbm, 479, rfl⟩
abbrev main_v300 : Ref sig .tc := ⟨.hbm, 480, rfl⟩
abbrev main_c_105 : Ref sig .tc := ⟨.hbm, 481, rfl⟩
abbrev main_c_106 : Ref sig .tc := ⟨.hbm, 482, rfl⟩
abbrev main_call13_v0 : Ref sig .tc := ⟨.hbm, 483, rfl⟩
abbrev main_call13_v1 : Ref sig .tc := ⟨.hbm, 484, rfl⟩
abbrev main_call13_v2 : Ref sig .tc := ⟨.hbm, 485, rfl⟩
abbrev main_call13_v3 : Ref sig .tc := ⟨.hbm, 486, rfl⟩
abbrev main_call13_v4 : Ref sig .tc := ⟨.hbm, 487, rfl⟩
abbrev main_v301 : Ref sig .tc := ⟨.hbm, 488, rfl⟩
abbrev main_c_107 : Ref sig .tc := ⟨.hbm, 489, rfl⟩
abbrev main_v302 : Ref sig .tc := ⟨.hbm, 490, rfl⟩
abbrev main_v303 : Ref sig .tc := ⟨.hbm, 491, rfl⟩
abbrev main_c_108 : Ref sig .tc := ⟨.hbm, 492, rfl⟩
abbrev main_v304 : Ref sig .tc := ⟨.hbm, 493, rfl⟩
abbrev main_v305 : Ref sig .tc := ⟨.hbm, 494, rfl⟩
abbrev main_v306 : Ref sig .tc := ⟨.hbm, 495, rfl⟩
abbrev main_c_109 : Ref sig .tc := ⟨.hbm, 496, rfl⟩
abbrev main_v307 : Ref sig .tc := ⟨.hbm, 497, rfl⟩
abbrev main_v308 : Ref sig .tc := ⟨.hbm, 498, rfl⟩
abbrev main_c_110 : Ref sig .tc := ⟨.hbm, 499, rfl⟩
abbrev main_v309 : Ref sig .tc := ⟨.hbm, 500, rfl⟩
abbrev main_v310 : Ref sig .tc := ⟨.hbm, 501, rfl⟩
abbrev main_v311 : Ref sig .tc := ⟨.hbm, 502, rfl⟩
abbrev main_v312 : Ref sig .tc := ⟨.hbm, 503, rfl⟩
abbrev main_v313 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_v317 : Ref sig .tc := ⟨.hbm, 508, rfl⟩
abbrev main_v318 : Ref sig .tc := ⟨.hbm, 509, rfl⟩
abbrev main_v319 : Ref sig .tc := ⟨.hbm, 510, rfl⟩
abbrev main_v320 : Ref sig .tc := ⟨.hbm, 511, rfl⟩
abbrev main_c_111 : Ref sig .tc := ⟨.hbm, 512, rfl⟩
abbrev main_v321 : Ref sig .tc := ⟨.hbm, 513, rfl⟩
abbrev main_v322 : Ref sig .tc := ⟨.hbm, 514, rfl⟩
abbrev main_cst_112 : Ref sig .tc := ⟨.hbm, 515, rfl⟩
abbrev main_v323 : Ref sig .tc := ⟨.hbm, 516, rfl⟩
abbrev main_v324 : Ref sig .tc := ⟨.hbm, 517, rfl⟩
abbrev main_v325 : Ref sig .tc := ⟨.hbm, 518, rfl⟩
abbrev main_c_113 : Ref sig .tc := ⟨.hbm, 519, rfl⟩
abbrev main_v326 : Ref sig .tc := ⟨.hbm, 520, rfl⟩
abbrev main_v327 : Ref sig .tc := ⟨.hbm, 521, rfl⟩
abbrev main_c_114 : Ref sig .tc := ⟨.hbm, 522, rfl⟩
abbrev main_v328 : Ref sig .tc := ⟨.hbm, 523, rfl⟩
abbrev main_v329 : Ref sig .tc := ⟨.hbm, 524, rfl⟩
abbrev main_v330 : Ref sig .tc := ⟨.hbm, 525, rfl⟩
abbrev main_c_115 : Ref sig .tc := ⟨.hbm, 526, rfl⟩
abbrev main_v331 : Ref sig .tc := ⟨.hbm, 527, rfl⟩
abbrev main_v332 : Ref sig .tc := ⟨.hbm, 528, rfl⟩
abbrev main_v333 : Ref sig .tc := ⟨.hbm, 529, rfl⟩
abbrev main_c_116 : Ref sig .tc := ⟨.hbm, 530, rfl⟩
abbrev main_v334 : Ref sig .tc := ⟨.hbm, 531, rfl⟩
abbrev main_v335 : Ref sig .tc := ⟨.hbm, 532, rfl⟩
abbrev main_v336 : Ref sig .tc := ⟨.hbm, 533, rfl⟩
abbrev main_v337 : Ref sig .tc := ⟨.hbm, 534, rfl⟩
abbrev main_c_117 : Ref sig .tc := ⟨.hbm, 535, rfl⟩
abbrev main_c_118 : Ref sig .tc := ⟨.hbm, 536, rfl⟩
abbrev main_call14_v0 : Ref sig .tc := ⟨.hbm, 537, rfl⟩
abbrev main_call14_v1 : Ref sig .tc := ⟨.hbm, 538, rfl⟩
abbrev main_call14_v2 : Ref sig .tc := ⟨.hbm, 539, rfl⟩
abbrev main_call14_v3 : Ref sig .tc := ⟨.hbm, 540, rfl⟩
abbrev main_call14_v4 : Ref sig .tc := ⟨.hbm, 541, rfl⟩
abbrev main_v338 : Ref sig .tc := ⟨.hbm, 542, rfl⟩
abbrev main_c_119 : Ref sig .tc := ⟨.hbm, 543, rfl⟩
abbrev main_c_120 : Ref sig .tc := ⟨.hbm, 544, rfl⟩
abbrev main_call15_v0 : Ref sig .tc := ⟨.hbm, 545, rfl⟩
abbrev main_call15_v1 : Ref sig .tc := ⟨.hbm, 546, rfl⟩
abbrev main_call15_v2 : Ref sig .tc := ⟨.hbm, 547, rfl⟩
abbrev main_call15_v3 : Ref sig .tc := ⟨.hbm, 548, rfl⟩
abbrev main_call15_v4 : Ref sig .tc := ⟨.hbm, 549, rfl⟩
abbrev main_v339 : Ref sig .tc := ⟨.hbm, 550, rfl⟩
abbrev main_c_121 : Ref sig .tc := ⟨.hbm, 551, rfl⟩
abbrev main_v340 : Ref sig .tc := ⟨.hbm, 552, rfl⟩
abbrev main_v341 : Ref sig .tc := ⟨.hbm, 553, rfl⟩
abbrev main_c_122 : Ref sig .tc := ⟨.hbm, 554, rfl⟩
abbrev main_v342 : Ref sig .tc := ⟨.hbm, 555, rfl⟩
abbrev main_v343 : Ref sig .tc := ⟨.hbm, 556, rfl⟩
abbrev main_v344 : Ref sig .tc := ⟨.hbm, 557, rfl⟩
abbrev main_c_123 : Ref sig .tc := ⟨.hbm, 558, rfl⟩
abbrev main_v345 : Ref sig .tc := ⟨.hbm, 559, rfl⟩
abbrev main_v346 : Ref sig .tc := ⟨.hbm, 560, rfl⟩
abbrev main_c_124 : Ref sig .tc := ⟨.hbm, 561, rfl⟩
abbrev main_v347 : Ref sig .tc := ⟨.hbm, 562, rfl⟩
abbrev main_v348 : Ref sig .tc := ⟨.hbm, 563, rfl⟩
abbrev main_v349 : Ref sig .tc := ⟨.hbm, 564, rfl⟩
abbrev main_v350 : Ref sig .tc := ⟨.hbm, 565, rfl⟩
abbrev main_v351 : Ref sig .tc := ⟨.hbm, 566, rfl⟩
abbrev main_v352 : Ref sig .tc := ⟨.hbm, 567, rfl⟩
abbrev main_v353 : Ref sig .tc := ⟨.hbm, 568, rfl⟩
abbrev main_v354 : Ref sig .tc := ⟨.hbm, 569, rfl⟩
abbrev main_v355 : Ref sig .tc := ⟨.hbm, 570, rfl⟩
abbrev main_v356 : Ref sig .tc := ⟨.hbm, 571, rfl⟩
abbrev main_v357 : Ref sig .tc := ⟨.hbm, 572, rfl⟩
abbrev main_v358 : Ref sig .tc := ⟨.hbm, 573, rfl⟩
abbrev main_c_125 : Ref sig .tc := ⟨.hbm, 574, rfl⟩
abbrev main_v359 : Ref sig .tc := ⟨.hbm, 575, rfl⟩
abbrev main_v360 : Ref sig .tc := ⟨.hbm, 576, rfl⟩
abbrev main_c_126 : Ref sig .tc := ⟨.hbm, 577, rfl⟩
abbrev main_v361 : Ref sig .tc := ⟨.hbm, 578, rfl⟩
abbrev main_v362 : Ref sig .tc := ⟨.hbm, 579, rfl⟩
abbrev main_v363 : Ref sig .tc := ⟨.hbm, 580, rfl⟩
abbrev main_c_127 : Ref sig .tc := ⟨.hbm, 581, rfl⟩
abbrev main_v364 : Ref sig .tc := ⟨.hbm, 582, rfl⟩
abbrev main_v365 : Ref sig .tc := ⟨.hbm, 583, rfl⟩
abbrev main_c_128 : Ref sig .tc := ⟨.hbm, 584, rfl⟩
abbrev main_v366 : Ref sig .tc := ⟨.hbm, 585, rfl⟩
abbrev main_v367 : Ref sig .tc := ⟨.hbm, 586, rfl⟩
abbrev main_v368 : Ref sig .tc := ⟨.hbm, 587, rfl⟩
abbrev main_c_129 : Ref sig .tc := ⟨.hbm, 588, rfl⟩
abbrev main_v369 : Ref sig .tc := ⟨.hbm, 589, rfl⟩
abbrev main_v370 : Ref sig .tc := ⟨.hbm, 590, rfl⟩
abbrev main_v371 : Ref sig .tc := ⟨.hbm, 591, rfl⟩
abbrev main_c_130 : Ref sig .tc := ⟨.hbm, 592, rfl⟩
abbrev main_v372 : Ref sig .tc := ⟨.hbm, 593, rfl⟩
abbrev main_v373 : Ref sig .tc := ⟨.hbm, 594, rfl⟩
abbrev main_v374 : Ref sig .tc := ⟨.hbm, 595, rfl⟩
abbrev main_v375 : Ref sig .tc := ⟨.hbm, 596, rfl⟩
abbrev main_c_131 : Ref sig .tc := ⟨.hbm, 597, rfl⟩
abbrev main_c_132 : Ref sig .tc := ⟨.hbm, 598, rfl⟩
abbrev main_call16_v0 : Ref sig .tc := ⟨.hbm, 599, rfl⟩
abbrev main_call16_v1 : Ref sig .tc := ⟨.hbm, 600, rfl⟩
abbrev main_call16_v2 : Ref sig .tc := ⟨.hbm, 601, rfl⟩
abbrev main_call16_v3 : Ref sig .tc := ⟨.hbm, 602, rfl⟩
abbrev main_call16_v4 : Ref sig .tc := ⟨.hbm, 603, rfl⟩
abbrev main_v376 : Ref sig .tc := ⟨.hbm, 604, rfl⟩
abbrev main_c_133 : Ref sig .tc := ⟨.hbm, 605, rfl⟩
abbrev main_c_134 : Ref sig .tc := ⟨.hbm, 606, rfl⟩
abbrev main_call17_v0 : Ref sig .tc := ⟨.hbm, 607, rfl⟩
abbrev main_call17_v1 : Ref sig .tc := ⟨.hbm, 608, rfl⟩
abbrev main_call17_v2 : Ref sig .tc := ⟨.hbm, 609, rfl⟩
abbrev main_call17_v3 : Ref sig .tc := ⟨.hbm, 610, rfl⟩
abbrev main_call17_v4 : Ref sig .tc := ⟨.hbm, 611, rfl⟩
abbrev main_v377 : Ref sig .tc := ⟨.hbm, 612, rfl⟩
abbrev main_c_135 : Ref sig .tc := ⟨.hbm, 613, rfl⟩
abbrev main_v378 : Ref sig .tc := ⟨.hbm, 614, rfl⟩
abbrev main_v379 : Ref sig .tc := ⟨.hbm, 615, rfl⟩
abbrev main_c_136 : Ref sig .tc := ⟨.hbm, 616, rfl⟩
abbrev main_v380 : Ref sig .tc := ⟨.hbm, 617, rfl⟩
abbrev main_v381 : Ref sig .tc := ⟨.hbm, 618, rfl⟩
abbrev main_v382 : Ref sig .tc := ⟨.hbm, 619, rfl⟩
abbrev main_c_137 : Ref sig .tc := ⟨.hbm, 620, rfl⟩
abbrev main_v383 : Ref sig .tc := ⟨.hbm, 621, rfl⟩
abbrev main_v384 : Ref sig .tc := ⟨.hbm, 622, rfl⟩
abbrev main_c_138 : Ref sig .tc := ⟨.hbm, 623, rfl⟩
abbrev main_v385 : Ref sig .tc := ⟨.hbm, 624, rfl⟩
abbrev main_v386 : Ref sig .tc := ⟨.hbm, 625, rfl⟩
abbrev main_v387 : Ref sig .tc := ⟨.hbm, 626, rfl⟩
abbrev main_v388 : Ref sig .tc := ⟨.hbm, 627, rfl⟩
abbrev main_v389 : Ref sig .tc := ⟨.hbm, 628, rfl⟩
abbrev main_v390 : Ref sig .tc := ⟨.hbm, 629, rfl⟩
abbrev main_v391 : Ref sig .tc := ⟨.hbm, 630, rfl⟩
abbrev main_v392 : Ref sig .tc := ⟨.hbm, 631, rfl⟩
abbrev main_v393 : Ref sig .tc := ⟨.hbm, 632, rfl⟩
abbrev main_v394 : Ref sig .tc := ⟨.hbm, 633, rfl⟩
abbrev main_v395 : Ref sig .tc := ⟨.hbm, 634, rfl⟩
abbrev main_v396 : Ref sig .tc := ⟨.hbm, 635, rfl⟩
abbrev main_v397 : Ref sig .tc := ⟨.hbm, 636, rfl⟩
abbrev main_cst_139 : Ref sig .tc := ⟨.hbm, 637, rfl⟩
abbrev main_v398 : Ref sig .tc := ⟨.hbm, 638, rfl⟩
abbrev main_v399 : Ref sig .tc := ⟨.hbm, 639, rfl⟩
abbrev main_cst_140 : Ref sig .tc := ⟨.hbm, 640, rfl⟩
abbrev main_v400 : Ref sig .tc := ⟨.hbm, 641, rfl⟩
abbrev main_v401 : Ref sig .tc := ⟨.hbm, 642, rfl⟩
abbrev main_cst_141 : Ref sig .tc := ⟨.hbm, 643, rfl⟩
abbrev main_v402 : Ref sig .tc := ⟨.hbm, 644, rfl⟩
abbrev main_v403 : Ref sig .tc := ⟨.hbm, 645, rfl⟩
abbrev main_v404 : Ref sig .tc := ⟨.hbm, 646, rfl⟩
abbrev main_v405 : Ref sig .tc := ⟨.hbm, 647, rfl⟩
abbrev main_v406 : Ref sig .tc := ⟨.hbm, 648, rfl⟩
abbrev main_cst_142 : Ref sig .tc := ⟨.hbm, 649, rfl⟩
abbrev main_v407 : Ref sig .tc := ⟨.hbm, 650, rfl⟩
abbrev main_v408 : Ref sig .tc := ⟨.hbm, 651, rfl⟩
abbrev main_c_143 : Ref sig .tc := ⟨.hbm, 652, rfl⟩
abbrev main_v409 : Ref sig .tc := ⟨.hbm, 653, rfl⟩
abbrev main_v410 : Ref sig .tc := ⟨.hbm, 654, rfl⟩
abbrev main_c_144 : Ref sig .tc := ⟨.hbm, 655, rfl⟩
abbrev main_v411 : Ref sig .tc := ⟨.hbm, 656, rfl⟩
abbrev main_v412 : Ref sig .tc := ⟨.hbm, 657, rfl⟩
abbrev main_v413 : Ref sig .tc := ⟨.hbm, 658, rfl⟩
abbrev main_v414 : Ref sig .tc := ⟨.hbm, 659, rfl⟩
abbrev main_c_145 : Ref sig .tc := ⟨.hbm, 660, rfl⟩
abbrev main_c_146 : Ref sig .tc := ⟨.hbm, 661, rfl⟩
abbrev main_call18_v0 : Ref sig .tc := ⟨.hbm, 662, rfl⟩
abbrev main_call18_v1 : Ref sig .tc := ⟨.hbm, 663, rfl⟩
abbrev main_call18_v2 : Ref sig .tc := ⟨.hbm, 664, rfl⟩
abbrev main_call18_v3 : Ref sig .tc := ⟨.hbm, 665, rfl⟩
abbrev main_call18_v4 : Ref sig .tc := ⟨.hbm, 666, rfl⟩
abbrev main_v415 : Ref sig .tc := ⟨.hbm, 667, rfl⟩
abbrev main_c_147 : Ref sig .tc := ⟨.hbm, 668, rfl⟩
abbrev main_v416 : Ref sig .tc := ⟨.hbm, 669, rfl⟩
abbrev main_v417 : Ref sig .tc := ⟨.hbm, 670, rfl⟩
abbrev main_c_148 : Ref sig .tc := ⟨.hbm, 671, rfl⟩
abbrev main_v418 : Ref sig .tc := ⟨.hbm, 672, rfl⟩
abbrev main_v419 : Ref sig .tc := ⟨.hbm, 673, rfl⟩
abbrev main_v420 : Ref sig .tc := ⟨.hbm, 674, rfl⟩
abbrev main_v421 : Ref sig .tc := ⟨.hbm, 675, rfl⟩
abbrev main_v422 : Ref sig .tc := ⟨.hbm, 676, rfl⟩
abbrev main_v423 : Ref sig .tc := ⟨.hbm, 677, rfl⟩
abbrev main_v424 : Ref sig .tc := ⟨.hbm, 678, rfl⟩
abbrev main_v425 : Ref sig .tc := ⟨.hbm, 679, rfl⟩
abbrev main_v426 : Ref sig .tc := ⟨.hbm, 680, rfl⟩
abbrev main_c_149 : Ref sig .tc := ⟨.hbm, 681, rfl⟩
abbrev main_v427 : Ref sig .tc := ⟨.hbm, 682, rfl⟩
abbrev main_v428 : Ref sig .tc := ⟨.hbm, 683, rfl⟩
abbrev main_c_150 : Ref sig .tc := ⟨.hbm, 684, rfl⟩
abbrev main_v429 : Ref sig .tc := ⟨.hbm, 685, rfl⟩
abbrev main_v430 : Ref sig .tc := ⟨.hbm, 686, rfl⟩
abbrev main_c_151 : Ref sig .tc := ⟨.hbm, 687, rfl⟩
abbrev main_v431 : Ref sig .tc := ⟨.hbm, 688, rfl⟩
abbrev main_v432 : Ref sig .tc := ⟨.hbm, 689, rfl⟩
abbrev main_v433 : Ref sig .tc := ⟨.hbm, 690, rfl⟩
abbrev main_v434 : Ref sig .tc := ⟨.hbm, 691, rfl⟩
abbrev main_c_152 : Ref sig .tc := ⟨.hbm, 692, rfl⟩
abbrev main_c_153 : Ref sig .tc := ⟨.hbm, 693, rfl⟩
abbrev main_call19_v0 : Ref sig .tc := ⟨.hbm, 694, rfl⟩
abbrev main_call19_v1 : Ref sig .tc := ⟨.hbm, 695, rfl⟩
abbrev main_call19_v2 : Ref sig .tc := ⟨.hbm, 696, rfl⟩
abbrev main_call19_v3 : Ref sig .tc := ⟨.hbm, 697, rfl⟩
abbrev main_call19_v4 : Ref sig .tc := ⟨.hbm, 698, rfl⟩
abbrev main_v435 : Ref sig .tc := ⟨.hbm, 699, rfl⟩
abbrev main_c_154 : Ref sig .tc := ⟨.hbm, 700, rfl⟩
abbrev main_v436 : Ref sig .tc := ⟨.hbm, 701, rfl⟩
abbrev main_v437 : Ref sig .tc := ⟨.hbm, 702, rfl⟩
abbrev main_c_155 : Ref sig .tc := ⟨.hbm, 703, rfl⟩
abbrev main_v438 : Ref sig .tc := ⟨.hbm, 704, rfl⟩
abbrev main_v439 : Ref sig .tc := ⟨.hbm, 705, rfl⟩
abbrev main_v440 : Ref sig .tc := ⟨.hbm, 706, rfl⟩
abbrev main_v441 : Ref sig .tc := ⟨.hbm, 707, rfl⟩
abbrev main_v442 : Ref sig .tc := ⟨.hbm, 708, rfl⟩
abbrev main_v443 : Ref sig .tc := ⟨.hbm, 709, rfl⟩
abbrev main_v444 : Ref sig .tc := ⟨.hbm, 710, rfl⟩
abbrev main_v445 : Ref sig .tc := ⟨.hbm, 711, rfl⟩
abbrev main_v446 : Ref sig .tc := ⟨.hbm, 712, rfl⟩
abbrev main_v447 : Ref sig .tc := ⟨.hbm, 713, rfl⟩
abbrev main_v448 : Ref sig .tc := ⟨.hbm, 714, rfl⟩
abbrev main_v449 : Ref sig .tc := ⟨.hbm, 715, rfl⟩
abbrev main_cst_156 : Ref sig .tc := ⟨.hbm, 716, rfl⟩
abbrev main_v450 : Ref sig .tc := ⟨.hbm, 717, rfl⟩
abbrev main_v451 : Ref sig .tc := ⟨.hbm, 718, rfl⟩
abbrev main_cst_157 : Ref sig .tc := ⟨.hbm, 719, rfl⟩
abbrev main_v452 : Ref sig .tc := ⟨.hbm, 720, rfl⟩
abbrev main_v453 : Ref sig .tc := ⟨.hbm, 721, rfl⟩
abbrev main_cst_158 : Ref sig .tc := ⟨.hbm, 722, rfl⟩
abbrev main_v454 : Ref sig .tc := ⟨.hbm, 723, rfl⟩
abbrev main_v455 : Ref sig .tc := ⟨.hbm, 724, rfl⟩
abbrev main_cst_159 : Ref sig .tc := ⟨.hbm, 725, rfl⟩
abbrev main_v456 : Ref sig .tc := ⟨.hbm, 726, rfl⟩
abbrev main_v457 : Ref sig .tc := ⟨.hbm, 727, rfl⟩
abbrev main_cst_160 : Ref sig .tc := ⟨.hbm, 728, rfl⟩
abbrev main_v458 : Ref sig .tc := ⟨.hbm, 729, rfl⟩
abbrev main_v459 : Ref sig .tc := ⟨.hbm, 730, rfl⟩
abbrev main_cst_161 : Ref sig .tc := ⟨.hbm, 731, rfl⟩
abbrev main_v460 : Ref sig .tc := ⟨.hbm, 732, rfl⟩
abbrev main_v461 : Ref sig .tc := ⟨.hbm, 733, rfl⟩
abbrev main_v462 : Ref sig .tc := ⟨.hbm, 734, rfl⟩
abbrev main_v463 : Ref sig .tc := ⟨.hbm, 735, rfl⟩
abbrev main_v464 : Ref sig .tc := ⟨.hbm, 736, rfl⟩
abbrev main_v465 : Ref sig .tc := ⟨.hbm, 737, rfl⟩
abbrev main_v466 : Ref sig .tc := ⟨.hbm, 738, rfl⟩
abbrev main_v467 : Ref sig .tc := ⟨.hbm, 739, rfl⟩
abbrev main_cst_162 : Ref sig .tc := ⟨.hbm, 740, rfl⟩
abbrev main_v468 : Ref sig .tc := ⟨.hbm, 741, rfl⟩
abbrev main_v469 : Ref sig .tc := ⟨.hbm, 742, rfl⟩
abbrev main_cst_163 : Ref sig .tc := ⟨.hbm, 743, rfl⟩
abbrev main_v470 : Ref sig .tc := ⟨.hbm, 744, rfl⟩
abbrev main_v471 : Ref sig .tc := ⟨.hbm, 745, rfl⟩
abbrev main_v472 : Ref sig .tc := ⟨.hbm, 746, rfl⟩
abbrev main_c_164 : Ref sig .tc := ⟨.hbm, 747, rfl⟩
abbrev main_v473 : Ref sig .tc := ⟨.hbm, 748, rfl⟩
abbrev main_v474 : Ref sig .tc := ⟨.hbm, 749, rfl⟩
abbrev main_c_165 : Ref sig .tc := ⟨.hbm, 750, rfl⟩
abbrev main_v475 : Ref sig .tc := ⟨.hbm, 751, rfl⟩
abbrev main_v476 : Ref sig .tc := ⟨.hbm, 752, rfl⟩
abbrev main_v477 : Ref sig .tc := ⟨.hbm, 753, rfl⟩
abbrev main_c_166 : Ref sig .tc := ⟨.hbm, 754, rfl⟩
abbrev main_v478 : Ref sig .tc := ⟨.hbm, 755, rfl⟩
abbrev main_v479 : Ref sig .tc := ⟨.hbm, 756, rfl⟩
abbrev main_v480 : Ref sig .tc := ⟨.hbm, 757, rfl⟩
abbrev main_c_167 : Ref sig .tc := ⟨.hbm, 758, rfl⟩
abbrev main_v481 : Ref sig .tc := ⟨.hbm, 759, rfl⟩
abbrev main_v482 : Ref sig .tc := ⟨.hbm, 760, rfl⟩
abbrev main_v483 : Ref sig .tc := ⟨.hbm, 761, rfl⟩
abbrev main_v484 : Ref sig .tc := ⟨.hbm, 762, rfl⟩
abbrev main_c_168 : Ref sig .tc := ⟨.hbm, 763, rfl⟩
abbrev main_c_169 : Ref sig .tc := ⟨.hbm, 764, rfl⟩
abbrev main_call20_v0 : Ref sig .tc := ⟨.hbm, 765, rfl⟩
abbrev main_call20_v1 : Ref sig .tc := ⟨.hbm, 766, rfl⟩
abbrev main_call20_v2 : Ref sig .tc := ⟨.hbm, 767, rfl⟩
abbrev main_call20_v3 : Ref sig .tc := ⟨.hbm, 768, rfl⟩
abbrev main_call20_v4 : Ref sig .tc := ⟨.hbm, 769, rfl⟩
abbrev main_v485 : Ref sig .tc := ⟨.hbm, 770, rfl⟩
abbrev main_c_170 : Ref sig .tc := ⟨.hbm, 771, rfl⟩
abbrev main_c_171 : Ref sig .tc := ⟨.hbm, 772, rfl⟩
abbrev main_call21_v0 : Ref sig .tc := ⟨.hbm, 773, rfl⟩
abbrev main_call21_v1 : Ref sig .tc := ⟨.hbm, 774, rfl⟩
abbrev main_call21_v2 : Ref sig .tc := ⟨.hbm, 775, rfl⟩
abbrev main_call21_v3 : Ref sig .tc := ⟨.hbm, 776, rfl⟩
abbrev main_call21_v4 : Ref sig .tc := ⟨.hbm, 777, rfl⟩
abbrev main_v486 : Ref sig .tc := ⟨.hbm, 778, rfl⟩
abbrev main_c_172 : Ref sig .tc := ⟨.hbm, 779, rfl⟩
abbrev main_v487 : Ref sig .tc := ⟨.hbm, 780, rfl⟩
abbrev main_v488 : Ref sig .tc := ⟨.hbm, 781, rfl⟩
abbrev main_c_173 : Ref sig .tc := ⟨.hbm, 782, rfl⟩
abbrev main_v489 : Ref sig .tc := ⟨.hbm, 783, rfl⟩
abbrev main_v490 : Ref sig .tc := ⟨.hbm, 784, rfl⟩
abbrev main_v491 : Ref sig .tc := ⟨.hbm, 785, rfl⟩
abbrev main_c_174 : Ref sig .tc := ⟨.hbm, 786, rfl⟩
abbrev main_v492 : Ref sig .tc := ⟨.hbm, 787, rfl⟩
abbrev main_v493 : Ref sig .tc := ⟨.hbm, 788, rfl⟩
abbrev main_c_175 : Ref sig .tc := ⟨.hbm, 789, rfl⟩
abbrev main_v494 : Ref sig .tc := ⟨.hbm, 790, rfl⟩
abbrev main_v495 : Ref sig .tc := ⟨.hbm, 791, rfl⟩
abbrev main_v496 : Ref sig .tc := ⟨.hbm, 792, rfl⟩
abbrev main_v497 : Ref sig .tc := ⟨.hbm, 793, rfl⟩
abbrev main_v498 : Ref sig .tc := ⟨.hbm, 794, rfl⟩
abbrev main_v499 : Ref sig .tc := ⟨.hbm, 795, rfl⟩
abbrev main_v500 : Ref sig .tc := ⟨.hbm, 796, rfl⟩
abbrev main_v501 : Ref sig .tc := ⟨.hbm, 797, rfl⟩
abbrev main_v502 : Ref sig .tc := ⟨.hbm, 798, rfl⟩
abbrev main_v503 : Ref sig .tc := ⟨.hbm, 799, rfl⟩
abbrev main_v504 : Ref sig .tc := ⟨.hbm, 800, rfl⟩
abbrev main_c_176 : Ref sig .tc := ⟨.hbm, 801, rfl⟩
abbrev main_v505 : Ref sig .tc := ⟨.hbm, 802, rfl⟩
abbrev main_v506 : Ref sig .tc := ⟨.hbm, 803, rfl⟩
abbrev main_cst_177 : Ref sig .tc := ⟨.hbm, 804, rfl⟩
abbrev main_v507 : Ref sig .tc := ⟨.hbm, 805, rfl⟩
abbrev main_v508 : Ref sig .tc := ⟨.hbm, 806, rfl⟩
abbrev main_v509 : Ref sig .tc := ⟨.hbm, 807, rfl⟩
abbrev main_c_178 : Ref sig .tc := ⟨.hbm, 808, rfl⟩
abbrev main_v510 : Ref sig .tc := ⟨.hbm, 809, rfl⟩
abbrev main_v511 : Ref sig .tc := ⟨.hbm, 810, rfl⟩
abbrev main_c_179 : Ref sig .tc := ⟨.hbm, 811, rfl⟩
abbrev main_v512 : Ref sig .tc := ⟨.hbm, 812, rfl⟩
abbrev main_v513 : Ref sig .tc := ⟨.hbm, 813, rfl⟩
abbrev main_v514 : Ref sig .tc := ⟨.hbm, 814, rfl⟩
abbrev main_c_180 : Ref sig .tc := ⟨.hbm, 815, rfl⟩
abbrev main_v515 : Ref sig .tc := ⟨.hbm, 816, rfl⟩
abbrev main_v516 : Ref sig .tc := ⟨.hbm, 817, rfl⟩
abbrev main_v517 : Ref sig .tc := ⟨.hbm, 818, rfl⟩
abbrev main_c_181 : Ref sig .tc := ⟨.hbm, 819, rfl⟩
abbrev main_v518 : Ref sig .tc := ⟨.hbm, 820, rfl⟩
abbrev main_v519 : Ref sig .tc := ⟨.hbm, 821, rfl⟩
abbrev main_v520 : Ref sig .tc := ⟨.hbm, 822, rfl⟩
abbrev main_v521 : Ref sig .tc := ⟨.hbm, 823, rfl⟩
abbrev main_c_182 : Ref sig .tc := ⟨.hbm, 824, rfl⟩
abbrev main_c_183 : Ref sig .tc := ⟨.hbm, 825, rfl⟩
abbrev main_call22_v0 : Ref sig .tc := ⟨.hbm, 826, rfl⟩
abbrev main_call22_v1 : Ref sig .tc := ⟨.hbm, 827, rfl⟩
abbrev main_call22_v2 : Ref sig .tc := ⟨.hbm, 828, rfl⟩
abbrev main_call22_v3 : Ref sig .tc := ⟨.hbm, 829, rfl⟩
abbrev main_call22_v4 : Ref sig .tc := ⟨.hbm, 830, rfl⟩
abbrev main_v522 : Ref sig .tc := ⟨.hbm, 831, rfl⟩
abbrev main_c_184 : Ref sig .tc := ⟨.hbm, 832, rfl⟩
abbrev main_c_185 : Ref sig .tc := ⟨.hbm, 833, rfl⟩
abbrev main_call23_v0 : Ref sig .tc := ⟨.hbm, 834, rfl⟩
abbrev main_call23_v1 : Ref sig .tc := ⟨.hbm, 835, rfl⟩
abbrev main_call23_v2 : Ref sig .tc := ⟨.hbm, 836, rfl⟩
abbrev main_call23_v3 : Ref sig .tc := ⟨.hbm, 837, rfl⟩
abbrev main_call23_v4 : Ref sig .tc := ⟨.hbm, 838, rfl⟩
abbrev main_v523 : Ref sig .tc := ⟨.hbm, 839, rfl⟩
abbrev main_c_186 : Ref sig .tc := ⟨.hbm, 840, rfl⟩
abbrev main_v524 : Ref sig .tc := ⟨.hbm, 841, rfl⟩
abbrev main_v525 : Ref sig .tc := ⟨.hbm, 842, rfl⟩
abbrev main_c_187 : Ref sig .tc := ⟨.hbm, 843, rfl⟩
abbrev main_v526 : Ref sig .tc := ⟨.hbm, 844, rfl⟩
abbrev main_v527 : Ref sig .tc := ⟨.hbm, 845, rfl⟩
abbrev main_v528 : Ref sig .tc := ⟨.hbm, 846, rfl⟩
abbrev main_c_188 : Ref sig .tc := ⟨.hbm, 847, rfl⟩
abbrev main_v529 : Ref sig .tc := ⟨.hbm, 848, rfl⟩
abbrev main_v530 : Ref sig .tc := ⟨.hbm, 849, rfl⟩
abbrev main_c_189 : Ref sig .tc := ⟨.hbm, 850, rfl⟩
abbrev main_v531 : Ref sig .tc := ⟨.hbm, 851, rfl⟩
abbrev main_v532 : Ref sig .tc := ⟨.hbm, 852, rfl⟩
abbrev main_v533 : Ref sig .tc := ⟨.hbm, 853, rfl⟩
abbrev main_v534 : Ref sig .tc := ⟨.hbm, 854, rfl⟩
abbrev main_v535 : Ref sig .tc := ⟨.hbm, 855, rfl⟩
abbrev main_v536 : Ref sig .tc := ⟨.hbm, 856, rfl⟩
abbrev main_v537 : Ref sig .tc := ⟨.hbm, 857, rfl⟩
abbrev main_v538 : Ref sig .tc := ⟨.hbm, 858, rfl⟩
abbrev main_v539 : Ref sig .tc := ⟨.hbm, 859, rfl⟩
abbrev main_v540 : Ref sig .tc := ⟨.hbm, 860, rfl⟩
abbrev main_v541 : Ref sig .tc := ⟨.hbm, 861, rfl⟩
abbrev main_v542 : Ref sig .tc := ⟨.hbm, 862, rfl⟩
abbrev main_c_190 : Ref sig .tc := ⟨.hbm, 863, rfl⟩
abbrev main_v543 : Ref sig .tc := ⟨.hbm, 864, rfl⟩
abbrev main_v544 : Ref sig .tc := ⟨.hbm, 865, rfl⟩
abbrev main_cst_191 : Ref sig .tc := ⟨.hbm, 866, rfl⟩
abbrev main_v545 : Ref sig .tc := ⟨.hbm, 867, rfl⟩
abbrev main_v546 : Ref sig .tc := ⟨.hbm, 868, rfl⟩
abbrev main_v547 : Ref sig .tc := ⟨.hbm, 869, rfl⟩
abbrev main_c_192 : Ref sig .tc := ⟨.hbm, 870, rfl⟩
abbrev main_v548 : Ref sig .tc := ⟨.hbm, 871, rfl⟩
abbrev main_v549 : Ref sig .tc := ⟨.hbm, 872, rfl⟩
abbrev main_c_193 : Ref sig .tc := ⟨.hbm, 873, rfl⟩
abbrev main_v550 : Ref sig .tc := ⟨.hbm, 874, rfl⟩
abbrev main_v551 : Ref sig .tc := ⟨.hbm, 875, rfl⟩
abbrev main_v552 : Ref sig .tc := ⟨.hbm, 876, rfl⟩
abbrev main_c_194 : Ref sig .tc := ⟨.hbm, 877, rfl⟩
abbrev main_v553 : Ref sig .tc := ⟨.hbm, 878, rfl⟩
abbrev main_v554 : Ref sig .tc := ⟨.hbm, 879, rfl⟩
abbrev main_v555 : Ref sig .tc := ⟨.hbm, 880, rfl⟩
abbrev main_c_195 : Ref sig .tc := ⟨.hbm, 881, rfl⟩
abbrev main_v556 : Ref sig .tc := ⟨.hbm, 882, rfl⟩
abbrev main_v557 : Ref sig .tc := ⟨.hbm, 883, rfl⟩
abbrev main_v558 : Ref sig .tc := ⟨.hbm, 884, rfl⟩
abbrev main_v559 : Ref sig .tc := ⟨.hbm, 885, rfl⟩
abbrev main_c_196 : Ref sig .tc := ⟨.hbm, 886, rfl⟩
abbrev main_c_197 : Ref sig .tc := ⟨.hbm, 887, rfl⟩
abbrev main_call24_v0 : Ref sig .tc := ⟨.hbm, 888, rfl⟩
abbrev main_call24_v1 : Ref sig .tc := ⟨.hbm, 889, rfl⟩
abbrev main_call24_v2 : Ref sig .tc := ⟨.hbm, 890, rfl⟩
abbrev main_call24_v3 : Ref sig .tc := ⟨.hbm, 891, rfl⟩
abbrev main_call24_v4 : Ref sig .tc := ⟨.hbm, 892, rfl⟩
abbrev main_v560 : Ref sig .tc := ⟨.hbm, 893, rfl⟩
abbrev main_c_198 : Ref sig .tc := ⟨.hbm, 894, rfl⟩
abbrev main_c_199 : Ref sig .tc := ⟨.hbm, 895, rfl⟩
abbrev main_call25_v0 : Ref sig .tc := ⟨.hbm, 896, rfl⟩
abbrev main_call25_v1 : Ref sig .tc := ⟨.hbm, 897, rfl⟩
abbrev main_call25_v2 : Ref sig .tc := ⟨.hbm, 898, rfl⟩
abbrev main_call25_v3 : Ref sig .tc := ⟨.hbm, 899, rfl⟩
abbrev main_call25_v4 : Ref sig .tc := ⟨.hbm, 900, rfl⟩
abbrev main_v561 : Ref sig .tc := ⟨.hbm, 901, rfl⟩
abbrev main_c_200 : Ref sig .tc := ⟨.hbm, 902, rfl⟩
abbrev main_v562 : Ref sig .tc := ⟨.hbm, 903, rfl⟩
abbrev main_v563 : Ref sig .tc := ⟨.hbm, 904, rfl⟩
abbrev main_c_201 : Ref sig .tc := ⟨.hbm, 905, rfl⟩
abbrev main_v564 : Ref sig .tc := ⟨.hbm, 906, rfl⟩
abbrev main_v565 : Ref sig .tc := ⟨.hbm, 907, rfl⟩
abbrev main_v566 : Ref sig .tc := ⟨.hbm, 908, rfl⟩
abbrev main_c_202 : Ref sig .tc := ⟨.hbm, 909, rfl⟩
abbrev main_v567 : Ref sig .tc := ⟨.hbm, 910, rfl⟩
abbrev main_v568 : Ref sig .tc := ⟨.hbm, 911, rfl⟩
abbrev main_c_203 : Ref sig .tc := ⟨.hbm, 912, rfl⟩
abbrev main_v569 : Ref sig .tc := ⟨.hbm, 913, rfl⟩
abbrev main_v570 : Ref sig .tc := ⟨.hbm, 914, rfl⟩
abbrev main_v571 : Ref sig .tc := ⟨.hbm, 915, rfl⟩
abbrev main_v572 : Ref sig .tc := ⟨.hbm, 916, rfl⟩
abbrev main_v573 : Ref sig .tc := ⟨.hbm, 917, rfl⟩
abbrev main_v574 : Ref sig .tc := ⟨.hbm, 918, rfl⟩
abbrev main_v575 : Ref sig .tc := ⟨.hbm, 919, rfl⟩
abbrev main_v576 : Ref sig .tc := ⟨.hbm, 920, rfl⟩
abbrev main_v577 : Ref sig .tc := ⟨.hbm, 921, rfl⟩
abbrev main_v578 : Ref sig .tc := ⟨.hbm, 922, rfl⟩
abbrev main_v579 : Ref sig .tc := ⟨.hbm, 923, rfl⟩
abbrev main_v580 : Ref sig .tc := ⟨.hbm, 924, rfl⟩
abbrev main_c_204 : Ref sig .tc := ⟨.hbm, 925, rfl⟩
abbrev main_v581 : Ref sig .tc := ⟨.hbm, 926, rfl⟩
abbrev main_v582 : Ref sig .tc := ⟨.hbm, 927, rfl⟩
abbrev main_c_205 : Ref sig .tc := ⟨.hbm, 928, rfl⟩
abbrev main_v583 : Ref sig .tc := ⟨.hbm, 929, rfl⟩
abbrev main_v584 : Ref sig .tc := ⟨.hbm, 930, rfl⟩
abbrev main_v585 : Ref sig .tc := ⟨.hbm, 931, rfl⟩
abbrev main_c_206 : Ref sig .tc := ⟨.hbm, 932, rfl⟩
abbrev main_v586 : Ref sig .tc := ⟨.hbm, 933, rfl⟩
abbrev main_v587 : Ref sig .tc := ⟨.hbm, 934, rfl⟩
abbrev main_c_207 : Ref sig .tc := ⟨.hbm, 935, rfl⟩
abbrev main_v588 : Ref sig .tc := ⟨.hbm, 936, rfl⟩
abbrev main_v589 : Ref sig .tc := ⟨.hbm, 937, rfl⟩
abbrev main_v590 : Ref sig .tc := ⟨.hbm, 938, rfl⟩
abbrev main_c_208 : Ref sig .tc := ⟨.hbm, 939, rfl⟩
abbrev main_v591 : Ref sig .tc := ⟨.hbm, 940, rfl⟩
abbrev main_v592 : Ref sig .tc := ⟨.hbm, 941, rfl⟩
abbrev main_v593 : Ref sig .tc := ⟨.hbm, 942, rfl⟩
abbrev main_c_209 : Ref sig .tc := ⟨.hbm, 943, rfl⟩
abbrev main_v594 : Ref sig .tc := ⟨.hbm, 944, rfl⟩
abbrev main_v595 : Ref sig .tc := ⟨.hbm, 945, rfl⟩
abbrev main_v596 : Ref sig .tc := ⟨.hbm, 946, rfl⟩
abbrev main_v597 : Ref sig .tc := ⟨.hbm, 947, rfl⟩
abbrev main_c_210 : Ref sig .tc := ⟨.hbm, 948, rfl⟩
abbrev main_c_211 : Ref sig .tc := ⟨.hbm, 949, rfl⟩
abbrev main_call26_v0 : Ref sig .tc := ⟨.hbm, 950, rfl⟩
abbrev main_call26_v1 : Ref sig .tc := ⟨.hbm, 951, rfl⟩
abbrev main_call26_v2 : Ref sig .tc := ⟨.hbm, 952, rfl⟩
abbrev main_call26_v3 : Ref sig .tc := ⟨.hbm, 953, rfl⟩
abbrev main_call26_v4 : Ref sig .tc := ⟨.hbm, 954, rfl⟩
abbrev main_v598 : Ref sig .tc := ⟨.hbm, 955, rfl⟩
abbrev main_c_212 : Ref sig .tc := ⟨.hbm, 956, rfl⟩
abbrev main_c_213 : Ref sig .tc := ⟨.hbm, 957, rfl⟩
abbrev main_call27_v0 : Ref sig .tc := ⟨.hbm, 958, rfl⟩
abbrev main_call27_v1 : Ref sig .tc := ⟨.hbm, 959, rfl⟩
abbrev main_call27_v2 : Ref sig .tc := ⟨.hbm, 960, rfl⟩
abbrev main_call27_v3 : Ref sig .tc := ⟨.hbm, 961, rfl⟩
abbrev main_call27_v4 : Ref sig .tc := ⟨.hbm, 962, rfl⟩
abbrev main_v599 : Ref sig .tc := ⟨.hbm, 963, rfl⟩
abbrev main_c_214 : Ref sig .tc := ⟨.hbm, 964, rfl⟩
abbrev main_v600 : Ref sig .tc := ⟨.hbm, 965, rfl⟩
abbrev main_v601 : Ref sig .tc := ⟨.hbm, 966, rfl⟩
abbrev main_c_215 : Ref sig .tc := ⟨.hbm, 967, rfl⟩
abbrev main_v602 : Ref sig .tc := ⟨.hbm, 968, rfl⟩
abbrev main_v603 : Ref sig .tc := ⟨.hbm, 969, rfl⟩
abbrev main_v604 : Ref sig .tc := ⟨.hbm, 970, rfl⟩
abbrev main_c_216 : Ref sig .tc := ⟨.hbm, 971, rfl⟩
abbrev main_v605 : Ref sig .tc := ⟨.hbm, 972, rfl⟩
abbrev main_v606 : Ref sig .tc := ⟨.hbm, 973, rfl⟩
abbrev main_c_217 : Ref sig .tc := ⟨.hbm, 974, rfl⟩
abbrev main_v607 : Ref sig .tc := ⟨.hbm, 975, rfl⟩
abbrev main_v608 : Ref sig .tc := ⟨.hbm, 976, rfl⟩
abbrev main_v609 : Ref sig .tc := ⟨.hbm, 977, rfl⟩
abbrev main_v610 : Ref sig .tc := ⟨.hbm, 978, rfl⟩
abbrev main_v611 : Ref sig .tc := ⟨.hbm, 979, rfl⟩
abbrev main_v612 : Ref sig .tc := ⟨.hbm, 980, rfl⟩
abbrev main_v613 : Ref sig .tc := ⟨.hbm, 981, rfl⟩
abbrev main_v614 : Ref sig .tc := ⟨.hbm, 982, rfl⟩
abbrev main_v615 : Ref sig .tc := ⟨.hbm, 983, rfl⟩
abbrev main_v616 : Ref sig .tc := ⟨.hbm, 984, rfl⟩
abbrev main_v617 : Ref sig .tc := ⟨.hbm, 985, rfl⟩
abbrev main_v618 : Ref sig .tc := ⟨.hbm, 986, rfl⟩
abbrev main_v619 : Ref sig .tc := ⟨.hbm, 987, rfl⟩
abbrev main_cst_218 : Ref sig .tc := ⟨.hbm, 988, rfl⟩
abbrev main_v620 : Ref sig .tc := ⟨.hbm, 989, rfl⟩
abbrev main_v621 : Ref sig .tc := ⟨.hbm, 990, rfl⟩
abbrev main_cst_219 : Ref sig .tc := ⟨.hbm, 991, rfl⟩
abbrev main_v622 : Ref sig .tc := ⟨.hbm, 992, rfl⟩
abbrev main_v623 : Ref sig .tc := ⟨.hbm, 993, rfl⟩
abbrev main_cst_220 : Ref sig .tc := ⟨.hbm, 994, rfl⟩
abbrev main_v624 : Ref sig .tc := ⟨.hbm, 995, rfl⟩
abbrev main_v625 : Ref sig .tc := ⟨.hbm, 996, rfl⟩
abbrev main_v626 : Ref sig .tc := ⟨.hbm, 997, rfl⟩
abbrev main_v627 : Ref sig .tc := ⟨.hbm, 998, rfl⟩
abbrev main_v628 : Ref sig .tc := ⟨.hbm, 999, rfl⟩
abbrev main_cst_221 : Ref sig .tc := ⟨.hbm, 1000, rfl⟩
abbrev main_v629 : Ref sig .tc := ⟨.hbm, 1001, rfl⟩
abbrev main_v630 : Ref sig .tc := ⟨.hbm, 1002, rfl⟩
abbrev main_c_222 : Ref sig .tc := ⟨.hbm, 1003, rfl⟩
abbrev main_v631 : Ref sig .tc := ⟨.hbm, 1004, rfl⟩
abbrev main_v632 : Ref sig .tc := ⟨.hbm, 1005, rfl⟩
abbrev main_c_223 : Ref sig .tc := ⟨.hbm, 1006, rfl⟩
abbrev main_v633 : Ref sig .tc := ⟨.hbm, 1007, rfl⟩
abbrev main_v634 : Ref sig .tc := ⟨.hbm, 1008, rfl⟩
abbrev main_v635 : Ref sig .tc := ⟨.hbm, 1009, rfl⟩
abbrev main_v636 : Ref sig .tc := ⟨.hbm, 1010, rfl⟩
abbrev main_c_224 : Ref sig .tc := ⟨.hbm, 1011, rfl⟩
abbrev main_c_225 : Ref sig .tc := ⟨.hbm, 1012, rfl⟩
abbrev main_call28_v0 : Ref sig .tc := ⟨.hbm, 1013, rfl⟩
abbrev main_call28_v1 : Ref sig .tc := ⟨.hbm, 1014, rfl⟩
abbrev main_call28_v2 : Ref sig .tc := ⟨.hbm, 1015, rfl⟩
abbrev main_call28_v3 : Ref sig .tc := ⟨.hbm, 1016, rfl⟩
abbrev main_call28_v4 : Ref sig .tc := ⟨.hbm, 1017, rfl⟩
abbrev main_v637 : Ref sig .tc := ⟨.hbm, 1018, rfl⟩
abbrev main_c_226 : Ref sig .tc := ⟨.hbm, 1019, rfl⟩
abbrev main_v638 : Ref sig .tc := ⟨.hbm, 1020, rfl⟩
abbrev main_v639 : Ref sig .tc := ⟨.hbm, 1021, rfl⟩
abbrev main_c_227 : Ref sig .tc := ⟨.hbm, 1022, rfl⟩
abbrev main_v640 : Ref sig .tc := ⟨.hbm, 1023, rfl⟩
abbrev main_v641 : Ref sig .tc := ⟨.hbm, 1024, rfl⟩
abbrev main_v642 : Ref sig .tc := ⟨.hbm, 1025, rfl⟩
abbrev main_v643 : Ref sig .tc := ⟨.hbm, 1026, rfl⟩
abbrev main_v644 : Ref sig .tc := ⟨.hbm, 1027, rfl⟩
abbrev main_v645 : Ref sig .tc := ⟨.hbm, 1028, rfl⟩
abbrev main_v646 : Ref sig .tc := ⟨.hbm, 1029, rfl⟩
abbrev main_v647 : Ref sig .tc := ⟨.hbm, 1030, rfl⟩
abbrev main_v648 : Ref sig .tc := ⟨.hbm, 1031, rfl⟩
abbrev main_c_228 : Ref sig .tc := ⟨.hbm, 1032, rfl⟩
abbrev main_v649 : Ref sig .tc := ⟨.hbm, 1033, rfl⟩
abbrev main_v650 : Ref sig .tc := ⟨.hbm, 1034, rfl⟩
abbrev main_c_229 : Ref sig .tc := ⟨.hbm, 1035, rfl⟩
abbrev main_v651 : Ref sig .tc := ⟨.hbm, 1036, rfl⟩
abbrev main_v652 : Ref sig .tc := ⟨.hbm, 1037, rfl⟩
abbrev main_c_230 : Ref sig .tc := ⟨.hbm, 1038, rfl⟩
abbrev main_v653 : Ref sig .tc := ⟨.hbm, 1039, rfl⟩
abbrev main_v654 : Ref sig .tc := ⟨.hbm, 1040, rfl⟩
abbrev main_v655 : Ref sig .tc := ⟨.hbm, 1041, rfl⟩
abbrev main_v656 : Ref sig .tc := ⟨.hbm, 1042, rfl⟩
abbrev main_c_231 : Ref sig .tc := ⟨.hbm, 1043, rfl⟩
abbrev main_c_232 : Ref sig .tc := ⟨.hbm, 1044, rfl⟩
abbrev main_call29_v0 : Ref sig .tc := ⟨.hbm, 1045, rfl⟩
abbrev main_call29_v1 : Ref sig .tc := ⟨.hbm, 1046, rfl⟩
abbrev main_call29_v2 : Ref sig .tc := ⟨.hbm, 1047, rfl⟩
abbrev main_call29_v3 : Ref sig .tc := ⟨.hbm, 1048, rfl⟩
abbrev main_call29_v4 : Ref sig .tc := ⟨.hbm, 1049, rfl⟩
abbrev main_v657 : Ref sig .tc := ⟨.hbm, 1050, rfl⟩
abbrev main_c_233 : Ref sig .tc := ⟨.hbm, 1051, rfl⟩
abbrev main_v658 : Ref sig .tc := ⟨.hbm, 1052, rfl⟩
abbrev main_v659 : Ref sig .tc := ⟨.hbm, 1053, rfl⟩
abbrev main_c_234 : Ref sig .tc := ⟨.hbm, 1054, rfl⟩
abbrev main_v660 : Ref sig .tc := ⟨.hbm, 1055, rfl⟩
abbrev main_v661 : Ref sig .tc := ⟨.hbm, 1056, rfl⟩
abbrev main_v662 : Ref sig .tc := ⟨.hbm, 1057, rfl⟩
abbrev main_v663 : Ref sig .tc := ⟨.hbm, 1058, rfl⟩
abbrev main_v664 : Ref sig .tc := ⟨.hbm, 1059, rfl⟩
abbrev main_v665 : Ref sig .tc := ⟨.hbm, 1060, rfl⟩
abbrev main_v666 : Ref sig .tc := ⟨.hbm, 1061, rfl⟩
abbrev main_v667 : Ref sig .tc := ⟨.hbm, 1062, rfl⟩
abbrev main_v668 : Ref sig .tc := ⟨.hbm, 1063, rfl⟩
abbrev main_v669 : Ref sig .tc := ⟨.hbm, 1064, rfl⟩
abbrev main_v670 : Ref sig .tc := ⟨.hbm, 1065, rfl⟩
abbrev main_v671 : Ref sig .tc := ⟨.hbm, 1066, rfl⟩
abbrev main_v672 : Ref sig .tc := ⟨.hbm, 1067, rfl⟩
abbrev main_v673 : Ref sig .tc := ⟨.hbm, 1068, rfl⟩

abbrev nD : Nat := 1
abbrev τ : Topo := Topo.v7x

variable {F : FTy → Type} [FloatOps F]

class Facts₀ : Prop where
  slices_S1x2097152x3_S1x2097152x1_0_0_0 : S1x2097152x3.Slices ![0, 0, 0] S1x2097152x1
  shapeCasts_S1x2097152x1_S1x2097152 : S1x2097152x1.ShapeCasts S1x2097152
  slices_S1x2097152x3_S1x2097152x1_0_0_1 : S1x2097152x3.Slices ![0, 0, 1] S1x2097152x1
  slices_S1x2097152x3_S1x2097152x1_0_0_2 : S1x2097152x3.Slices ![0, 0, 2] S1x2097152x1
  bcast_S_S1x2097152 : S_.BroadcastsInDim S1x2097152 (![] : Fin 0 → Fin S1x2097152.rank)
  bcast_S1x2097152_S1x2097152x1_0_1 : S1x2097152.BroadcastsInDim S1x2097152x1 (![0, 1] : Fin 2 → Fin S1x2097152x1.rank)
  concatenates_S1x2097152x1_S1x2097152x1_S1x2097152x2_d2 : Shape.Concatenates [S1x2097152x1, S1x2097152x1] S1x2097152x2 2
  bcast_S1x2097152_S1x1x2097152_0_2 : S1x2097152.BroadcastsInDim S1x1x2097152 (![0, 2] : Fin 2 → Fin S1x1x2097152.rank)
  bcast_S1x1x2097152_S1x16x2097152_0_1_2 : S1x1x2097152.BroadcastsInDim S1x16x2097152 (![0, 1, 2] : Fin 3 → Fin S1x16x2097152.rank)
  transposes_S1x16x2097152_S1x2097152x16_0_2_1 : S1x16x2097152.Transposes [0, 2, 1] S1x2097152x16
  concatenates_S1x2097152x16_S1x2097152x16_S1x2097152x16_S1x2097152x48_d2 : Shape.Concatenates [S1x2097152x16, S1x2097152x16, S1x2097152x16] S1x2097152x48 2
  gather_S1x16x320x320_S1x2097152x2_S1x16x2097152_1_23_0_0_23_2_11611_wf : GatherDims.WF S1x16x320x320 S1x2097152x2 S1x16x2097152 [1] [2, 3] [0] [2, 3] [0] 2 ![1, 16, 1, 1]
  gather_S1x16x320_S1x2097152x1_S1x16x2097152_1_2_0_0_2_2_1161_wf : GatherDims.WF S1x16x320 S1x2097152x1 S1x16x2097152 [1] [2] [0] [2] [0] 2 ![1, 16, 1]
  dot_S1x2097152x48_S1x48x27_S1x2097152x27_2_1_1_2_0_0_wf : DotDims.WF S1x2097152x48 S1x48x27 S1x2097152x27 [2] [1] [1] [2] [0] [0]

variable [Facts₀]

def gather_S1x16x320x320_S1x2097152x2_S1x16x2097152_1_23_0_0_23_2_11611 : GatherDims S1x16x320x320 S1x2097152x2 S1x16x2097152 where
  offsetDims := [1]
  collapsedSliceDims := [2, 3]
  operandBatchingDims := [0]
  startIndicesBatchingDims := [0]
  startIndexMap := [2, 3]
  indexVectorDim := 2
  sliceSizes := ![1, 16, 1, 1]
  wf := gather_S1x16x320x320_S1x2097152x2_S1x16x2097152_1_23_0_0_23_2_11611_wf
def gather_S1x16x320_S1x2097152x1_S1x16x2097152_1_2_0_0_2_2_1161 : GatherDims S1x16x320 S1x2097152x1 S1x16x2097152 where
  offsetDims := [1]
  collapsedSliceDims := [2]
  operandBatchingDims := [0]
  startIndicesBatchingDims := [0]
  startIndexMap := [2]
  indexVectorDim := 2
  sliceSizes := ![1, 16, 1]
  wf := gather_S1x16x320_S1x2097152x1_S1x16x2097152_1_2_0_0_2_2_1161_wf
def dot_S1x2097152x48_S1x48x27_S1x2097152x27_2_1_1_2_0_0 : DotDims S1x2097152x48 S1x48x27 S1x2097152x27 where
  lhsContracting := [2]
  rhsContracting := [1]
  lhsNonContracting := [1]
  rhsNonContracting := [2]
  lhsBatch := [0]
  rhsBatch := [0]
  wf := dot_S1x2097152x48_S1x48x27_S1x2097152x27_2_1_1_2_0_0_wf

class Facts : Prop extends Facts₀ where

variable [Facts]
-- ==== Proof.ReferenceProducts.lean ====
/-
  The reference's three products, read off its line of operations.

  The reference is a straight line of host operations; after any execution each buffer holds the fold of the operations'
  results over the launch contents. Read at the buffer of a product (a transposed plane sample times a transposed line
  sample) that fold is the composition of the operations that feed it: the product's stage as a function of the
  arguments. Each of the three readings walks its own third of the sampling once, independently of the others.
-/
import proofs.«147507_j48223892799832_2_alg».proof.Proof.PatchedRunReference
import proofs.«147507_j48223892799832_2_alg».proof.Proof.PatchedReadReference
import Idealize.ShloMosaic.Lib.StableHlo.Run
import Idealize.ShloMosaic.PureOps.Ideal

set_option maxRecDepth 16384
set_option maxHeartbeats 400000000

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.ValueP

variable (m : (ℓ : Loc nD τ sig) → Buf (Elt Ideal) ℓ)

/-- The fold at the first product's buffer (plane xy × line z, transposed) is its stage of the arguments. -/
theorem product1_read (c : Dev nD) :
    (after (ops (F := Ideal)) (launchContents m c) (Proc.devRef .tc main_v227))
      = Cert.ReferenceIdeal.ReadP.val_main_v227 (F := Ideal) (m ((c.tc : Thread nD τ).loc main_arg0)) (m ((c.tc : Thread nD τ).loc main_arg1)) (m ((c.tc : Thread nD τ).loc main_arg6)) := by
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- The fold at the second product's buffer (plane xz × line y) is its stage of the arguments. -/
theorem product2_read (c : Dev nD) :
    (after (ops (F := Ideal)) (launchContents m c) (Proc.devRef .tc main_v449))
      = Cert.ReferenceIdeal.ReadP.val_main_v449 (F := Ideal) (m ((c.tc : Thread nD τ).loc main_arg0)) (m ((c.tc : Thread nD τ).loc main_arg3)) (m ((c.tc : Thread nD τ).loc main_arg5)) := by
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- The fold at the third product's buffer (plane yz × line x) is its stage of the arguments. -/
theorem product3_read (c : Dev nD) :
    (after (ops (F := Ideal)) (launchContents m c) (Proc.devRef .tc main_v671))
      = Cert.ReferenceIdeal.ReadP.val_main_v671 (F := Ideal) (m ((c.tc : Thread nD τ).loc main_arg0)) (m ((c.tc : Thread nD τ).loc main_arg2)) (m ((c.tc : Thread nD τ).loc main_arg4)) := by
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

end Cert.ReferenceIdeal.RefRun

end
-- ==== Proof.LibNary3.lean ====
/-
  A host operation with THREE operands given as a literal family, read at its result buffer.

  The straight-line host programs are lists of operations built by `nullary`, `unary`, `binary`, … and, for an
  operation with a family of operands (a concatenation of several arrays), by `nary xs y f`: the result buffer `y` then
  holds `f` of the operands' contents, `f (fun k => F (xs k))`. Stated that way each operand's contents stands under
  the binder `k`, at the reference `xs k`, which is no literal reference: a proof that goes on to read the operands'
  own contents cannot rewrite there. For a literal family of three references `![x, a, b]` the same value is

      f (x's contents, a's contents, b's contents)

  with each operand's contents at its own literal reference — the family spelt with `Fin.cons`. This is the three-operand
  companion of the library's four-operand form of the same fact (a concatenation of three arrays along an axis, where the
  library has the one of four); the two statements and proofs differ only in the number of operands.
-/
import Idealize.ShloMosaic.Lib.StableHlo.Run

namespace Idealize.ShloMosaic.StableHlo

open Idealize.ShloMosaic Idealize.SL.Sem

variable {τ : Topo} {sig : RefSig} {Val : EltTy → Type}
variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left un-indexed, for use as a `simp` lemma beside the library's result lemmas. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.ReferenceTop.lean ====
/-
  The reference's last two operations, and its arguments, read off its line of operations.

  On top of the three products the reference concatenates them on the channel axis and contracts that axis with the basis
  matrix. Read at the result buffer, the fold of the whole line is therefore the contraction, with the basis as launched,
  of the concatenation of what the three product buffers hold: the last two operations are read at their own result
  buffers, and every other step only passes an operation that does not write the buffer being looked up. Read at an
  argument buffer the fold is the launch contents, since no operation writes an argument; and no operation allocates.
-/
import proofs.«147507_j48223892799832_2_alg».proof.Proof.PatchedRunReference
import proofs.«147507_j48223892799832_2_alg».proof.Proof.LibNary3
import Idealize.ShloMosaic.Lib.StableHlo.Run
import Idealize.ShloMosaic.PureOps.Ideal

set_option maxRecDepth 16384
set_option maxHeartbeats 400000000

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.ValueP

variable (m : (ℓ : Loc nD τ sig) → Buf (Elt Ideal) ℓ)

/-- No operation of the reference allocates a buffer: each determines its results. -/
theorem ops_fresh : (ops (F := Ideal)).Forall fun op => op.fresh = ∅ := by
  simp only [List.Forall]; repeat' constructor

/-- The last two operations only: the result buffer holds the contraction, with the basis as launched, of the
    concatenation of what the three product buffers hold. The last two operations are read at their result buffers; every
    other step only passes an operation that does not write the buffer looked up, on both sides alike, so the three
    products' own contents are never opened here. -/
theorem result_top (c : Dev nD) :
    (after (ops (F := Ideal)) (launchContents m c) (Proc.devRef .tc main_v673))
      = Host.dotGeneral (F := Ideal) (φ₁ := .f32) (φ₂ := .f32) dot_S1x2097152x48_S1x48x27_S1x2097152x27_2_1_1_2_0_0 none
          (concatenate S1x2097152x48 2
            [⟨S1x2097152x16, (after (ops (F := Ideal)) (launchContents m c) (Proc.devRef .tc main_v227))⟩,
             ⟨S1x2097152x16, (after (ops (F := Ideal)) (launchContents m c) (Proc.devRef .tc main_v449))⟩,
             ⟨S1x2097152x16, (after (ops (F := Ideal)) (launchContents m c) (Proc.devRef .tc main_v671))⟩]
            concatenates_S1x2097152x16_S1x2097152x16_S1x2097152x16_S1x2097152x48_d2)
          (m ((c.tc : Thread nD τ).loc main_arg7)) := by
  simp only [after_cons, after_nil]
  rw [binary_result, nary3_result]
  simp (disch := decide) only [nullary_result_ne', unary_result_ne', binary_result_ne', ternary_result_ne', quaternary_result_ne', reshape_result_ne',
      nary_result_ne', unaryIndexed_result_ne', binaryIndexed_result_ne']
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- No operation writes argument 0: it ends as launched. -/
theorem kept0 (c : Dev nD) :
    after (ops (F := Ideal)) (launchContents m c) (Proc.devRef .tc main_arg0) = m ((c.tc : Thread nD τ).loc main_arg0) := by
  after_results_simp <;> rfl

/-- No operation writes argument 1: it ends as launched. -/
theorem kept1 (c : Dev nD) :
    after (ops (F := Ideal)) (launchContents m c) (Proc.devRef .tc main_arg1) = m ((c.tc : Thread nD τ).loc main_arg1) := by
  after_results_simp <;> rfl

/-- No operation writes argument 2: it ends as launched. -/
theorem kept2 (c : Dev nD) :
    after (ops (F := Ideal)) (launchContents m c) (Proc.devRef .tc main_arg2) = m ((c.tc : Thread nD τ).loc main_arg2) := by
  after_results_simp <;> rfl

/-- No operation writes argument 3: it ends as launched. -/
theorem kept3 (c : Dev nD) :
    after (ops (F := Ideal)) (launchContents m c) (Proc.devRef .tc main_arg3) = m ((c.tc : Thread nD τ).loc main_arg3) := by
  after_results_simp <;> rfl

/-- No operation writes argument 4: it ends as launched. -/
theorem kept4 (c : Dev nD) :
    after (ops (F := Ideal)) (launchContents m c) (Proc.devRef .tc main_arg4) = m ((c.tc : Thread nD τ).loc main_arg4) := by
  after_results_simp <;> rfl

/-- No operation writes argument 5: it ends as launched. -/
theorem kept5 (c : Dev nD) :
    after (ops (F := Ideal)) (launchContents m c) (Proc.devRef .tc main_arg5) = m ((c.tc : Thread nD τ).loc main_arg5) := by
  after_results_simp <;> rfl

/-- No operation writes argument 6: it ends as launched. -/
theorem kept6 (c : Dev nD) :
    after (ops (F := Ideal)) (launchContents m c) (Proc.devRef .tc main_arg6) = m ((c.tc : Thread nD τ).loc main_arg6) := by
  after_results_simp <;> rfl

/-- No operation writes argument 7: it ends as launched. -/
theorem kept7 (c : Dev nD) :
    after (ops (F := Ideal)) (launchContents m c) (Proc.devRef .tc main_arg7) = m ((c.tc : Thread nD τ).loc main_arg7) := by
  after_results_simp <;> rfl

end Cert.ReferenceIdeal.RefRun

end
-- ==== Proof.ReferenceRun.lean ====
/-
  The reference's run, with its result named by its last stage — the assembly.

  Every execution of a straight line of host operations ends with each buffer at the fold of the operations' results over
  the launch contents. ReferenceTop reads that fold at the result buffer down to the three product buffers and at the
  eight argument buffers; ReferenceProducts reads it at the three product buffers. Put together, the result is the
  reference's last stage applied to the arguments as launched, and the arguments are unchanged.
-/
import proofs.«147507_j48223892799832_2_alg».proof.Proof.PatchedRunReference
import proofs.«147507_j48223892799832_2_alg».proof.Proof.PatchedReadReference
import proofs.«147507_j48223892799832_2_alg».proof.Proof.ReferenceProducts
import proofs.«147507_j48223892799832_2_alg».proof.Proof.ReferenceTop
import Idealize.ShloMosaic.Lib.StableHlo.Run
import Idealize.ShloMosaic.PureOps.Ideal

set_option maxRecDepth 16384
set_option maxHeartbeats 400000000

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.ValueP

variable (m : (ℓ : Loc nD τ sig) → Buf (Elt Ideal) ℓ) (ρ : Dev nD → PrngReg)

/-- The fold at the result buffer is the last stage, applied to the arguments as launched. -/
theorem result_read (c : Dev nD) :
    (after (ops (F := Ideal)) (launchContents m c) (Proc.devRef .tc main_v673))
      = Cert.ReferenceIdeal.ReadP.val_main_v673 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  rw [result_top m c, product1_read m c, product2_read m c, product3_read m c]
  rfl

/-- THE REFERENCE'S RUN: the result at its last stage of the arguments, the arguments unchanged. -/
theorem run : θ_run defs (onTc (τ := τ) (main (F := Ideal))) ⟨m, fun _ => 0, ρ⟩ fun r => ∀ c : Dev nD,
      r.2.mem ((c.tc : Thread nD τ).loc main_v673)
        = Cert.ReferenceIdeal.ReadP.val_main_v673 (F := Ideal) (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v673).trans (result_read m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c)⟩)
    (run_seq scopedRefs_eq scopedSems_eq defs main (fun _ => ops) main_eq (fun _ => ops_sub) m ρ
      (hfresh := fun _ => List.forall_iff_forall_mem.mp ops_fresh))

end Cert.ReferenceIdeal.RefRun

end
-- ==== Proof.MatmulBody.lean ====
/-
  One grid step of the kernel at the exact values.

  The body loads three feature tiles `x₀ x₁ x₂` of shape 16 × 32768 (channel × point) and the three 16 × 27 slices
  `b₀ b₁ b₂` of the basis (channel × output feature), and stores

      (x₀ᵀ b₀ + x₁ᵀ b₁) + x₂ᵀ b₂        of shape 32768 × 27,

  each product a matrix product into a zero accumulator that contracts the CHANNEL axis — axis 0 of both operands.
  Read at the exact values a matrix product has no rounding and no order of accumulation left in it: its entry at
  (point p, feature q) is `∑ k < 16, x (k, p) · b (k, q)`. So the stored entry at (p, q) is the three such sums, added
  in the order the body adds them. The changes of float format around the products are the identity at the exact
  values, and the shape casts in the body are casts of a shape to itself.
-/
import proofs.«147507_j48223892799832_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Idealize.ShloMosaic Cert.KernelIdeal Cert.KernelIdeal.Gen

/-! ## The operand indices of the product that contracts axis 0 of both operands -/

/-- The left operand is read at (contraction index, output row): its axis 0 is the contracted one … -/
theorem lhs_contr (j : S32768x27.Idx) (q : dot_S16x32768_S16x27_S32768x27_0_0_1_1_n_n.contr.Idx) :
    (dot_S16x32768_S16x27_S32768x27_0_0_1_1_n_n.lhsIdx j q 0).val = (q ⟨0, by decide⟩).val :=
  dot_S16x32768_S16x27_S32768x27_0_0_1_1_n_n.lhsIdx_val_of_single rfl j q

/-- … and its axis 1 carries the output's row (the point). -/
theorem lhs_free (j : S32768x27.Idx) (q : dot_S16x32768_S16x27_S32768x27_0_0_1_1_n_n.contr.Idx) :
    (dot_S16x32768_S16x27_S32768x27_0_0_1_1_n_n.lhsIdx j q 1).val = (j 0).val := by
  unfold DotDims.lhsIdx
  rw [dif_neg (show ¬(1 : Fin S16x32768.rank) ∈ dot_S16x32768_S16x27_S32768x27_0_0_1_1_n_n.lhsBatch by decide),
    dif_pos (show (1 : Fin S16x32768.rank) ∈ dot_S16x32768_S16x27_S32768x27_0_0_1_1_n_n.lhsNonContracting by decide)]
  rfl

/-- The right operand is read at (contraction index, output column): its axis 0 is the contracted one … -/
theorem rhs_contr (j : S32768x27.Idx) (q : dot_S16x32768_S16x27_S32768x27_0_0_1_1_n_n.contr.Idx) :
    (dot_S16x32768_S16x27_S32768x27_0_0_1_1_n_n.rhsIdx j q 0).val = (q ⟨0, by decide⟩).val :=
  dot_S16x32768_S16x27_S32768x27_0_0_1_1_n_n.rhsIdx_val_of_single rfl j q

/-- … and its axis 1 carries the output's column (the output feature). -/
theorem rhs_free (j : S32768x27.Idx) (q : dot_S16x32768_S16x27_S32768x27_0_0_1_1_n_n.contr.Idx) :
    (dot_S16x32768_S16x27_S32768x27_0_0_1_1_n_n.rhsIdx j q 1).val = (j 1).val := by
  unfold DotDims.rhsIdx
  rw [dif_neg (show ¬(1 : Fin S16x27.rank) ∈ dot_S16x32768_S16x27_S32768x27_0_0_1_1_n_n.rhsBatch by decide),
    dif_pos (show (1 : Fin S16x27.rank) ∈ dot_S16x32768_S16x27_S32768x27_0_0_1_1_n_n.rhsNonContracting by decide)]
  rfl

/-! ## One product, then the three -/

/-- A product into the zero accumulator, at (point `p`, feature `q`): the sum over the sixteen channels. -/
theorem product_at (x : FVec Ideal S16x32768 .bf16) (b : FVec Ideal S16x27 .bf16) (p : Fin 32768) (q : Fin 27) :
    matmul dot_S16x32768_S16x27_S32768x27_0_0_1_1_n_n none x b (constant (F := Ideal) S32768x27 .f32 0x00000000#32)
        (ValueIdx.ix2 p q)
      = ∑ k : Fin 16, x (ValueIdx.ix2 k p) * b (ValueIdx.ix2 k q) := by
  simp only [matmul]
  rw [Ideal.matmul_constant_zero_apply,
    ← Equiv.sum_comp (ValueIdx.contrEquiv1 dot_S16x32768_S16x27_S32768x27_0_0_1_1_n_n 16 rfl rfl).symm]
  refine Finset.sum_congr rfl fun k _ => ?_
  have hk := ValueIdx.contrEquiv1_symm_val dot_S16x32768_S16x27_S32768x27_0_0_1_1_n_n 16 rfl rfl k
  have el : dot_S16x32768_S16x27_S32768x27_0_0_1_1_n_n.lhsIdx (ValueIdx.ix2 p q)
        ((ValueIdx.contrEquiv1 dot_S16x32768_S16x27_S32768x27_0_0_1_1_n_n 16 rfl rfl).symm k) = ValueIdx.ix2 k p :=
    funext fun a => Fin.ext (by
      match a with
      | ⟨0, _⟩ => exact (lhs_contr _ _).trans hk
      | ⟨1, _⟩ => exact lhs_free _ _)
  have er : dot_S16x32768_S16x27_S32768x27_0_0_1_1_n_n.rhsIdx (ValueIdx.ix2 p q)
        ((ValueIdx.contrEquiv1 dot_S16x32768_S16x27_S32768x27_0_0_1_1_n_n 16 rfl rfl).symm k) = ValueIdx.ix2 k q :=
    funext fun a => Fin.ext (by
      match a with
      | ⟨0, _⟩ => exact (rhs_contr _ _).trans hk
      | ⟨1, _⟩ => exact rhs_free _ _)
  rw [el, er]

/-- The stored value at (point `p`, feature `q`): the three channel sums, in the body's order of addition. -/
theorem payload_at (x0 x1 x2 : Vec Ideal S16x32768 .bf16) (b0 b1 b2 : Vec Ideal S16x27 .bf16) (p : Fin 32768) (q : Fin 27) :
    k0_pay1 (F := Ideal) x0 b0 x1 b1 x2 b2 (ValueIdx.ix2 p q)
      = (∑ k : Fin 16, x0 (ValueIdx.ix2 k p) * b0 (ValueIdx.ix2 k q)
          + ∑ k : Fin 16, x1 (ValueIdx.ix2 k p) * b1 (ValueIdx.ix2 k q))
        + ∑ k : Fin 16, x2 (ValueIdx.ix2 k p) * b2 (ValueIdx.ix2 k q) := by
  unfold k0_pay1
  simp only [shapeCast_self]
  rw [ValueIdx.addf_apply, ValueIdx.addf_apply, product_at, product_at, product_at]

end Cert.KernelIdeal.Body

end
-- ==== Proof.RegionValue.lean ====
/-
  What the kernel's one region leaves in its output array, as one function of the six arrays it reads.

  The region runs the body at 64 grid points. At point `t` it reads columns [32768 t, 32768 (t+1)) of each feature array
  (all sixteen channel rows) and the three basis slices whole, and writes rows [32768 t, 32768 (t+1)) of the output (all 27
  columns). So the output's entry at (point n, feature f) is written exactly once, by the point `n / 32768`, and there it is
  the body's value at (n mod 32768, f):

      out (n, f) = (∑ k<16, A (k, n) · a (k, f) + ∑ k<16, B (k, n) · b (k, f)) + ∑ k<16, C (k, n) · c (k, f)

  with A B C the feature arrays and a b c the basis slices, as the region finds them. The blocks tile the output, so this
  describes the whole array after the run.
-/
import proofs.«147507_j48223892799832_2_alg».proof.Proof.PatchedFrameKernelIdeal
import proofs.«147507_j48223892799832_2_alg».proof.Proof.MatmulBody
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

/-- The region's result as a function of the three feature arrays (channel × point) and the three basis slices
    (channel × feature): at (point, feature) the three channel sums, added left to right. -/
def mix (A B C : S16x2097152.Idx → EReal) (a b c : S16x27.Idx → EReal) : S2097152x27.Idx → EReal := fun i =>
  (∑ k : Fin 16, A (ValueIdx.ix2 k (⟨(i 0).val, (i 0).isLt⟩ : Fin 2097152)) * a (ValueIdx.ix2 k (⟨(i 1).val, (i 1).isLt⟩ : Fin 27))
    + ∑ k : Fin 16, B (ValueIdx.ix2 k (⟨(i 0).val, (i 0).isLt⟩ : Fin 2097152)) * b (ValueIdx.ix2 k (⟨(i 1).val, (i 1).isLt⟩ : Fin 27)))
  + ∑ k : Fin 16, C (ValueIdx.ix2 k (⟨(i 0).val, (i 0).isLt⟩ : Fin 2097152)) * c (ValueIdx.ix2 k (⟨(i 1).val, (i 1).isLt⟩ : Fin 27))

theorem origin2 : (![0, 0] : Fin 2 → Nat) = fun _ => 0 := funext fun a => by fin_cases a <;> rfl

/-- Where each window's block sits at grid point `t`: a feature block is all channels of column block `t`, a basis
    slice is whole, and the output block is row block `t` across all columns. -/
theorem block_positions : ∀ t : Fin cfg0.N,
    win0_0.index t (0 : Fin 2) = 0 ∧ win0_0.index t (1 : Fin 2) = win0_6.index t (0 : Fin 2)
    ∧ win0_1.index t (0 : Fin 2) = 0 ∧ win0_1.index t (1 : Fin 2) = win0_6.index t (0 : Fin 2)
    ∧ win0_2.index t (0 : Fin 2) = 0 ∧ win0_2.index t (1 : Fin 2) = win0_6.index t (0 : Fin 2)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 63 :=
  (by decide +kernel : ∀ t : Fin grid0.N, _)

/-- Every row block of the output is some point's. -/
theorem every_row_block : ∀ q0 : Fin 64, ∃ t : Fin cfg0.N, win0_6.index t = ![q0.val, 0] :=
  (by decide +kernel : ∀ q0 : Fin 64, ∃ t : Fin grid0.N, win0_6.index t = ![q0.val, 0])

/-- A feature window's block at point `t`, read at (channel k, column p): the array at (k, 32768 · t + p). -/
theorem feature_block (X : S16x2097152.Idx → EReal) (i0 i1 o0 : Nat) (h0 : i0 = 0) (h1 : i1 = o0) (k : Fin 16) (p : Fin 32768)
    (e : S16x2097152.Idx) (he0 : (e 0).val = i0 * 16 + 1 * k.val) (he1 : (e 1).val = i1 * 32768 + 1 * p.val)
    (n : Fin 2097152) (hn : n.val = o0 * 32768 + 1 * p.val) : X e = X (ValueIdx.ix2 k n) := by
  refine congrArg X (funext fun a => Fin.ext ?_)
  match a with
  | ⟨0, _⟩ => show (e 0).val = k.val; omega
  | ⟨1, _⟩ => show (e 1).val = n.val; omega

/-- A basis window's block (the whole slice), read at (channel k, feature q). -/
theorem basis_block (Y : S16x27.Idx → EReal) (i0 i1 : Nat) (h0 : i0 = 0) (h1 : i1 = 0) (k : Fin 16) (q : Fin 27)
    (e : S16x27.Idx) (he0 : (e 0).val = i0 * 16 + 1 * k.val) (he1 : (e 1).val = i1 * 27 + 1 * q.val)
    (f : Fin 27) (hf : f.val = 0 * 27 + 1 * q.val) : Y e = Y (ValueIdx.ix2 k f) := by
  refine congrArg Y (funext fun a => Fin.ext ?_)
  match a with
  | ⟨0, _⟩ => show (e 0).val = k.val; omega
  | ⟨1, _⟩ => show (e 1).val = f.val; omega

/-- What the body leaves in the output window's buffer, at (point p, feature q) of the block, for ANY six loaded blocks:
    the three channel sums. (Stated over plain vectors; the region's blocks are put in afterwards.) -/
theorem out_at (x0 x1 x2 : Vec Ideal S16x32768 .bf16) (x3 x4 x5 : Vec Ideal S16x27 .bf16) (p : Fin 32768) (q : Fin 27) :
    out0_6 (F := Ideal) x0 x1 x2 x3 x4 x5 (ValueIdx.ix2 p q)
      = (∑ k : Fin 16, x0 (ValueIdx.ix2 k p) * x3 (ValueIdx.ix2 k q)
          + ∑ k : Fin 16, x1 (ValueIdx.ix2 k p) * x4 (ValueIdx.ix2 k q))
        + ∑ k : Fin 16, x2 (ValueIdx.ix2 k p) * x5 (ValueIdx.ix2 k q) := by
  unfold out0_6
  rw [View.canon_unit_zero origin2]
  simp only [View.ld_unit_zero (S := S16x32768) origin2, View.ld_unit_zero (S := S16x27) origin2]
  exact Body.payload_at x0 x1 x2 x3 x4 x5 p q

/-- ONE GRID POINT, for ANY six arrays: what the body leaves in the output window's buffer from the six blocks at point `t`
    is block `t` of `mix` of the arrays. Pure index arithmetic: a block's coordinate is block index × block size + the
    coordinate inside the block, and the decided block positions say which blocks these are. -/
theorem point_block (A B C : S16x2097152.Idx → EReal) (a b c : S16x27.Idx → EReal) (t : Fin cfg0.N) :
    (cfg0.win 6).cut (grid0.coords t)
        (out0_6 (F := Ideal) (((cfg0.win 0).blk t).view.read (Elt Ideal) A) (((cfg0.win 1).blk t).view.read (Elt Ideal) B) (((cfg0.win 2).blk t).view.read (Elt Ideal) C)
          (((cfg0.win 3).blk t).view.read (Elt Ideal) a) (((cfg0.win 4).blk t).view.read (Elt Ideal) b) (((cfg0.win 5).blk t).view.read (Elt Ideal) c))
      = ((cfg0.win 6).blk t).view.read (Elt Ideal) (mix A B C a b c) := by
  obtain ⟨a0, a1, b0, b1, c0, c1, d0, d1, e0, e1, f0, f1, g1, g0⟩ := block_positions t
  funext j
  obtain ⟨p, q, rfl⟩ : ∃ (p : Fin 32768) (q : Fin 27), j = ValueIdx.ix2 p q := ⟨j 0, j 1, ValueIdx.eq_ix2 j⟩
  refine (out_at _ _ _ _ _ _ p q).trans ?_
  show _ = mix A B C a b c (((cfg0.win 6).blk t).view.emb (ValueIdx.ix2 p q))
  unfold mix
  have hn : ((((cfg0.win 6).blk t).view.emb (ValueIdx.ix2 p q)) 0).val = win0_6.index t (0 : Fin 2) * 32768 + 1 * p.val := rfl
  have hf : ((((cfg0.win 6).blk t).view.emb (ValueIdx.ix2 p q)) 1).val = win0_6.index t (1 : Fin 2) * 27 + 1 * q.val := rfl
  refine congrArg₂ (· + ·) (congrArg₂ (· + ·) ?_ ?_) ?_
  · refine Finset.sum_congr rfl fun k _ => congrArg₂ (· * ·) ?_ ?_
    · exact feature_block A _ _ _ a0 a1 k p _ rfl rfl _ hn
    · exact basis_block a _ _ d0 d1 k q _ rfl rfl _ (by rw [hf, g1])
  · refine Finset.sum_congr rfl fun k _ => congrArg₂ (· * ·) ?_ ?_
    · exact feature_block B _ _ _ b0 b1 k p _ rfl rfl _ hn
    · exact basis_block b _ _ e0 e1 k q _ rfl rfl _ (by rw [hf, g1])
  · refine Finset.sum_congr rfl fun k _ => congrArg₂ (· * ·) ?_ ?_
    · exact feature_block C _ _ _ c0 c1 k p _ rfl rfl _ hn
    · exact basis_block c _ _ f0 f1 k q _ rfl rfl _ (by rw [hf, g1])

/-- The region's output array on core `c`: `mix` of the six arrays its windows stage, as the region finds them. -/
def out (c : Dev nD) : S2097152x27.Idx → EReal :=
  mix (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT `t` WRITES BACK is block `t` of the region's output. -/
theorem flushed_eq (c : Dev nD) (t : Fin cfg0.N) :
    (dats m 0 c).flushed 6 t = ((cfg0.win 6).blk t).view.read (Elt Ideal) (out m c) := by
  show (cfg0.win 6).cut (grid0.coords t) ((dats m 0 c).after 6 t) = _
  rw [after0_6]
  unfold iblk out
  exact point_block (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- An index of the output is in point `t`'s block iff each coordinate is in the block's range on its axis. -/
theorem mem_block (t : Fin cfg0.N) (i : S2097152x27.Idx) :
    i ∈ ((cfg0.win 6).blk t).view.set ↔ ∀ a : Fin 2, win0_6.index t a * S32768x27.size a ≤ (i a).val
      ∧ (i a).val < win0_6.index t a * S32768x27.size a + S32768x27.size a := by
  show i ∈ ((View.whole main_v677).slice (win0_6.rect t)).set ↔ _
  rw [View.set_slice_whole, Rect.mem_set_unit]
  exact Iff.rfl

/-- The blocks tile the output: row `n` lies in the block of point `n / 32768`, which is written back. -/
theorem covered (i : S2097152x27.Idx) :
    ∃ t : Fin cfg0.N, (cfg0.win 6).flush t = true ∧ i ∈ ((cfg0.win 6).blk t).view.set := by
  have hi0 : (i 0).val < 2097152 := (i 0).isLt
  have hi1 : (i 1).val < 27 := (i 1).isLt
  obtain ⟨t, ht⟩ := every_row_block ⟨(i 0).val / 32768, by omega⟩
  have q0 : win0_6.index t (0 : Fin 2) = (i 0).val / 32768 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 32768 ≤ (i 0).val ∧ (i 0).val < win0_6.index t (0 : Fin 2) * 32768 + 32768
    omega
  | ⟨1, _⟩ =>
    show win0_6.index t (1 : Fin 2) * 27 ≤ (i 1).val ∧ (i 1).val < win0_6.index t (1 : Fin 2) * 27 + 27
    omega

/-- THE OUTPUT ARRAY after the region is `out`: every index is written, once, with `mix` of the six arrays. -/
theorem final (c : Dev nD) : (dats m 0 c).arrAt 6 cfg0.N = out m c :=
  (dats m 0 c).arrAt_eq_of_cover 6 _ (fun t _ => flushed_eq m c t) covered

end Cert.KernelIdeal.Region

end
-- ==== Proof.KernelRun.lean ====
/-
  The kernel's run with its result named.

  After the region the host code only adds a unit batch axis in front of the region's output array (a reshape from
  (point, feature) to (1, point, feature)); no host line after the region writes an argument array. So every execution
  of the kernel's program ends with the result buffer at that reshape of the region's output — the function
  `mix` of the six arrays the region reads, named `Region.out` — and with the eight arguments as they were launched.
-/
import proofs.«147507_j48223892799832_2_alg».proof.Proof.PatchedFrameKernelIdeal
import proofs.«147507_j48223892799832_2_alg».proof.Proof.RegionValue
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- What the host line after the region leaves in the result buffer: the region's output with a batch axis in front. -/
theorem tail_result (c : Dev nD) :
    Pipeline.afterTail₀ cfgs (dats m) 0 (V0 m) [hostOps1] c main_v678
      = shapeCast S1x2097152x27 (Region.out m c) shapeCasts_S2097152x27_S1x2097152x27 := by
  unfold Pipeline.afterTail₀
  show StableHlo.after hostOps1 (Pipeline.withArrays spec0 c (V0 m c) fun w => (dats m 0 c).arrAt w cfg0.N)
    (Proc.devRef .tc main_v678) = _
  have hw : Pipeline.withArrays spec0 c (V0 m c) (fun w => (dats m 0 c).arrAt w cfg0.N) (Proc.devRef .tc main_v677)
      = Region.out m c :=
    (Pipeline.withArrays_arr spec0 launch0.win.arr_inj c (V0 m c) (fun w => (dats m 0 c).arrAt w cfg0.N) 6).trans
      (Region.final m c)
  generalize Pipeline.withArrays spec0 c (V0 m c) (fun w => (dats m 0 c).arrAt w cfg0.N) = W at hw ⊢
  after_results
  rw [hw]
  rfl

/-- THE KERNEL'S RUN: the result at the reshaped `mix`, the arguments unchanged. -/
theorem run : θ_run defs (onTc (τ := τ) (main (F := Ideal))) ⟨m, fun _ => 0, ρ⟩ (fun r => ∀ c : Dev nD,
      r.2.mem ((c.tc : Thread nD τ).loc main_v678)
        = shapeCast S1x2097152x27 (Region.out m c) shapeCasts_S2097152x27_S1x2097152x27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v678 (Pipeline.mem_restRefs_of main_v678 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Run

end
-- ==== Proof.KernelHead.lean ====
/-
  The six arrays the region reads, as the host code before it computes them from the arguments.

  Before the region the kernel's host code does what the reference does — it samples the three plane tables and the three
  line tables at every point, by the same operations in the same order on the same arguments — and then, where the
  reference transposes each sample, multiplies plane by line in the untransposed layout, drops the batch axis and changes
  the float format; and it cuts the basis matrix into its three runs of sixteen rows.

  So each of the kernel's six sample buffers holds exactly the value of the reference's corresponding stage, as a
  function of the argument arrays: both are the same composition of the same operations. Nothing here looks inside that
  composition: the two are one term, and the only content of this file is which stage each buffer is —

      plane xy : the reference's stage 174      line z : stage 225
      plane xz : stage 396                      line y : stage 447
      plane yz : stage 618                      line x : stage 669.
-/
import proofs.«147507_j48223892799832_2_alg».proof.Proof.PatchedFrameKernelIdeal
import proofs.«147507_j48223892799832_2_alg».proof.Proof.PatchedReadReference
import Idealize.ShloMosaic.Lib.StableHlo.Run
import Idealize.ShloMosaic.PureOps.Ideal

set_option maxRecDepth 16384
set_option maxHeartbeats 400000000

noncomputable section

namespace Cert.KernelIdeal.Head

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ)

/-- The first feature array: plane xy times line z, without the batch axis. -/
theorem feature_xy_z (c : Dev nD) :
    V m c main_v665
      = truncf (F := Ideal) .bf16 (shapeCast S16x2097152
          (mulf (F := Ideal) (φ := .f32)
            (Cert.ReferenceIdeal.ReadP.val_main_v174 (F := Ideal) (m ((c : Thread nD τ).loc main_arg0)) (m ((c : Thread nD τ).loc main_arg1)))
            (Cert.ReferenceIdeal.ReadP.val_main_v225 (F := Ideal) (m ((c : Thread nD τ).loc main_arg0)) (m ((c : Thread nD τ).loc main_arg6))))
          shapeCasts_S1x16x2097152_S16x2097152) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- The second feature array: plane xz times line y. -/
theorem feature_xz_y (c : Dev nD) :
    V m c main_v668
      = truncf (F := Ideal) .bf16 (shapeCast S16x2097152
          (mulf (F := Ideal) (φ := .f32)
            (Cert.ReferenceIdeal.ReadP.val_main_v396 (F := Ideal) (m ((c : Thread nD τ).loc main_arg0)) (m ((c : Thread nD τ).loc main_arg3)))
            (Cert.ReferenceIdeal.ReadP.val_main_v447 (F := Ideal) (m ((c : Thread nD τ).loc main_arg0)) (m ((c : Thread nD τ).loc main_arg5))))
          shapeCasts_S1x16x2097152_S16x2097152) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- The third feature array: plane yz times line x. -/
theorem feature_yz_x (c : Dev nD) :
    V m c main_v671
      = truncf (F := Ideal) .bf16 (shapeCast S16x2097152
          (mulf (F := Ideal) (φ := .f32)
            (Cert.ReferenceIdeal.ReadP.val_main_v618 (F := Ideal) (m ((c : Thread nD τ).loc main_arg0)) (m ((c : Thread nD τ).loc main_arg2)))
            (Cert.ReferenceIdeal.ReadP.val_main_v669 (F := Ideal) (m ((c : Thread nD τ).loc main_arg0)) (m ((c : Thread nD τ).loc main_arg4))))
          shapeCasts_S1x16x2097152_S16x2097152) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- Rows 0 … 15 of the basis matrix. -/
theorem basis_rows0 (c : Dev nD) :
    V m c main_v674
      = extractStridedSlice S16x27 ![0, 0]
          (truncf (F := Ideal) .bf16 (shapeCast S48x27 (m ((c : Thread nD τ).loc main_arg7)) shapeCasts_S1x48x27_S48x27) bitsLt_bf16_f32)
          slices_S48x27_S16x27_0_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- Rows 16 … 31 of the basis matrix. -/
theorem basis_rows1 (c : Dev nD) :
    V m c main_v675
      = extractStridedSlice S16x27 ![16, 0]
          (truncf (F := Ideal) .bf16 (shapeCast S48x27 (m ((c : Thread nD τ).loc main_arg7)) shapeCasts_S1x48x27_S48x27) bitsLt_bf16_f32)
          slices_S48x27_S16x27_16_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-- Rows 32 … 47 of the basis matrix. -/
theorem basis_rows2 (c : Dev nD) :
    V m c main_v676
      = extractStridedSlice S16x27 ![32, 0]
          (truncf (F := Ideal) .bf16 (shapeCast S48x27 (m ((c : Thread nD τ).loc main_arg7)) shapeCasts_S1x48x27_S48x27) bitsLt_bf16_f32)
          slices_S48x27_S16x27_32_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60,
    List.flatten_cons, List.flatten_nil, List.append_nil, List.cons_append, List.nil_append]
  after_results_simp
  -- both sides are one and the same composition of the same operations applied to the same arguments, once every
  -- definition is unfolded: the equation holds by reflexivity
  run_tac do
    let g ← Lean.Elab.Tactic.getMainGoal
    let t ← Lean.instantiateMVars (← g.getType)
    let some (_, lhs, _) := t.eq? | Lean.throwError "not an equation"
    g.assign (← Lean.Meta.mkExpectedTypeHint (← Lean.Meta.mkEqRefl lhs) t)

/-! ## The same six facts, with each buffer named as the window that stages it

The region's proof data names a window's array by the window (`Pipeline.arrRef spec0 w`), the host code by the buffer. The two
names are one reference; the contents at equal references are equal. (Stated heterogeneously, because the type of a buffer's
contents depends on the reference: this way the fold behind `V` is never opened to compare the two spellings.) -/

theorem contents_congr (c : Dev nD) {b b' : Ref sig .tc} (h : b = b') : HEq (V m c b) (V m c b') := by
  subst h; rfl

/-- Window 0's array (the buffer `main_v665`), in the spelling the region's proof data uses. -/
theorem window0 (c : Dev nD) :
    V m c (Pipeline.arrRef spec0 0)
      = truncf (F := Ideal) .bf16 (shapeCast S16x2097152
          (mulf (F := Ideal) (φ := .f32)
            (Cert.ReferenceIdeal.ReadP.val_main_v174 (F := Ideal) (m ((c : Thread nD τ).loc main_arg0)) (m ((c : Thread nD τ).loc main_arg1)))
            (Cert.ReferenceIdeal.ReadP.val_main_v225 (F := Ideal) (m ((c : Thread nD τ).loc main_arg0)) (m ((c : Thread nD τ).loc main_arg6))))
          shapeCasts_S1x16x2097152_S16x2097152) bitsLt_bf16_f32 :=
  (eq_of_heq (contents_congr m c (rfl : Pipeline.arrRef spec0 0 = main_v665))).trans (feature_xy_z m c)

/-- Window 1's array (the buffer `main_v668`), in the spelling the region's proof data uses. -/
theorem window1 (c : Dev nD) :
    V m c (Pipeline.arrRef spec0 1)
      = truncf (F := Ideal) .bf16 (shapeCast S16x2097152
          (mulf (F := Ideal) (φ := .f32)
            (Cert.ReferenceIdeal.ReadP.val_main_v396 (F := Ideal) (m ((c : Thread nD τ).loc main_arg0)) (m ((c : Thread nD τ).loc main_arg3)))
            (Cert.ReferenceIdeal.ReadP.val_main_v447 (F := Ideal) (m ((c : Thread nD τ).loc main_arg0)) (m ((c : Thread nD τ).loc main_arg5))))
          shapeCasts_S1x16x2097152_S16x2097152) bitsLt_bf16_f32 :=
  (eq_of_heq (contents_congr m c (rfl : Pipeline.arrRef spec0 1 = main_v668))).trans (feature_xz_y m c)

/-- Window 2's array (the buffer `main_v671`), in the spelling the region's proof data uses. -/
theorem window2 (c : Dev nD) :
    V m c (Pipeline.arrRef spec0 2)
      = truncf (F := Ideal) .bf16 (shapeCast S16x2097152
          (mulf (F := Ideal) (φ := .f32)
            (Cert.ReferenceIdeal.ReadP.val_main_v618 (F := Ideal) (m ((c : Thread nD τ).loc main_arg0)) (m ((c : Thread nD τ).loc main_arg2)))
            (Cert.ReferenceIdeal.ReadP.val_main_v669 (F := Ideal) (m ((c : Thread nD τ).loc main_arg0)) (m ((c : Thread nD τ).loc main_arg4))))
          shapeCasts_S1x16x2097152_S16x2097152) bitsLt_bf16_f32 :=
  (eq_of_heq (contents_congr m c (rfl : Pipeline.arrRef spec0 2 = main_v671))).trans (feature_yz_x m c)

/-- Window 3's array (the buffer `main_v674`), in the spelling the region's proof data uses. -/
theorem window3 (c : Dev nD) :
    V m c (Pipeline.arrRef spec0 3)
      = extractStridedSlice S16x27 ![0, 0]
          (truncf (F := Ideal) .bf16 (shapeCast S48x27 (m ((c : Thread nD τ).loc main_arg7)) shapeCasts_S1x48x27_S48x27) bitsLt_bf16_f32)
          slices_S48x27_S16x27_0_0 :=
  (eq_of_heq (contents_congr m c (rfl : Pipeline.arrRef spec0 3 = main_v674))).trans (basis_rows0 m c)

/-- Window 4's array (the buffer `main_v675`), in the spelling the region's proof data uses. -/
theorem window4 (c : Dev nD) :
    V m c (Pipeline.arrRef spec0 4)
      = extractStridedSlice S16x27 ![16, 0]
          (truncf (F := Ideal) .bf16 (shapeCast S48x27 (m ((c : Thread nD τ).loc main_arg7)) shapeCasts_S1x48x27_S48x27) bitsLt_bf16_f32)
          slices_S48x27_S16x27_16_0 :=
  (eq_of_heq (contents_congr m c (rfl : Pipeline.arrRef spec0 4 = main_v675))).trans (basis_rows1 m c)

/-- Window 5's array (the buffer `main_v676`), in the spelling the region's proof data uses. -/
theorem window5 (c : Dev nD) :
    V m c (Pipeline.arrRef spec0 5)
      = extractStridedSlice S16x27 ![32, 0]
          (truncf (F := Ideal) .bf16 (shapeCast S48x27 (m ((c : Thread nD τ).loc main_arg7)) shapeCasts_S1x48x27_S48x27) bitsLt_bf16_f32)
          slices_S48x27_S16x27_32_0 :=
  (eq_of_heq (contents_congr m c (rfl : Pipeline.arrRef spec0 5 = main_v676))).trans (basis_rows2 m c)

end Cert.KernelIdeal.Head

end
-- ==== Proof.WindowArrays.lean ====
/-
  The six arrays the region reads, at an index, in terms of the values the host code made them from.

  Before the region the host code multiplies each plane sample by its line sample in layout (batch 1, channel 16, point),
  drops the unit batch axis — a reshape, which keeps the row-major position, so entry (k, n) of the result is entry
  (g, k, n) of the product for the one batch index g — and changes the float format, which is the identity at the exact
  values. So a feature array at (k, n) is P (g, k, n) · L (g, k, n).

  The basis matrix, of shape (1, 48, 27), likewise loses its batch axis and changes format, and is then cut into its three
  runs of sixteen rows: slice number s at (k, f) is the basis at (g, 16 s + k, f).
-/
import proofs.«147507_j48223892799832_2_alg».proof.Proof.Gen.KernelIdeal
import Idealize.ShloMosaic.Lib.Pipeline.Value
import Idealize.ShloMosaic.Lib.ValueIdx

noncomputable section

namespace Cert.KernelIdeal.WindowArrays

open Idealize.ShloMosaic Cert.KernelIdeal Cert.KernelIdeal.Gen

/-- A feature array at (channel k, point n): the product of the two samples at (g, k, n). -/
theorem feature_at (P L : S1x16x2097152.Idx → EReal) (g : Fin 1) (k : Fin 16) (n : Fin 2097152) :
    (truncf (F := Ideal) .bf16 (shapeCast S16x2097152 (mulf (F := Ideal) (φ := .f32) P L) shapeCasts_S1x16x2097152_S16x2097152)
        bitsLt_bf16_f32) (ValueIdx.ix2 k n)
      = P (ValueIdx.ix3 g k n) * L (ValueIdx.ix3 g k n) := by
  show shapeCast S16x2097152 (mulf (F := Ideal) (φ := .f32) P L) shapeCasts_S1x16x2097152_S16x2097152 (ValueIdx.ix2 k n) = _
  rw [shapeCast_apply (mulf (F := Ideal) (φ := .f32) P L) shapeCasts_S1x16x2097152_S16x2097152 (ValueIdx.ix2 k n) (ValueIdx.ix3 g k n)
    (by rewrite [Shape.rowMajor_val_three, Shape.rowMajor_val_two]
        have hg : g.val < 1 := g.isLt
        show (g.val * 16 + k.val) * 2097152 + n.val = k.val * 2097152 + n.val
        omega)]
  rfl

/-- The basis without its batch axis, at (row j, feature f): the basis at (g, j, f). -/
theorem basis_flat_at (W : S1x48x27.Idx → EReal) (g : Fin 1) (j : Fin 48) (f : Fin 27) :
    (truncf (F := Ideal) .bf16 (shapeCast S48x27 W shapeCasts_S1x48x27_S48x27) bitsLt_bf16_f32) (ValueIdx.ix2 j f)
      = W (ValueIdx.ix3 g j f) := by
  show shapeCast S48x27 W shapeCasts_S1x48x27_S48x27 (ValueIdx.ix2 j f) = _
  exact shapeCast_apply W shapeCasts_S1x48x27_S48x27 (ValueIdx.ix2 j f) (ValueIdx.ix3 g j f)
    (by rewrite [Shape.rowMajor_val_three, Shape.rowMajor_val_two]
        have hg : g.val < 1 := g.isLt
        show (g.val * 48 + j.val) * 27 + f.val = j.val * 27 + f.val
        omega)

/-- Rows 0 … 15 of the basis, at (channel k, feature f). -/
theorem basis_slice0_at (W : S1x48x27.Idx → EReal) (g : Fin 1) (k : Fin 16) (f : Fin 27) :
    extractStridedSlice S16x27 ![0, 0] (truncf (F := Ideal) .bf16 (shapeCast S48x27 W shapeCasts_S1x48x27_S48x27) bitsLt_bf16_f32)
        slices_S48x27_S16x27_0_0 (ValueIdx.ix2 k f)
      = W (ValueIdx.ix3 g (⟨k.val, by omega⟩ : Fin 48) f) := by
  rw [extractStridedSlice_apply ![0, 0] _ slices_S48x27_S16x27_0_0 (ValueIdx.ix2 k f) (ValueIdx.ix2 (⟨k.val, by omega⟩ : Fin 48) f)
    (fun a => match a with
      | ⟨0, _⟩ => by show k.val = 0 + k.val; omega
      | ⟨1, _⟩ => by show f.val = 0 + f.val; omega)]
  exact basis_flat_at W g _ f

/-- Rows 16 … 31 of the basis. -/
theorem basis_slice1_at (W : S1x48x27.Idx → EReal) (g : Fin 1) (k : Fin 16) (f : Fin 27) :
    extractStridedSlice S16x27 ![16, 0] (truncf (F := Ideal) .bf16 (shapeCast S48x27 W shapeCasts_S1x48x27_S48x27) bitsLt_bf16_f32)
        slices_S48x27_S16x27_16_0 (ValueIdx.ix2 k f)
      = W (ValueIdx.ix3 g (⟨16 + k.val, by omega⟩ : Fin 48) f) := by
  rw [extractStridedSlice_apply ![16, 0] _ slices_S48x27_S16x27_16_0 (ValueIdx.ix2 k f) (ValueIdx.ix2 (⟨16 + k.val, by omega⟩ : Fin 48) f)
    (fun a => match a with
      | ⟨0, _⟩ => rfl
      | ⟨1, _⟩ => by show f.val = 0 + f.val; omega)]
  exact basis_flat_at W g _ f

/-- Rows 32 … 47 of the basis. -/
theorem basis_slice2_at (W : S1x48x27.Idx → EReal) (g : Fin 1) (k : Fin 16) (f : Fin 27) :
    extractStridedSlice S16x27 ![32, 0] (truncf (F := Ideal) .bf16 (shapeCast S48x27 W shapeCasts_S1x48x27_S48x27) bitsLt_bf16_f32)
        slices_S48x27_S16x27_32_0 (ValueIdx.ix2 k f)
      = W (ValueIdx.ix3 g (⟨32 + k.val, by omega⟩ : Fin 48) f) := by
  rw [extractStridedSlice_apply ![32, 0] _ slices_S48x27_S16x27_32_0 (ValueIdx.ix2 k f) (ValueIdx.ix2 (⟨32 + k.val, by omega⟩ : Fin 48) f)
    (fun a => match a with
      | ⟨0, _⟩ => rfl
      | ⟨1, _⟩ => by show f.val = 0 + f.val; omega)]
  exact basis_flat_at W g _ f

end Cert.KernelIdeal.WindowArrays

end
-- ==== Proof.SumSplit.lean ====
/-
  A sum over forty-eight terms is the sum of its three consecutive runs of sixteen.

  The reference contracts one axis of extent 48 — the three groups of sixteen feature channels laid end to end —
  against the 48 rows of the basis matrix; the kernel contracts each group of sixteen against its own sixteen rows
  and adds the three partial results, `(s₁ + s₂) + s₃`. The two agree because addition on the extended reals is
  commutative and associative: only the laws of a commutative monoid are used, so the statement needs no finiteness
  of the terms (an infinite product may occur among them; the regrouping is still an identity).
-/
import Mathlib.Algebra.BigOperators.Fin

namespace Cert.Proof.SumSplit

open Finset

/-- `∑ k < 48, f k = (∑ c < 16, f c + ∑ c < 16, f (16 + c)) + ∑ c < 16, f (32 + c)` in any commutative monoid. -/
theorem sum_fin48 {M : Type*} [AddCommMonoid M] (f : Fin 48 → M) :
    ∑ k : Fin 48, f k
      = (∑ c : Fin 16, f ⟨c.val, by omega⟩ + ∑ c : Fin 16, f ⟨16 + c.val, by omega⟩)
        + ∑ c : Fin 16, f ⟨32 + c.val, by omega⟩ := by
  have h := Fin.sum_univ_add (M := M) (a := 16 + 16) (b := 16) (f : Fin (16 + 16 + 16) → M)
  rw [Fin.sum_univ_add (M := M) (a := 16) (b := 16)] at h
  exact h

end Cert.Proof.SumSplit
-- ==== Proof.ReferenceValue.lean ====
/-
  The reference's result at an index, as three sums over sixteen channels.

  The reference samples three plane tables and three line tables at every point, in layout (batch, channel, point);
  transposes each sample to (batch, point, channel); multiplies plane by line channel by channel; lays the three products
  end to end on the channel axis (16 + 16 + 16 = 48); and contracts that axis with the 48 rows of the basis matrix:

      result (g, n, f) = ∑ j<48, cat (g, n, j) · basis (g, j, f).

  The concatenation at channel j < 16 is the first product at j, at 16 ≤ j < 32 the second at j − 16, and at 32 ≤ j the third
  at j − 32; a transposed sample at (g, n, k) is the sample at (g, k, n). Splitting the sum over 48 into its three runs of
  sixteen therefore gives

      result (g, n, f) = (∑ k<16, P₁(g,k,n) L₁(g,k,n) · basis (g, k, f) + ∑ k<16, P₂(g,k,n) L₂(g,k,n) · basis (g, 16+k, f))
                         + ∑ k<16, P₃(g,k,n) L₃(g,k,n) · basis (g, 32+k, f),

  where the six samples P₁ L₁ P₂ L₂ P₃ L₃ are left as they are: nothing here looks inside the interpolation.
-/
import proofs.«147507_j48223892799832_2_alg».proof.Proof.PatchedReadReference
import proofs.«147507_j48223892799832_2_alg».proof.Proof.SumSplit
import Idealize.ShloMosaic.Lib.Pipeline.Value
import Idealize.ShloMosaic.Lib.ValueIdx

noncomputable section

namespace Cert.ReferenceIdeal.RefValue

open Idealize.ShloMosaic Cert.ReferenceIdeal Cert.ReferenceIdeal.Gen Cert.ReferenceIdeal.ReadP

/-! ## The concatenation of three pieces of sixteen channels, read in each piece -/

/-- Channels 0 … 15 of the concatenation are the first piece. -/
theorem cat_first (A B C : S1x2097152x16.Idx → EReal) (i : S1x2097152x27.Idx) (k : Fin 16) :
    concatenate S1x2097152x48 2 [⟨S1x2097152x16, A⟩, ⟨S1x2097152x16, B⟩, ⟨S1x2097152x16, C⟩]
        concatenates_S1x2097152x16_S1x2097152x16_S1x2097152x16_S1x2097152x48_d2 (lidx_main_v673 i ⟨k.val, by omega⟩)
      = A (ValueIdx.ix3 (⟨(i 0).val, (i 0).isLt⟩ : Fin 1) (⟨(i 1).val, (i 1).isLt⟩ : Fin 2097152) k) :=
  concatenate_apply_piece (t := S1x2097152x48) 2 [⟨S1x2097152x16, A⟩, ⟨S1x2097152x16, B⟩, ⟨S1x2097152x16, C⟩]
    concatenates_S1x2097152x16_S1x2097152x16_S1x2097152x16_S1x2097152x48_d2
    (lidx_main_v673 i ⟨k.val, by omega⟩) 0 (by simp) S1x2097152x16 A rfl rfl 0 rfl
    (ValueIdx.ix3 (⟨(i 0).val, (i 0).isLt⟩ : Fin 1) (⟨(i 1).val, (i 1).isLt⟩ : Fin 2097152) k)
    (fun b hb => match b with
      | ⟨0, _⟩ => rfl
      | ⟨1, _⟩ => rfl
      | ⟨2, _⟩ => absurd rfl hb)
    (Nat.zero_add _)

/-- Channels 16 … 31 are the second piece. -/
theorem cat_second (A B C : S1x2097152x16.Idx → EReal) (i : S1x2097152x27.Idx) (k : Fin 16) :
    concatenate S1x2097152x48 2 [⟨S1x2097152x16, A⟩, ⟨S1x2097152x16, B⟩, ⟨S1x2097152x16, C⟩]
        concatenates_S1x2097152x16_S1x2097152x16_S1x2097152x16_S1x2097152x48_d2 (lidx_main_v673 i ⟨16 + k.val, by omega⟩)
      = B (ValueIdx.ix3 (⟨(i 0).val, (i 0).isLt⟩ : Fin 1) (⟨(i 1).val, (i 1).isLt⟩ : Fin 2097152) k) :=
  concatenate_apply_piece (t := S1x2097152x48) 2 [⟨S1x2097152x16, A⟩, ⟨S1x2097152x16, B⟩, ⟨S1x2097152x16, C⟩]
    concatenates_S1x2097152x16_S1x2097152x16_S1x2097152x16_S1x2097152x48_d2
    (lidx_main_v673 i ⟨16 + k.val, by omega⟩) 1 (by simp) S1x2097152x16 B rfl rfl 16 rfl
    (ValueIdx.ix3 (⟨(i 0).val, (i 0).isLt⟩ : Fin 1) (⟨(i 1).val, (i 1).isLt⟩ : Fin 2097152) k)
    (fun b hb => match b with
      | ⟨0, _⟩ => rfl
      | ⟨1, _⟩ => rfl
      | ⟨2, _⟩ => absurd rfl hb)
    rfl

/-- Channels 32 … 47 are the third piece. -/
theorem cat_third (A B C : S1x2097152x16.Idx → EReal) (i : S1x2097152x27.Idx) (k : Fin 16) :
    concatenate S1x2097152x48 2 [⟨S1x2097152x16, A⟩, ⟨S1x2097152x16, B⟩, ⟨S1x2097152x16, C⟩]
        concatenates_S1x2097152x16_S1x2097152x16_S1x2097152x16_S1x2097152x48_d2 (lidx_main_v673 i ⟨32 + k.val, by omega⟩)
      = C (ValueIdx.ix3 (⟨(i 0).val, (i 0).isLt⟩ : Fin 1) (⟨(i 1).val, (i 1).isLt⟩ : Fin 2097152) k) :=
  concatenate_apply_piece (t := S1x2097152x48) 2 [⟨S1x2097152x16, A⟩, ⟨S1x2097152x16, B⟩, ⟨S1x2097152x16, C⟩]
    concatenates_S1x2097152x16_S1x2097152x16_S1x2097152x16_S1x2097152x48_d2
    (lidx_main_v673 i ⟨32 + k.val, by omega⟩) 2 (by simp) S1x2097152x16 C rfl rfl 32 rfl
    (ValueIdx.ix3 (⟨(i 0).val, (i 0).isLt⟩ : Fin 1) (⟨(i 1).val, (i 1).isLt⟩ : Fin 2097152) k)
    (fun b hb => match b with
      | ⟨0, _⟩ => rfl
      | ⟨1, _⟩ => rfl
      | ⟨2, _⟩ => absurd rfl hb)
    rfl

/-! ## A product of two transposed samples at (batch, point, channel) -/

/-- A sample transposed from (batch, channel, point) to (batch, point, channel), at (g, n, k), is the sample at (g, k, n);
    so the product of two transposed samples there is the product of the samples at (g, k, n). -/
theorem transposed_product (P L : S1x16x2097152.Idx → EReal) (g : Fin 1) (n : Fin 2097152) (k : Fin 16) :
    mulf (F := Ideal) (φ := .f32)
        (transpose S1x2097152x16 [0, 2, 1] P transposes_S1x16x2097152_S1x2097152x16_0_2_1)
        (transpose S1x2097152x16 [0, 2, 1] L transposes_S1x16x2097152_S1x2097152x16_0_2_1) (ValueIdx.ix3 g n k)
      = P (ValueIdx.ix3 g k n) * L (ValueIdx.ix3 g k n) := by
  rw [ValueIdx.mulf_apply,
    transpose_apply [0, 2, 1] P transposes_S1x16x2097152_S1x2097152x16_0_2_1 (ValueIdx.ix3 g n k) (ValueIdx.ix3 g k n)
      (fun b => match b with | ⟨0, _⟩ => rfl | ⟨1, _⟩ => rfl | ⟨2, _⟩ => rfl),
    transpose_apply [0, 2, 1] L transposes_S1x16x2097152_S1x2097152x16_0_2_1 (ValueIdx.ix3 g n k) (ValueIdx.ix3 g k n)
      (fun b => match b with | ⟨0, _⟩ => rfl | ⟨1, _⟩ => rfl | ⟨2, _⟩ => rfl)]

/-! ## The result -/

/-- The reference's result at (g, n, f): the three channel sums, each sample product against its sixteen rows of the basis. -/
theorem result_at (x0 : (⟨S1x2097152x3, .f32⟩ : BufTy).Contents (Elt Ideal))
    (x1 x2 x3 : (⟨S1x16x320x320, .f32⟩ : BufTy).Contents (Elt Ideal)) (x4 x5 x6 : (⟨S1x16x320, .f32⟩ : BufTy).Contents (Elt Ideal))
    (x7 : (⟨S1x48x27, .f32⟩ : BufTy).Contents (Elt Ideal)) (i : S1x2097152x27.Idx) :
    val_main_v673 (F := Ideal) x0 x1 x2 x3 x4 x5 x6 x7 i
      = (∑ k : Fin 16,
            (val_main_v174 (F := Ideal) x0 x1 (ValueIdx.ix3 (⟨(i 0).val, (i 0).isLt⟩ : Fin 1) k (⟨(i 1).val, (i 1).isLt⟩ : Fin 2097152))
              * val_main_v225 (F := Ideal) x0 x6 (ValueIdx.ix3 (⟨(i 0).val, (i 0).isLt⟩ : Fin 1) k (⟨(i 1).val, (i 1).isLt⟩ : Fin 2097152)))
            * x7 (ValueIdx.ix3 (⟨(i 0).val, (i 0).isLt⟩ : Fin 1) (⟨k.val, by omega⟩ : Fin 48) (⟨(i 2).val, (i 2).isLt⟩ : Fin 27))
          + ∑ k : Fin 16,
            (val_main_v396 (F := Ideal) x0 x3 (ValueIdx.ix3 (⟨(i 0).val, (i 0).isLt⟩ : Fin 1) k (⟨(i 1).val, (i 1).isLt⟩ : Fin 2097152))
              * val_main_v447 (F := Ideal) x0 x5 (ValueIdx.ix3 (⟨(i 0).val, (i 0).isLt⟩ : Fin 1) k (⟨(i 1).val, (i 1).isLt⟩ : Fin 2097152)))
            * x7 (ValueIdx.ix3 (⟨(i 0).val, (i 0).isLt⟩ : Fin 1) (⟨16 + k.val, by omega⟩ : Fin 48) (⟨(i 2).val, (i 2).isLt⟩ : Fin 27)))
        + ∑ k : Fin 16,
            (val_main_v618 (F := Ideal) x0 x2 (ValueIdx.ix3 (⟨(i 0).val, (i 0).isLt⟩ : Fin 1) k (⟨(i 1).val, (i 1).isLt⟩ : Fin 2097152))
              * val_main_v669 (F := Ideal) x0 x4 (ValueIdx.ix3 (⟨(i 0).val, (i 0).isLt⟩ : Fin 1) k (⟨(i 1).val, (i 1).isLt⟩ : Fin 2097152)))
            * x7 (ValueIdx.ix3 (⟨(i 0).val, (i 0).isLt⟩ : Fin 1) (⟨32 + k.val, by omega⟩ : Fin 48) (⟨(i 2).val, (i 2).isLt⟩ : Fin 27)) := by
  rw [val_main_v673_apply, Cert.Proof.SumSplit.sum_fin48]
  unfold val_main_v672
  have basis_at : ∀ j : Fin 48, x7 (ridx_main_v673 i j)
      = x7 (ValueIdx.ix3 (⟨(i 0).val, (i 0).isLt⟩ : Fin 1) j (⟨(i 2).val, (i 2).isLt⟩ : Fin 27)) := fun j =>
    congrArg x7 (funext fun a => match a with | ⟨0, _⟩ => rfl | ⟨1, _⟩ => rfl | ⟨2, _⟩ => rfl)
  refine congrArg₂ (· + ·) (congrArg₂ (· + ·) ?_ ?_) ?_
  · refine Finset.sum_congr rfl fun k _ => congrArg₂ (· * ·) ?_ (basis_at _)
    refine (cat_first _ _ _ i k).trans ?_
    unfold val_main_v227 val_main_v175 val_main_v226
    exact transposed_product _ _ _ _ k
  · refine Finset.sum_congr rfl fun k _ => congrArg₂ (· * ·) ?_ (basis_at _)
    refine (cat_second _ _ _ i k).trans ?_
    unfold val_main_v449 val_main_v397 val_main_v448
    exact transposed_product _ _ _ _ k
  · refine Finset.sum_congr rfl fun k _ => congrArg₂ (· * ·) ?_ (basis_at _)
    refine (cat_third _ _ _ i k).trans ?_
    unfold val_main_v671 val_main_v619 val_main_v670
    exact transposed_product _ _ _ _ k

end Cert.ReferenceIdeal.RefValue

end
-- ==== Proof.Bridge.lean ====
/-
  The kernel's result and the reference's result are one function of the arguments.

  Write P₁ L₁, P₂ L₂, P₃ L₃ for the three (plane sample, line sample) pairs, as functions of the arguments, and W for the
  basis matrix. The kernel's result at (g, n, f) is the region's output at (n, f):

      (∑ k<16, A(k,n) a(k,f) + ∑ k<16, B(k,n) b(k,f)) + ∑ k<16, C(k,n) c(k,f),

  where A(k,n) = P₁(g,k,n) · L₁(g,k,n) (the product of the samples, its batch axis dropped, its format changed — the
  identity at the exact values), B and C likewise, and a(k,f) = W(g, k, f), b(k,f) = W(g, 16+k, f), c(k,f) = W(g, 32+k, f)
  (the three runs of sixteen rows). The reference's result at (g, n, f) is the same three sums, obtained by splitting its
  one sum over 48 channels. The two agree term by term; no property of the samples or of the numbers is used beyond
  the commutative-monoid laws behind that splitting, so the precondition (finite inputs) is not needed.
-/
import proofs.«147507_j48223892799832_2_alg».proof.Proof.WindowArrays
import proofs.«147507_j48223892799832_2_alg».proof.Proof.RegionValue
import proofs.«147507_j48223892799832_2_alg».proof.Proof.ReferenceValue

noncomputable section

namespace Cert.Proof.Bridge

open Idealize.ShloMosaic

/-- With the six window arrays given by their defining terms, the reshaped region output is the reference's last stage. -/
theorem result_eq (x0 : (⟨Cert.ReferenceIdeal.S1x2097152x3, .f32⟩ : BufTy).Contents (Elt Ideal))
    (x1 x2 x3 : (⟨Cert.ReferenceIdeal.S1x16x320x320, .f32⟩ : BufTy).Contents (Elt Ideal))
    (x4 x5 x6 : (⟨Cert.ReferenceIdeal.S1x16x320, .f32⟩ : BufTy).Contents (Elt Ideal))
    (x7 : (⟨Cert.ReferenceIdeal.S1x48x27, .f32⟩ : BufTy).Contents (Elt Ideal))
    (A B C : Cert.KernelIdeal.S16x2097152.Idx → EReal) (a b c : Cert.KernelIdeal.S16x27.Idx → EReal)
    (hA : A = truncf (F := Ideal) .bf16 (shapeCast Cert.KernelIdeal.S16x2097152 (mulf (F := Ideal) (φ := .f32) (Cert.ReferenceIdeal.ReadP.val_main_v174 (F := Ideal) x0 x1) (Cert.ReferenceIdeal.ReadP.val_main_v225 (F := Ideal) x0 x6)) Cert.KernelIdeal.Gen.shapeCasts_S1x16x2097152_S16x2097152) Cert.KernelIdeal.Gen.bitsLt_bf16_f32)
    (hB : B = truncf (F := Ideal) .bf16 (shapeCast Cert.KernelIdeal.S16x2097152 (mulf (F := Ideal) (φ := .f32) (Cert.ReferenceIdeal.ReadP.val_main_v396 (F := Ideal) x0 x3) (Cert.ReferenceIdeal.ReadP.val_main_v447 (F := Ideal) x0 x5)) Cert.KernelIdeal.Gen.shapeCasts_S1x16x2097152_S16x2097152) Cert.KernelIdeal.Gen.bitsLt_bf16_f32)
    (hC : C = truncf (F := Ideal) .bf16 (shapeCast Cert.KernelIdeal.S16x2097152 (mulf (F := Ideal) (φ := .f32) (Cert.ReferenceIdeal.ReadP.val_main_v618 (F := Ideal) x0 x2) (Cert.ReferenceIdeal.ReadP.val_main_v669 (F := Ideal) x0 x4)) Cert.KernelIdeal.Gen.shapeCasts_S1x16x2097152_S16x2097152) Cert.KernelIdeal.Gen.bitsLt_bf16_f32)
    (ha : a = extractStridedSlice Cert.KernelIdeal.S16x27 ![0, 0] (truncf (F := Ideal) .bf16 (shapeCast Cert.KernelIdeal.S48x27 x7 Cert.KernelIdeal.Gen.shapeCasts_S1x48x27_S48x27) Cert.KernelIdeal.Gen.bitsLt_bf16_f32) Cert.KernelIdeal.Gen.slices_S48x27_S16x27_0_0)
    (hb : b = extractStridedSlice Cert.KernelIdeal.S16x27 ![16, 0] (truncf (F := Ideal) .bf16 (shapeCast Cert.KernelIdeal.S48x27 x7 Cert.KernelIdeal.Gen.shapeCasts_S1x48x27_S48x27) Cert.KernelIdeal.Gen.bitsLt_bf16_f32) Cert.KernelIdeal.Gen.slices_S48x27_S16x27_16_0)
    (hc : c = extractStridedSlice Cert.KernelIdeal.S16x27 ![32, 0] (truncf (F := Ideal) .bf16 (shapeCast Cert.KernelIdeal.S48x27 x7 Cert.KernelIdeal.Gen.shapeCasts_S1x48x27_S48x27) Cert.KernelIdeal.Gen.bitsLt_bf16_f32) Cert.KernelIdeal.Gen.slices_S48x27_S16x27_32_0) :
    shapeCast Cert.KernelIdeal.S1x2097152x27 (Cert.KernelIdeal.Region.mix A B C a b c) Cert.KernelIdeal.Gen.shapeCasts_S2097152x27_S1x2097152x27
      = Cert.ReferenceIdeal.ReadP.val_main_v673 (F := Ideal) x0 x1 x2 x3 x4 x5 x6 x7 := by
  subst hA hB hC ha hb hc
  funext i
  rw [Cert.ReferenceIdeal.RefValue.result_at,
    shapeCast_addUnit_apply (n := 2) ![2097152, 27] _ Cert.KernelIdeal.Gen.shapeCasts_S2097152x27_S1x2097152x27 i]
  unfold Cert.KernelIdeal.Region.mix
  refine congrArg₂ (· + ·) (congrArg₂ (· + ·) ?_ ?_) ?_
  · refine Finset.sum_congr rfl fun k _ => congrArg₂ (· * ·) ?_ ?_
    · exact Cert.KernelIdeal.WindowArrays.feature_at _ _ (⟨(i 0).val, (i 0).isLt⟩ : Fin 1) k _
    · exact Cert.KernelIdeal.WindowArrays.basis_slice0_at x7 (⟨(i 0).val, (i 0).isLt⟩ : Fin 1) k _
  · refine Finset.sum_congr rfl fun k _ => congrArg₂ (· * ·) ?_ ?_
    · exact Cert.KernelIdeal.WindowArrays.feature_at _ _ (⟨(i 0).val, (i 0).isLt⟩ : Fin 1) k _
    · exact Cert.KernelIdeal.WindowArrays.basis_slice1_at x7 (⟨(i 0).val, (i 0).isLt⟩ : Fin 1) k _
  · refine Finset.sum_congr rfl fun k _ => congrArg₂ (· * ·) ?_ ?_
    · exact Cert.KernelIdeal.WindowArrays.feature_at _ _ (⟨(i 0).val, (i 0).isLt⟩ : Fin 1) k _
    · exact Cert.KernelIdeal.WindowArrays.basis_slice2_at x7 (⟨(i 0).val, (i 0).isLt⟩ : Fin 1) k _

end Cert.Proof.Bridge

end
-- ==== Proof.lean ====
/-
  A factorized voxel grid: features of two million points, each a sum over 48 channels.

  Both programs take points in [-1, 1]³, three plane tables (16 channels × 320 × 320), three line tables (16 channels × 320)
  and a basis matrix (48 × 27). For each point they sample every plane bilinearly and every line linearly (zero outside the
  table), multiply each plane sample by the sample of the complementary line, channel by channel — three products of
  sixteen channels each — and map the 48 resulting channels to 27 output features by the basis matrix.

  The sampling is the same host code in both programs, operation for operation. They differ after it. The reference
  transposes the samples to (point, channel), multiplies, lays the three products end to end and contracts the 48 channels
  with the basis in one matrix product. The kernel multiplies in (channel, point) layout, changes the products and the
  basis to a shorter float format, cuts the basis into its three runs of sixteen rows, and in 64 grid steps of 32768 points
  each forms the three 16-channel products with the three basis slices and adds them.

  At the exact values a change of float format is the identity and a matrix product is a plain sum, so the kernel computes

      (∑ k<16, P₁L₁(k,n) W(k,f) + ∑ k<16, P₂L₂(k,n) W(16+k,f)) + ∑ k<16, P₃L₃(k,n) W(32+k,f)

  and the reference ∑ j<48, cat(n,j) W(j,f) with cat the three products laid end to end: the same number, by splitting
  the sum over 48 into its three runs of sixteen. Only commutativity and associativity of addition on the extended reals
  are used, so the finiteness of the inputs is not: the two results agree for every input.

  The pieces: LibNary3 (an operation with three operands, read at its result), SumSplit (the sum over 48), MatmulBody (one grid step), RegionValue (the 64 steps tile the output),
  KernelRun and ReferenceRun (each program's run with its result named; ReferenceProducts and ReferenceTop are the latter's two halves), WindowArrays and KernelHead (what the region reads, in terms of the
  samples), ReferenceValue (the reference's result at an index), Bridge (the two are one function). The ideal pass rewrote
  nothing in the kernel, so that the idealized kernel is the kernel's sanctioned idealization holds trivially.
-/
import proofs.«147507_j48223892799832_2_alg».proof.Defs
import proofs.«147507_j48223892799832_2_alg».proof.Proof.Gen.Kernel
import proofs.«147507_j48223892799832_2_alg».proof.Proof.Gen.KernelIdeal
import proofs.«147507_j48223892799832_2_alg».proof.Proof.Gen.ReferenceIdeal
import proofs.«147507_j48223892799832_2_alg».proof.Proof.Gen.Pre_finite_inputs
import proofs.«147507_j48223892799832_2_alg».proof.Proof.PatchedFrameKernel
import proofs.«147507_j48223892799832_2_alg».proof.Proof.PatchedFrameKernelIdeal
import proofs.«147507_j48223892799832_2_alg».proof.Proof.PatchedRunReference
import proofs.«147507_j48223892799832_2_alg».proof.Proof.PatchedReadReference
import proofs.«147507_j48223892799832_2_alg».proof.Proof.ReferenceRun
import proofs.«147507_j48223892799832_2_alg».proof.Proof.KernelRun
import proofs.«147507_j48223892799832_2_alg».proof.Proof.KernelHead
import proofs.«147507_j48223892799832_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.GenP.frame m ρ

/-- So does the idealized kernel. -/
theorem frame_kernel_ideal : Cert.frame_KernelIdeal := fun m ρ _ => Cert.KernelIdeal.GenP.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.RefRun.run m ρ)

/-- The ideal pass rewrote no operation of the kernel: nothing to preserve. -/
theorem preserves : Cert.preserves_Kernel_KernelIdeal := trivial

/-- From memories that agree on the arguments both programs end with the same result: the kernel's run leaves the
    reshaped region output, the reference's run its last stage, and the two are one function of the arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1,
    (hagree c).2.2.2.2.1, (hagree c).2.2.2.2.2.1, (hagree c).2.2.2.2.2.2.1, (hagree c).2.2.2.2.2.2.2]
  unfold Cert.KernelIdeal.Region.out
  exact (Cert.Proof.Bridge.result_eq _ _ _ _ _ _ _ _ _ _ _ _ _ _
    (Cert.KernelIdeal.Head.window0 m c) (Cert.KernelIdeal.Head.window1 m c) (Cert.KernelIdeal.Head.window2 m c)
    (Cert.KernelIdeal.Head.window3 m c) (Cert.KernelIdeal.Head.window4 m c) (Cert.KernelIdeal.Head.window5 m c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
